-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S4096x1 : Shape := ⟨2, ![4096, 1]⟩
abbrev S1024x256 : Shape := ⟨2, ![1024, 256]⟩
abbrev S1024x1 : Shape := ⟨2, ![1024, 1]⟩
abbrev S1024 : Shape := ⟨1, ![1024]⟩
abbrev S8192x256 : Shape := ⟨2, ![8192, 256]⟩
abbrev S4096 : Shape := ⟨1, ![4096]⟩
abbrev S8192 : Shape := ⟨1, ![8192]⟩
abbrev S8192x1 : Shape := ⟨2, ![8192, 1]⟩
abbrev S256x1024 : Shape := ⟨2, ![256, 1024]⟩
abbrev S1024x1024 : Shape := ⟨2, ![1024, 1024]⟩
abbrev S_ : Shape := ⟨0, ![]⟩

abbrev nBuf : Space → Nat
  | .hbm => 18
  | .vmem => 17
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x1, .f32⟩
  | .hbm, ⟨5, _⟩ => ⟨S8192x256, .f32⟩
  | .hbm, ⟨6, _⟩ => ⟨S4096, .f32⟩
  | .hbm, ⟨7, _⟩ => ⟨S4096, .f32⟩
  | .hbm, ⟨8, _⟩ => ⟨S8192, .f32⟩
  | .hbm, ⟨9, _⟩ => ⟨S8192x1, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x1, .f32⟩
  | .local _ .vmem, ⟨9, _⟩ => ⟨S1024x1, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x1, .f32⟩
  | .local _ .vmem, ⟨15, _⟩ => ⟨S1024x1, .f32⟩
  | .local _ .vmem, ⟨16, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def k1_cond4 (i : grid1.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_7 : BitVec 32 := 0#32
  let v20 : BitVec 1 := Scalar.cmpi .ne v19 c0_i32_7
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  inb_S1024x1_S1024x1_0_0 : ∀ a, (![0, 0] : Fin 2 → Nat) a + S1024x1.size a ≤ S1024x1.size a
  h_S1024x1 : 0 < S1024x1.numel
  concatenates_S4096x256_S4096x256_S8192x256_d0 : Shape.Concatenates [S4096x256, S4096x256] S8192x256 0
  shapeCasts_S4096x1_S4096 : S4096x1.ShapeCasts S4096
  concatenates_S4096_S4096_S8192_d0 : Shape.Concatenates [S4096, S4096] S8192 0
  shapeCasts_S1024x1_S1024x1 : S1024x1.ShapeCasts S1024x1
  shapeCasts_S1024x256_S1024x256 : S1024x256.ShapeCasts S1024x256
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S8192x1_S8192 : S8192x1.ShapeCasts S8192
  reducesTo_S8192_S_d0 : S8192.ReducesTo [0] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .f32 = 32 ∨ (Rect.block (s := S4096x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x256.size a
  hwx0_3 : ∀ i : grid0.Coords, EltTy.bits .f32 = 32 ∨ (Rect.block (s := S4096x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond4 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S4096 : Shape := ⟨1, ![4096]⟩
abbrev S4096x1 : Shape := ⟨2, ![4096, 1]⟩
abbrev S4096x2 : Shape := ⟨2, ![4096, 2]⟩

abbrev nBuf : Space → Nat
  | .hbm => 85
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S256x8192, .f32⟩
  | .hbm, ⟨14, _⟩ => ⟨S8192x8192, .f32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S4096x1, .i32⟩
  | .hbm, ⟨36, _⟩ => ⟨S4096x2, .i32⟩
  | .hbm, ⟨37, _⟩ => ⟨S4096, .f32⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S4096x1, .i32⟩
  | .hbm, ⟨58, _⟩ => ⟨S4096x1, .i32⟩
  | .hbm, ⟨59, _⟩ => ⟨S4096x2, .i32⟩
  | .hbm, ⟨60, _⟩ => ⟨S4096, .f32⟩
  | .hbm, ⟨61, _⟩ => ⟨S8192, .f32⟩
  | .hbm, ⟨62, _⟩ => ⟨S8192x8192, .i32⟩
  | .hbm, ⟨63, _⟩ => ⟨S8192x8192, .i32⟩
  | .hbm, ⟨64, _⟩ => ⟨S_, .i32⟩
  | .hbm, ⟨65, _⟩ => ⟨S8192x8192, .i32⟩
  | .hbm, ⟨66, _⟩ => ⟨S8192x8192, .i32⟩
  | .hbm, ⟨67, _⟩ => ⟨S8192x8192, .i1⟩
  | .hbm, ⟨68, _⟩ => ⟨S_, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S8192, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_v0 : Ref sig .tc := ⟨.hbm, 15, rfl⟩
abbrev main_call1_v1 : Ref sig .tc := ⟨.hbm, 16, rfl⟩
abbrev main_call1_c : Ref sig .tc := ⟨.hbm, 17, rfl⟩
abbrev main_call1_v2 : Ref sig .tc := ⟨.hbm, 18, rfl⟩
abbrev main_call1_v3 : Ref sig .tc := ⟨.hbm, 19, rfl⟩
abbrev main_call1_c_0 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c_2 : Ref sig .tc := ⟨.hbm, 27, rfl⟩
abbrev main_call1_v9 : Ref sig .tc := ⟨.hbm, 28, rfl⟩
abbrev main_call1_v10 : Ref sig .tc := ⟨.hbm, 29, rfl⟩
abbrev main_call1_c_3 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_v15 : Ref sig .tc := ⟨.hbm, 35, rfl⟩
abbrev main_call1_v16 : Ref sig .tc := ⟨.hbm, 36, rfl⟩
abbrev main_v8 : Ref sig .tc := ⟨.hbm, 37, rfl⟩
abbrev main_call2_v0 : Ref sig .tc := ⟨.hbm, 38, rfl⟩
abbrev main_call2_v1 : Ref sig .tc := ⟨.hbm, 39, rfl⟩
abbrev main_call2_c : Ref sig .tc := ⟨.hbm, 40, rfl⟩
abbrev main_call2_v2 : Ref sig .tc := ⟨.hbm, 41, rfl⟩
abbrev main_call2_v3 : Ref sig .tc := ⟨.hbm, 42, rfl⟩
abbrev main_call2_c_0 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c_2 : Ref sig .tc := ⟨.hbm, 50, rfl⟩
abbrev main_call2_v9 : Ref sig .tc := ⟨.hbm, 51, rfl⟩
abbrev main_call2_v10 : Ref sig .tc := ⟨.hbm, 52, rfl⟩
abbrev main_call2_c_3 : Ref sig .tc := ⟨.hbm, 53, rfl⟩
abbrev main_call2_v11 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_v15 : Ref sig .tc := ⟨.hbm, 58, rfl⟩
abbrev main_call2_v16 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_c : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_cst_0 : Ref sig .tc := ⟨.hbm, 68, rfl⟩
abbrev main_call3_v0 : Ref sig .tc := ⟨.hbm, 69, rfl⟩
abbrev main_call3_v1 : Ref sig .tc := ⟨.hbm, 70, rfl⟩
abbrev main_v16 : Ref sig .tc := ⟨.hbm, 71, rfl⟩
abbrev main_cst_1 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_cst_2 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_cst_3 : Ref sig .tc := ⟨.hbm, 80, rfl⟩
abbrev main_v23 : Ref sig .tc := ⟨.hbm, 81, rfl⟩
abbrev main_cst_4 : Ref sig .tc := ⟨.hbm, 82, rfl⟩
abbrev main_v24 : Ref sig .tc := ⟨.hbm, 83, rfl⟩
abbrev main_v25 : Ref sig .tc := ⟨.hbm, 84, rfl⟩

abbrev nD : Nat := 1
abbrev τ : Topo := Topo.v7x

variable {F : FTy → Type} [FloatOps F]

class Facts₀ : Prop where
  concatenates_S4096x256_S4096x256_S8192x256_d0 : Shape.Concatenates [S4096x256, S4096x256] S8192x256 0
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.Run.lean ====
/-
  The whole program as one run, for any float instance.

  @main is four items: the row-normalising region, a host stretch (stack the two normalised halves; lay the
  row-pair products end to end twice), the denominator region, a host stretch (the quotient, logarithm, mean and
  sign). Between two items every buffer that outlives a region holds known contents, a fold from the launch memory:
  a region changes only its output arrays, which end at what its write-backs leave; a host stretch changes only the
  buffers its operations write. The run: every weakly fair execution terminates and each such buffer ends at the
  last fold. Nothing here looks inside a region: each region enters as its proof data and its body obligation
  (`Reg0`, `Reg1`). The second region reads ONE array through two windows; that array's ownership is split in two
  halves on the way in and joined on the way out.
-/
import proofs.«169832_j86492051407493_2_alg».proof.Proof.Gen.KernelIdeal.Launch
import proofs.«169832_j86492051407493_2_alg».proof.Proof.Gen.KernelIdeal.Points
import proofs.«169832_j86492051407493_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The contents a region finds in the buffers that outlive it, per core. -/
abbrev Entry (F : FTy → Type) [FloatOps F] : Type :=
  (c : Dev nD) → (b : Ref sig .tc) → Buf (Elt F) ((c : Thread nD τ).loc b)

/-- What the run needs of the first region: proof data at any entry contents whose arrays are those contents, every
    input held whole, nothing owed, the invariant the scoped rest and the generator register; and the body obligation. -/
structure Reg0 (F : FTy → Type) [FloatOps F] where
  dat : Entry F → (c : Dev nD) → Dat τ (Elt F) Unit ℕ (UR sig nD τ) ℕ cfg0 c
  hA : ∀ V c w, (dat V c).A w = V c (Pipeline.arrRef spec0 w)
  hq : ∀ V c w, (dat V c).q w = fullShare
  howed : ∀ V c t, (dat V c).owed t = 0
  hrec : ∀ V c t, (dat V c).recorded t = Set.univ
  hΦ : ∀ V c t, (dat V c).Φ t = Pipeline.ΦA (U := UR sig nD τ) spec0 c
  hbody : ∀ V c, BodyObligation (dat V c) (defs₀ (F := F)) Variants.none () Set.univ

/-- What the run needs of the second region: the same, except that its two input windows hold the two halves of the
    one array they read, and its invariant (which carries the accumulator) is only known to be made from, and to
    give back, the scoped rest and the generator register. -/
structure Reg1 (F : FTy → Type) [FloatOps F] where
  dat : Entry F → (c : Dev nD) → Dat τ (Elt F) Unit ℕ (UR sig nD τ) ℕ cfg1 c
  hA : ∀ V c w, (dat V c).A w = V c (Pipeline.arrRef spec1 w)
  hs0 : ∀ V c, (dat V c).share 0 = fullShare.left
  hs1 : ∀ V c, (dat V c).share 1 = fullShare.right
  hs2 : ∀ V c, (dat V c).share 2 = fullShare
  howed : ∀ V c t, (dat V c).owed t = 0
  hrec : ∀ V c t, (dat V c).recorded t = Set.univ
  hin : ∀ V c, iprop((∃ r, prngReg c r) ∗ Pipeline.scopedRest (Ix := Unit) (Name := ℕ) (U := UR sig nD τ) (Lvl := ℕ) (Val := Elt F) spec1 c)
    ⊢ ((dat V c).Φ 0 : sProp (MT nD τ sig Unit (Elt F) ℕ (UR sig nD τ) ℕ))
  hout : ∀ V c, ((dat V c).Φ (Fin.last cfg1.N) : sProp (MT nD τ sig Unit (Elt F) ℕ (UR sig nD τ) ℕ))
    ⊢ iprop((∃ r, prngReg c r) ∗ Pipeline.scopedRest (Ix := Unit) (Name := ℕ) (U := UR sig nD τ) (Lvl := ℕ) (Val := Elt F) spec1 c)
  hbody : ∀ V c, BodyObligation (dat V c) (defs₀ (F := F)) Variants.none () Set.univ

variable (R0 : Reg0 F) (R1 : Reg1 F)
variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- The same at the TensorCore's references: what the first region finds. -/
abbrev E0 : Entry F := fun c b => W0 m ρ c b
/-- After the first region: its arrays at what its write-backs leave, every other buffer untouched. -/
def W1 (c : Dev nD) : Valuation τ sig (Elt F) :=
  Pipeline.withArrays spec0 c (W0 m ρ c) fun w => (R0.dat (E0 m ρ) c).arrAt w cfg0.N
abbrev E1 : Entry F := fun c b => W1 R0 m ρ c b
/-- After the first host stretch: what the second region finds. -/
abbrev W2 : Dev nD → Valuation τ sig (Elt F) := fun c => StableHlo.after hostOps1 (W1 R0 m ρ c)
abbrev E2 : Entry F := fun c b => W2 R0 m ρ c b
/-- After the second region: its one output array at what its write-backs leave. -/
def W3 (c : Dev nD) : Valuation τ sig (Elt F) :=
  Function.update (W2 R0 m ρ c) (Proc.devRef .tc main_v5 : DevRef τ sig) ((R1.dat (E2 R0 m ρ) c).arrAt 2 cfg1.N)
abbrev E3 : Entry F := fun c b => W3 R0 R1 m ρ c b
/-- After the second host stretch: the end. -/
abbrev W4 : Dev nD → Valuation τ sig (Elt F) := fun c => StableHlo.after hostOps2 (W3 R0 R1 m ρ c)

theorem W1_arr (c : Dev nD) (w : Fin cfg0.W) :
    W1 R0 m ρ c (Proc.devRef .tc (Pipeline.arrRef spec0 w)) = (R0.dat (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 R0 m ρ c (Proc.devRef .tc b) = W0 m ρ c (Proc.devRef .tc b) := by
  unfold W1; exact Pipeline.withArrays_of_ne spec0 c _ _ b hb
theorem W3_out (c : Dev nD) : W3 R0 R1 m ρ c (Proc.devRef .tc main_v5) = (R1.dat (E2 R0 m ρ) c).arrAt 2 cfg1.N := by
  unfold W3; exact Function.update_self ..
theorem W3_of_ne (c : Dev nD) (b : Ref sig .tc) (hb : b ≠ main_v5) :
    W3 R0 R1 m ρ c (Proc.devRef .tc b) = W2 R0 m ρ c (Proc.devRef .tc b) := by
  unfold W3; exact Function.update_of_ne (StableHlo.devRef_ne_of_ne hb) ..

/-! ## The proof data family and what rides beside the buffers -/

/-- Each pipeline's proof data at the contents its region finds. -/
def pdats : (p : Fin 2) → (c : Dev nD) → Dat τ (Elt F) Unit ℕ (UR sig nD τ) ℕ (Pipeline.pin (pcfgs (F := F)) adm p) c
  | ⟨0, _⟩ => fun c => R0.dat (E0 m ρ) c
  | ⟨1, _⟩ => fun c => R1.dat (E2 R0 m ρ) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every item: the generator register at some state and the core owing nothing. -/
abbrev Rest (c : Dev nD) : sProp 𝕄 :=
  iprop((∃ r, prngReg c r) ∗ ∃ W, owes (c : Thread nD τ) (0 : CellTallies nD τ sig Unit) W)

/-- A host stretch over the buffers that outlive regions, from contents `W`, the rest riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region -/

theorem exit0_arr (c : Dev nD) (w : Fin cfg0.W) :
    (R0.dat (E0 m ρ) c).arrAt w cfg0.N = E1 R0 m ρ c (Pipeline.arrRef spec0 w) := (W1_arr R0 m ρ c w).symm
theorem exit0_rest (c : Dev nD) : ∀ b, b ∉ Finset.univ.image (Pipeline.arrRef spec0) → E1 R0 m ρ c b = E0 m ρ c b :=
  fun b hb => W1_of_ne R0 m ρ c b fun w e => hb (Finset.mem_image.mpr ⟨w, Finset.mem_univ _, e⟩)

set_option backward.isDefEq.respectTransparency.types false in
/-- The normalising region between the launch contents and `W1`: its five arrays are split out of the buffers and
    put back at their final contents; the generator register enters the invariant and comes back; nothing is owed. -/
def reg0 : Pipeline.RegionSeg (pcfgs (F := F)) adm (pdats R0 R1 m ρ) () defs₀ 𝒱₀ L lv 0 where
  win := launch0.win.to₀
  block_pos := launch0.block_pos
  stage_whole := launch0.stage_whole
  K := PEmpty
  osem k := k.elim
  ho := Pipeline.OwnSemFacts.none _
  hbody c := (R0.hbody (E0 m ρ) c).loose
  hwaits := Pipeline.hwaits_of_owed_zero _ _ _ _ L lv 0 fun c t => R0.howed (E0 m ρ) c t
  pre c := iprop(StableHlo.held (c : Thread nD τ) (Pipeline.ucRefs τ sig) (W0 m ρ c) ∗ Rest c)
  post c := iprop(StableHlo.held (c : Thread nD τ) (Pipeline.ucRefs τ sig) (W1 R0 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats R0 R1 m ρ) launch0.win launch0.arr_whole c
      ((pdats R0 R1 m ρ 0 c).share_full fun w => R0.hq (E0 m ρ) c w) (E0 m ρ c) fun w => R0.hA (E0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R0 R1 m ρ 0 c).owed 0 = 0 from R0.howed (E0 m ρ) c 0]
      icases HO with ⟨%W, HO⟩; iexists W; isplitr
      · ipureintro; exact fun x _ => Or.inl (show x ∈ (R0.dat (E0 m ρ) c).recorded 0 from (R0.hrec (E0 m ρ) c 0).symm ▸ Set.mem_univ x)
      iexact HO
    isplitl [Hp]; · iexact Hp
    iexact Hrest
  hin c := by
    rw [show (pdats R0 R1 m ρ 0 c).Φ 0 = Pipeline.ΦA (U := UR sig nD τ) spec0 c from R0.hΦ (E0 m ρ) c 0]; unfold Pipeline.ΦA
    iintro ⟨Hp, -, Hr⟩
    isplitl [Hr]; · iexact Hr
    iexact Hp
  hout c := by
    rw [Pipeline.ownSems0_none, show (pdats R0 R1 m ρ 0 c).Φ (Fin.last _) = Pipeline.ΦA (U := UR sig nD τ) spec0 c from R0.hΦ (E0 m ρ) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R0 R1 m ρ) ((pdats R0 R1 m ρ 0 c).share_full fun w => R0.hq (E0 m ρ) c w)
      (E0 m ρ c) (E1 R0 m ρ c) ((pdats R0 R1 m ρ 0 c).arrAt · cfg0.N) (exit0_arr R0 m ρ c) (exit0_rest R0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats R0 R1 m ρ 0 c).owed (Fin.last _) = 0 from R0.howed (E0 m ρ) c _]
    icases HO with ⟨%W, -, HO⟩; iexists W; iexact HO

/-! ## The second region: one array behind two windows -/

/-- The arrays behind the second region's three windows are two buffers. -/
theorem arrs1 : Finset.univ.image (Pipeline.arrRef spec1) = {main_v1, main_v5} := by decide

/-- Entering: the stacked matrix, held whole, is split into the two halves its two windows hold; the output array is
    held whole. The contents are what the region finds. -/
theorem enter1 (c : Dev nD) :
    (Pipeline.arrBufs (Ix := Unit) (Name := ℕ) (U := UR sig nD τ) (Lvl := ℕ) spec1 c (E2 R0 m ρ c) : sProp 𝕄)
      ⊢ (R1.dat (E2 R0 m ρ) c).arrays ((R1.dat (E2 R0 m ρ) c).arrAt · 0) := by
  unfold Pipeline.arrBufs Dat.arrays
  rw [arrs1, bigSep_insert (by decide), bigSep_singleton, bigSep_W1, R1.hs0, R1.hs1, R1.hs2,
    (arr_whole1 0).set_eq_univ, (arr_whole1 2).set_eq_univ]
  beta_reduce
  rw [show (R1.dat (E2 R0 m ρ) c).arrAt 0 0 = E2 R0 m ρ c main_v1 from R1.hA _ c 0,
    show (R1.dat (E2 R0 m ρ) c).arrAt 1 0 = E2 R0 m ρ c main_v1 from R1.hA _ c 1,
    show (R1.dat (E2 R0 m ρ) c).arrAt 2 0 = E2 R0 m ρ c main_v5 from R1.hA _ c 2]
  show (iprop((((c : Thread nD τ).loc main_v1) ↦{fullShare} E2 R0 m ρ c main_v1) ∗ (((c : Thread nD τ).loc main_v5) ↦{fullShare} E2 R0 m ρ c main_v5)) : sProp 𝕄) ⊢ _
  iintro ⟨H1, H5⟩
  ihave H := (pointsTo_share (PosShare.mem_left_op_right fullShare)).1 $$ H1
  icases H with ⟨Hl, Hr⟩
  isplitl [Hl]; · iexact Hl
  isplitl [Hr]; · iexact Hr
  iexact H5

/-- Leaving: the two halves, both still at the contents found (an input's array is never written), are joined;
    the output array is at what the write-backs left. -/
theorem leave1 (c : Dev nD) :
    ((R1.dat (E2 R0 m ρ) c).arrays ((R1.dat (E2 R0 m ρ) c).arrAt · cfg1.N) : sProp 𝕄)
      ⊢ Pipeline.arrBufs (Ix := Unit) (Name := ℕ) (U := UR sig nD τ) (Lvl := ℕ) spec1 c (E3 R0 R1 m ρ c) := by
  unfold Pipeline.arrBufs Dat.arrays
  rw [arrs1, bigSep_insert (by decide), bigSep_singleton, bigSep_W1, R1.hs0, R1.hs1, R1.hs2,
    (arr_whole1 0).set_eq_univ, (arr_whole1 2).set_eq_univ]
  beta_reduce
  rw [show (R1.dat (E2 R0 m ρ) c).arrAt 0 cfg1.N = E3 R0 R1 m ρ c main_v1 from
      ((R1.dat (E2 R0 m ρ) c).arrAt_in 0 rfl _).trans ((R1.hA _ c 0).trans (W3_of_ne R0 R1 m ρ c main_v1 (by decide)).symm),
    show (R1.dat (E2 R0 m ρ) c).arrAt 1 cfg1.N = E3 R0 R1 m ρ c main_v1 from
      ((R1.dat (E2 R0 m ρ) c).arrAt_in 1 rfl _).trans ((R1.hA _ c 1).trans (W3_of_ne R0 R1 m ρ c main_v1 (by decide)).symm),
    show (R1.dat (E2 R0 m ρ) c).arrAt 2 cfg1.N = E3 R0 R1 m ρ c main_v5 from (W3_out R0 R1 m ρ c).symm]
  show _ ⊢ (iprop((((c : Thread nD τ).loc main_v1) ↦{fullShare} E3 R0 R1 m ρ c main_v1) ∗ (((c : Thread nD τ).loc main_v5) ↦{fullShare} E3 R0 R1 m ρ c main_v5)) : sProp 𝕄)
  iintro ⟨Hl, Hr, H5⟩
  isplitl [Hl Hr]
  · iapply (pointsTo_share (PosShare.mem_left_op_right fullShare)).2
    isplitl [Hl] <;> iassumption
  iexact H5

/-- Every other buffer that outlives the region is untouched by it. -/
theorem rest1 (c : Dev nD) :
    (Pipeline.unscopedRest (Ix := Unit) (Name := ℕ) (U := UR sig nD τ) (Lvl := ℕ) spec1 c (E2 R0 m ρ c) : sProp 𝕄)
      = Pipeline.unscopedRest (Ix := Unit) (Name := ℕ) (U := UR sig nD τ) (Lvl := ℕ) spec1 c (E3 R0 R1 m ρ c) := by
  unfold Pipeline.unscopedRest
  refine bigSep_congr fun b hb => ?_
  have hb' : b ≠ main_v5 := fun e => (Finset.mem_sdiff.mp hb).2 (by rw [arrs1, e]; decide)
  rw [show E3 R0 R1 m ρ c b = E2 R0 m ρ c b from W3_of_ne R0 R1 m ρ c b hb']

set_option backward.isDefEq.respectTransparency.types false in
/-- The denominator region between `W2` and `W3`. -/
def reg1 : Pipeline.RegionSeg (pcfgs (F := F)) adm (pdats R0 R1 m ρ) () defs₀ 𝒱₀ L lv 1 where
  win := winFacts₀1
  block_pos := block_pos1
  stage_whole := stage_whole1
  K := PEmpty
  osem k := k.elim
  ho := Pipeline.OwnSemFacts.none _
  hbody c := (R1.hbody (E2 R0 m ρ) c).loose
  hwaits := Pipeline.hwaits_of_owed_zero _ _ _ _ L lv 1 fun c t => R1.howed (E2 R0 m ρ) c t
  pre c := iprop(StableHlo.held (c : Thread nD τ) (Pipeline.ucRefs τ sig) (W2 R0 m ρ c) ∗ Rest c)
  post c := iprop(StableHlo.held (c : Thread nD τ) (Pipeline.ucRefs τ sig) (W3 R0 R1 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E2 R0 m ρ c)
  hentry c := by
    rw [Pipeline.ownSems0_none]
    have hsplit : (StableHlo.held (c : Thread nD τ) (Pipeline.ucRefs τ sig) (W2 R0 m ρ c) : sProp 𝕄)
        ⊢ iprop(Pipeline.arrBufs (Ix := Unit) (Name := ℕ) (U := UR sig nD τ) (Lvl := ℕ) spec1 c (E2 R0 m ρ c)
            ∗ Pipeline.unscopedRest (Ix := Unit) (Name := ℕ) (U := UR sig nD τ) (Lvl := ℕ) spec1 c (E2 R0 m ρ c)) := by
      rw [← Pipeline.unscopedBufs_held]
      exact Entails.of_eq (Pipeline.unscopedBufs_split₀ (Pipeline.pin (pcfgs (F := F)) adm) 1 winFacts₀1.arr_unscoped c (E2 R0 m ρ c))
    have henter : (Pipeline.arrBufs (Ix := Unit) (Name := ℕ) (U := UR sig nD τ) (Lvl := ℕ) spec1 c (E2 R0 m ρ c) : sProp 𝕄)
        ⊢ (pdats R0 R1 m ρ 1 c).arrays ((pdats R0 R1 m ρ 1 c).arrAt · 0) := enter1 R0 R1 m ρ c
    iintro ⟨⟨Hub, Hp, HO⟩, -, -⟩
    ihave H := hsplit $$ Hub
    icases H with ⟨Ha, Hrest⟩
    ihave Ha' := henter $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      rw [show (pdats R0 R1 m ρ 1 c).owed 0 = 0 from R1.howed (E2 R0 m ρ) c 0]
      icases HO with ⟨%W, HO⟩; iexists W; isplitr
      · ipureintro; exact fun x _ => Or.inl (show x ∈ (R1.dat (E2 R0 m ρ) c).recorded 0 from (R1.hrec (E2 R0 m ρ) c 0).symm ▸ Set.mem_univ x)
      iexact HO
    isplitl [Hp]; · iexact Hp
    iexact Hrest
  hin c :=
    (show iprop((∃ r, prngReg c r) ∗ Pipeline.prefHeld (pcfgs (F := F) 1).pre c (fun _ => fullShare) (adm (F := F) 1).1
            ∗ Pipeline.scopedRest (Ix := Unit) (Name := ℕ) (U := UR sig nD τ) (Lvl := ℕ) (Val := Elt F) spec1 c)
        ⊢ (iprop((∃ r, prngReg c r) ∗ Pipeline.scopedRest (Ix := Unit) (Name := ℕ) (U := UR sig nD τ) (Lvl := ℕ) (Val := Elt F) spec1 c) : sProp 𝕄) from by
      iintro ⟨Hp, -, Hr⟩
      isplitl [Hp]; · iexact Hp
      iexact Hr).trans (R1.hin (E2 R0 m ρ) c)
  hout c := by
    rw [Pipeline.ownSems0_none]
    exact (R1.hout (E2 R0 m ρ) c).trans (show (iprop((∃ r, prngReg c r) ∗ Pipeline.scopedRest (Ix := Unit) (Name := ℕ) (U := UR sig nD τ) (Lvl := ℕ) (Val := Elt F) spec1 c) : sProp 𝕄)
        ⊢ iprop((∃ r, prngReg c r) ∗ BI.emp ∗ Pipeline.scopedRest (Ix := Unit) (Name := ℕ) (U := UR sig nD τ) (Lvl := ℕ) (Val := Elt F) spec1 c) from by
      iintro ⟨Hp, Hr⟩
      isplitl [Hp]; · iexact Hp
      isplitr; · iempintro
      iexact Hr)
  hexit c := by
    have hjoin : iprop(Pipeline.arrBufs (Ix := Unit) (Name := ℕ) (U := UR sig nD τ) (Lvl := ℕ) spec1 c (E3 R0 R1 m ρ c)
            ∗ Pipeline.unscopedRest (Ix := Unit) (Name := ℕ) (U := UR sig nD τ) (Lvl := ℕ) spec1 c (E2 R0 m ρ c))
        ⊢ (StableHlo.held (c : Thread nD τ) (Pipeline.ucRefs τ sig) (W3 R0 R1 m ρ c) : sProp 𝕄) := by
      rw [← Pipeline.unscopedBufs_held, rest1 R0 R1 m ρ c]
      exact Entails.of_eq (Pipeline.unscopedBufs_split₀ (Pipeline.pin (pcfgs (F := F)) adm) 1 winFacts₀1.arr_unscoped c (E3 R0 R1 m ρ c)).symm
    have hleave : ((pdats R0 R1 m ρ 1 c).arrays ((pdats R0 R1 m ρ 1 c).arrAt · (Pipeline.pin (pcfgs (F := F)) adm 1).N) : sProp 𝕄)
        ⊢ Pipeline.arrBufs (Ix := Unit) (Name := ℕ) (U := UR sig nD τ) (Lvl := ℕ) spec1 c (E3 R0 R1 m ρ c) := leave1 R0 R1 m ρ c
    iintro ⟨Ha, HO, HY, Hrest⟩
    ihave Ha' := hleave $$ Ha
    imodintro
    isplitl [Ha' Hrest]
    · iapply hjoin
      isplitl [Ha'] <;> iassumption
    isplitl [HY]; · iexact HY
    unfold Pipeline.Dat.owesAt Pipeline.owesWithin
    rw [show (pdats R0 R1 m ρ 1 c).owed (Fin.last _) = 0 from R1.howed (E2 R0 m ρ) c _]
    icases HO with ⟨%W, -, HO⟩; iexists W; iexact HO

/-! ## @main as its four items, and the launch -/

abbrev items : List (Pipeline.Seg (pcfgs (F := F)) adm (pdats R0 R1 m ρ) () defs₀ 𝒱₀ L lv) :=
  [ .region (reg0 R0 R1 m ρ),
    .host (hostItem hostOps1 hostOps1_sub hostOps1_fresh (W1 R0 m ρ)),
    .region (reg1 R0 R1 m ρ),
    .host (hostItem hostOps2 hostOps2_sub hostOps2_fresh (W3 R0 R1 m ρ)) ]

theorem main_items (c : Dev nD) : main (F := F) c = Pipeline.Seg.run (items R0 R1 m ρ) :=
  main_segs adm (pdats R0 R1 m ρ) () 𝒱₀ L lv _ _ (reg0 R0 R1 m ρ) (reg1 R0 R1 m ρ) rfl rfl c

set_option backward.isDefEq.respectTransparency.types false in
/-- THE RUN. From any memory with zero counters every weakly fair execution of @main terminates, nothing faulting,
    and every buffer that outlives the regions ends at the last fold `W4`. -/
theorem run_whole : θ_run defs (onTc (τ := τ) (main (F := F))) ⟨m, fun _ => 0, ρ⟩ (fun r => ∀ c : Dev nD,
      ∀ b ∈ Pipeline.ucRefs τ sig, r.2.mem (((c : Thread nD τ)).1, b) = W4 R0 R1 m ρ c b) :=
  Pipeline.θ_run_regions_kit (pcfgs (F := F)) adm (pdats R0 R1 m ρ) () cellOf_inj emb₁ defs₀ 𝒱₀ L lv m ρ main (items R0 R1 m ρ)
    (fun c Q => by rw [main_items R0 R1 m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c))
    (Tₙ := fun c => iprop(StableHlo.held (c : Thread nD τ) (Pipeline.ucRefs τ sig) (W4 R0 R1 m ρ c) ∗ ∃ r, prngReg c r))
    (hch := ⟨fun _ => .rfl, fun _ => .rfl, fun _ => .rfl, fun _ => .rfl, fun c => show iprop(StableHlo.held (c : Thread nD τ) (Pipeline.ucRefs τ sig) (W4 R0 R1 m ρ c) ∗ Rest c) ⊢ _ from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 R0 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 R0 R1 m ρ c) s')
      isplitl [Hh] <;> iassumption)
    (hQ := fun s h c => h c)

end Cert.KernelIdeal.Whole

end
-- ==== Proof.Frame.lean ====
/-
  The arguments end as launched, and so the frame.

  No host operation writes an argument array and no region may change one: an argument is an INPUT array of the first
  region (an input's array is never written, so it ends at its entry contents, which are the launch contents) and is not
  among the second region's arrays. Reading the last fold back at an argument's buffer therefore walks to the launch
  memory; with the run this is the frame claim, at any float instance.
-/
import proofs.«169832_j86492051407493_2_alg».proof.Proof.Run

noncomputable section

namespace Cert.KernelIdeal.Whole

open Idealize.ShloMosaic Idealize.ShloMosaic.TcCoe
open Idealize.SL Idealize.SL.Sem
open Idealize.ShloMosaic.Pipeline (Dat)
open Cert.KernelIdeal.Gen

variable {F : FTy → Type} [FloatOps F]
variable (R0 : Reg0 F) (R1 : Reg1 F)
variable (m : (ℓ : Loc nD τ sig) → Buf (Elt F) ℓ) (ρ : Dev nD → PrngReg)

theorem W4_arg0 (c : Dev nD) : W4 R0 R1 m ρ c (Proc.devRef .tc main_arg0) = m ((c : Thread nD τ).loc main_arg0) :=
  calc W4 R0 R1 m ρ c (Proc.devRef .tc main_arg0)
    _ = W3 R0 R1 m ρ c (Proc.devRef .tc main_arg0) := StableHlo.after_of_writes_sub hostOps2 _ hostOps2_writes (r := main_arg0) (by decide)
    _ = W2 R0 m ρ c (Proc.devRef .tc main_arg0) := W3_of_ne R0 R1 m ρ c main_arg0 (by decide)
    _ = W1 R0 m ρ c (Proc.devRef .tc main_arg0) := StableHlo.after_of_writes_sub hostOps1 _ hostOps1_writes (r := main_arg0) (by decide)
    _ = (R0.dat (E0 m ρ) c).arrAt 0 cfg0.N := W1_arr R0 m ρ c 0
    _ = (R0.dat (E0 m ρ) c).A 0 := (R0.dat (E0 m ρ) c).arrAt_in 0 rfl _
    _ = m ((c : Thread nD τ).loc main_arg0) := R0.hA (E0 m ρ) c 0

theorem W4_arg1 (c : Dev nD) : W4 R0 R1 m ρ c (Proc.devRef .tc main_arg1) = m ((c : Thread nD τ).loc main_arg1) :=
  calc W4 R0 R1 m ρ c (Proc.devRef .tc main_arg1)
    _ = W3 R0 R1 m ρ c (Proc.devRef .tc main_arg1) := StableHlo.after_of_writes_sub hostOps2 _ hostOps2_writes (r := main_arg1) (by decide)
    _ = W2 R0 m ρ c (Proc.devRef .tc main_arg1) := W3_of_ne R0 R1 m ρ c main_arg1 (by decide)
    _ = W1 R0 m ρ c (Proc.devRef .tc main_arg1) := StableHlo.after_of_writes_sub hostOps1 _ hostOps1_writes (r := main_arg1) (by decide)
    _ = (R0.dat (E0 m ρ) c).arrAt 1 cfg0.N := W1_arr R0 m ρ c 1
    _ = (R0.dat (E0 m ρ) c).A 1 := (R0.dat (E0 m ρ) c).arrAt_in 1 rfl _
    _ = m ((c : Thread nD τ).loc main_arg1) := R0.hA (E0 m ρ) c 1

/-- The run with the result and the arguments read off: the result buffer at the last fold, the arguments as launched. -/
theorem run_read : θ_run defs (onTc (τ := τ) (main (F := F))) ⟨m, fun _ => 0, ρ⟩ (fun r => ∀ c : Dev nD,
      r.2.mem ((c.tc : Thread nD τ).loc main_v11) = W4 R0 R1 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v11 (by decide)),
     (h c _ (mem_uc main_arg0 (by decide))).trans (W4_arg0 R0 R1 m ρ c),
     (h c _ (mem_uc main_arg1 (by decide))).trans (W4_arg1 R0 R1 m ρ c)⟩) (run_whole R0 R1 m ρ)

include R0 R1 in
/-- THE FRAME: every weakly fair execution terminates, nothing faulting, the argument arrays as launched. -/
theorem frame_whole : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_read R0 R1 m ρ)

end Cert.KernelIdeal.Whole

end
-- ==== Proof.PrepBody.lean ====
/- The row-normalising kernel: what one body call leaves, and the pipeline's proof data

The first kernel reads two blocks of 1024 rows (one from each input matrix), and writes three blocks:
each input block with every row divided by `max (sqrt (sum of squares of the row)) eps`, and the column of
the row-wise inner products of the two normalised blocks. This module states, for buffer contents `V`
at the kernel's entry, the block each window holds at a grid point, what the body leaves in each output
buffer (its one store of the whole buffer), the body's triple, and the proof data of the pipeline with
its body obligation.
-/
import proofs.«169832_j86492051407493_2_alg».proof.Proof.Gen.KernelIdeal.Launch
import proofs.«169832_j86492051407493_2_alg».proof.Proof.Gen.KernelIdeal.Skeleton
import proofs.«169832_j86492051407493_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Prep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's staging buffer holds its block at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole buffer -/

/-- The whole 1024 × 256 buffer. -/
abbrev rM : Rect S1024x256 := Rect.unit (s := S1024x256) ![0, 0] S1024x256.size inb_S1024x256_S1024x256_0_0
/-- The whole 1024 × 1 buffer. -/
abbrev rC : Rect S1024x1 := Rect.unit (s := S1024x1) ![0, 0] S1024x1.size inb_S1024x1_S1024x1_0_0

/-! ## What the body leaves in each output buffer -/

/-- The first output's buffer after the body: the first input block, row-normalised. -/
def outN1 (x0 : Vec F S1024x256 .f32) : Vec F S1024x256 .f32 :=
  View.canon [⟨rM, k0_pay1 (View.ld x0 rM)⟩]

/-- The second output's buffer after the body: the second input block, row-normalised. -/
def outN2 (x1 : Vec F S1024x256 .f32) : Vec F S1024x256 .f32 :=
  View.canon [⟨rM, k0_pay2 (View.ld x1 rM)⟩]

/-- The third output's buffer after the body: the row-wise inner products of the two normalised blocks. -/
def outP (x0 x1 : Vec F S1024x256 .f32) : Vec F S1024x1 .f32 :=
  View.canon [⟨rC, k0_pay3 (View.ld x0 rM) (View.ld x1 rM)⟩]

/-- One store of the whole 1024 × 256 buffer covers it. -/
theorem coverM (p0 : Vec F S1024x256 .f32) (y : S1024x256.Idx) :
    ∃ pc ∈ ([⟨rM, p0⟩] : List (View.Piece (Elt F) S1024x256 .f32)), y ∈ pc.1.set :=
  View.cover_of_tiled [⟨rM, p0⟩] S1024x256.size (by rfl) y

/-- One store of the whole 1024 × 1 buffer covers it. -/
theorem coverC (p0 : Vec F S1024x1 .f32) (y : S1024x1.Idx) :
    ∃ pc ∈ ([⟨rC, p0⟩] : List (View.Piece (Elt F) S1024x1 .f32)), y ∈ pc.1.set :=
  View.cover_of_tiled [⟨rC, p0⟩] S1024x1.size (by rfl) y

/-! ## The body's triple -/

set_option maxHeartbeats 1000000 in
/-- The body on whole staging buffers, the inputs' at contents `x0`, `x1` and the outputs' at anything, runs to the
    continuation holding the inputs' as they were and the outputs' at `outN1 x0`, `outN2 x1`, `outP x0 x1`. -/
theorem sound_kernel0 (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S1024x256 .f32) (harg4 : arg4.IsWhole)
    (arg5 : Memref sig .tc .vmem S1024x1 .f32) (harg5 : arg5.IsWhole)
    (x0 : Vec F S1024x256 .f32) (x1 : Vec F S1024x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (outN1 x0) ∗ owns (c : Thread nD τ) arg4 fullShare (outN2 x1)
            ∗ owns (c : Thread nD τ) arg5 fullShare (outP x0 x1)) -∗ K ⟨⟩))
      ⊢ wp frame (wpE (defs₀ (F := F)) Variants.none c none) E (cc0__prep_kernel i arg1 harg1 arg2 harg2 arg3 harg3 arg4 harg4 arg5 harg5) K := by
  simp only [cc0__prep_kernel_eq_skeleton]; unfold cc0__prep_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverM _)
  isplitl [H3]
  · iexists _; isplitr
    swap; · iexact H3
    ipureintro
    exact View.read_writes_eq_canon _ _ _ (coverM _)
  iexists _; isplitr
  swap; · iexact H4
  ipureintro
  exact View.read_writes_eq_canon _ _ _ (coverC _)

/-! ## The pipeline's proof data -/

/-- The proof data of the pipeline on core `c`: the arrays as the kernel finds them (`V`); after the body at point
    `t` each input's buffer at its block, the first two outputs' at the row-normalised input blocks and the third's at
    their row-wise inner products; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outN1 (iblk0 V c 0 t)
    | ⟨3, _⟩ => outN2 (iblk0 V c 1 t)
    | ⟨4, _⟩ => outP (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outN1 (iblk0 V c 0 t) := by dsimp only [dat0]
theorem after0_3 (c : Dev nD) (t : Fin cfg0.N) : (dat0 V c).after 3 t = outN2 (iblk0 V c 1 t) := by dsimp only [dat0]
theorem after0_4 (c : Dev nD) (t : Fin cfg0.N) : (dat0 V c).after 4 t = outP (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Prep

end
-- ==== Proof.DenomBase.lean ====
import proofs.«169832_j86492051407493_2_alg».proof.Proof.Gen.KernelIdeal.Launch
import proofs.«169832_j86492051407493_2_alg».proof.Proof.Gen.KernelIdeal.Skeleton
import proofs.«169832_j86492051407493_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

/-! The denominator region's schedule and what it accumulates.

The grid is 8 × 8, point `t = 8·qi + kj`. Per query tile `qi` the scratch column is reset at `kj = 0`, then at each
key tile `kj` gains the row sums of `exp((2·q)·kᵀ)` of the point's two input blocks — with the diagonal entries
replaced by zero on the tiles `qi = kj` — and at `kj = 7` is copied to the output block. `accAt` is that column
after point `t`, by recursion on the point; `dat1` is the proof data built on it: the two input windows read the one
stacked array at complementary half shares and always hold their blocks, the output window holds the column where
`kj = 7`, and the invariant carries the scratch at `accAt` between points of one query tile. -/

set_option maxRecDepth 16384

noncomputable section

namespace Cert.KernelIdeal.Denom

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The body's first branch zeroes the accumulator: taken where the key-tile coordinate is 0. -/
abbrev condZ (i : grid1.Coords) : Prop := (Scalar.cmpi .ne (Scalar.extui (Scalar.cmpi .eq (BitVec.ofNat 32 (i 1).val) 0#32)) 0#32) = 1#1
/-- The diagonal branch: taken where the query-tile and key-tile coordinates agree. -/
abbrev condD (i : grid1.Coords) : Prop := (Scalar.cmpi .ne (Scalar.extui (Scalar.cmpi .eq (BitVec.ofNat 32 (i 0).val) (BitVec.ofNat 32 (i 1).val))) 0#32) = 1#1
/-- The off-diagonal branch: taken where they differ. -/
abbrev condN (i : grid1.Coords) : Prop := (Scalar.cmpi .ne (Scalar.extui (Scalar.cmpi .ne (BitVec.ofNat 32 (i 0).val) (BitVec.ofNat 32 (i 1).val))) 0#32) = 1#1
/-- The last branch copies the accumulator out: taken where the key-tile coordinate is 7. -/
abbrev condL (i : grid1.Coords) : Prop := k1_cond4 i = 1#1

/-! ## The branch conditions over the grid, in closed form -/

theorem hcondZ : ∀ t : Fin cfg1.N, condZ (grid1.coords t) ↔ t.val % 8 = 0 :=
  (by decide +kernel : ∀ t : Fin grid1.N, condZ (grid1.coords t) ↔ t.val % 8 = 0)
theorem hcondD : ∀ t : Fin cfg1.N, condD (grid1.coords t) ↔ t.val / 8 = t.val % 8 :=
  (by decide +kernel : ∀ t : Fin grid1.N, condD (grid1.coords t) ↔ t.val / 8 = t.val % 8)
theorem hcondN : ∀ t : Fin cfg1.N, condN (grid1.coords t) ↔ t.val / 8 ≠ t.val % 8 :=
  (by decide +kernel : ∀ t : Fin grid1.N, condN (grid1.coords t) ↔ t.val / 8 ≠ t.val % 8)
theorem hcondL : ∀ t : Fin cfg1.N, condL (grid1.coords t) ↔ t.val % 8 = 7 :=
  (by decide +kernel : ∀ t : Fin grid1.N, condL (grid1.coords t) ↔ t.val % 8 = 7)

/-! ## Where the windows are live -/

theorem liveAt0 : ∀ i : grid1.Coords, cfg1.idle 0 i = false := fun _ => rfl
theorem liveAt1 : ∀ i : grid1.Coords, cfg1.idle 1 i = false := fun _ => rfl
/-- The output window is idle exactly off the last key tile, -/
theorem idleAt2 : ∀ t : Fin cfg1.N, t.val % 8 ≠ 7 → cfg1.idle 2 (grid1.coords t) = true :=
  (by decide +kernel : ∀ t : Fin grid1.N, t.val % 8 ≠ 7 → cfg1.idle 2 (grid1.coords t) = true)
theorem liveAt2 : ∀ t : Fin cfg1.N, t.val % 8 = 7 → cfg1.idle 2 (grid1.coords t) = false :=
  (by decide +kernel : ∀ t : Fin grid1.N, t.val % 8 = 7 → cfg1.idle 2 (grid1.coords t) = false)
/-- and is not written back there. -/
theorem noFlush2 (t : Fin cfg1.N) (h : t.val % 8 ≠ 7) : (cfg1.win 2).flush t = false := by
  cases hf : (cfg1.win 2).flush t
  · rfl
  · exact absurd ((flush1_2 t).mp hf) h

/-! ## The scratch column and the zero offsets -/

/-- The accumulator: the kernel's own scratch column, whole. -/
abbrev scM : Memref sig .tc .vmem S1024x1 .f32 := Memref.whole cc1_scratch0

theorem hz2 : (![0, 0] : Fin 2 → ℕ) = fun _ => 0 := by funext a; fin_cases a <;> rfl

theorem N64 : cfg1.N = 64 := N_1

section Data

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, the
    block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- One point's update of the column `s` from the query block `q` and the key block `k`: the masked row sums on a
    diagonal tile (`t / 8 = t % 8`), the plain row sums elsewhere. -/
def step (n : ℕ) (q k : Vec F S1024x256 .f32) (s : Vec F S1024x1 .f32) : Vec F S1024x1 .f32 :=
  if n / 8 = n % 8 then k1_pay3 q k s else k1_pay4 q k s

theorem step_diag (n : ℕ) (h : n / 8 = n % 8) (q k : Vec F S1024x256 .f32) (s : Vec F S1024x1 .f32) : step n q k s = k1_pay3 q k s := if_pos h
theorem step_off (n : ℕ) (h : n / 8 ≠ n % 8) (q k : Vec F S1024x256 .f32) (s : Vec F S1024x1 .f32) : step n q k s = k1_pay4 q k s := if_neg h

/-- The scratch column after the body at point `n`: the point's update of the zero column at the first key tile of a
    query tile, of what the point before left elsewhere. -/
def accAt (c : Dev nD) : (n : ℕ) → n < cfg1.N → Vec F S1024x1 .f32
  | 0, hn => step 0 (iblk1 V c 0 ⟨0, hn⟩) (iblk1 V c 1 ⟨0, hn⟩) (k1_pay1 (F := F))
  | n + 1, hn => step (n + 1) (iblk1 V c 0 ⟨n + 1, hn⟩) (iblk1 V c 1 ⟨n + 1, hn⟩)
      (if (n + 1) % 8 = 0 then k1_pay1 (F := F) else accAt c n (Nat.lt_of_succ_lt hn))

/-- At the first key tile of a query tile the update starts from the zero column; -/
theorem accAt_first (c : Dev nD) (t : Fin cfg1.N) (h : t.val % 8 = 0) :
    accAt V c t.val t.isLt = step t.val (iblk1 V c 0 t) (iblk1 V c 1 t) (k1_pay1 (F := F)) := by
  obtain ⟨n, hn⟩ := t
  cases n with
  | zero => rfl
  | succ n => exact congrArg _ (if_pos h)

/-- at a later one from what the point before left. -/
theorem accAt_later (c : Dev nD) (t : Fin cfg1.N) (h : t.val % 8 ≠ 0) :
    accAt V c t.val t.isLt = step t.val (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- Before position `n`: the scratch whole — at what the point before left when `n` is inside a query tile, at any
    contents when a query tile begins (the body resets it there) —, the core's other scoped buffers that no window
    stages, and the generator register. -/
def PhiS (c : Dev nD) (n : ℕ) (hn : n ≤ cfg1.N) : sProp 𝕄 :=
  iprop((if h : n % 8 = 0 then iprop(∃ d, owns (c : Thread nD τ) scM fullShare d)
      else owns (c : Thread nD τ) scM fullShare (accAt V c (n - 1) (by have := Nat.pos_of_ne_zero (fun e : n = 0 => h (e ▸ Nat.zero_mod 8)); omega)))
    ∗ Pipeline.scopedRestBut (Ix := Unit) (Name := ℕ) (U := UR sig nD τ) (Lvl := ℕ) (Val := Elt F) spec1 c [cc1_scratch0]
    ∗ (∃ r, prngReg c r))

theorem PhiS_first (c : Dev nD) (n : ℕ) (hn : n ≤ cfg1.N) (h : n % 8 = 0) :
    PhiS V c n hn = iprop((∃ d, owns (c : Thread nD τ) scM fullShare d)
      ∗ Pipeline.scopedRestBut (Ix := Unit) (Name := ℕ) (U := UR sig nD τ) (Lvl := ℕ) (Val := Elt F) spec1 c [cc1_scratch0]
      ∗ (∃ r, prngReg c r)) := by
  unfold PhiS; rw [dif_pos h]

theorem PhiS_later (c : Dev nD) (n : ℕ) (hn : n ≤ cfg1.N) (h : n % 8 ≠ 0) (hn' : n - 1 < cfg1.N) :
    PhiS V c n hn = iprop(owns (c : Thread nD τ) scM fullShare (accAt V c (n - 1) hn')
      ∗ Pipeline.scopedRestBut (Ix := Unit) (Name := ℕ) (U := UR sig nD τ) (Lvl := ℕ) (Val := Elt F) spec1 c [cc1_scratch0]
      ∗ (∃ r, prngReg c r)) := by
  unfold PhiS; rw [dif_neg h]

/-! ## The proof data -/

/-- The proof data of the region on core `c`: the arrays as the region finds them; after the body the inputs' buffers
    at their blocks and the output's at the accumulated column (consulted where it is written back); the two input
    windows hold the one stacked array at the two halves of the full share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem share1_0 (c : Dev nD) : (dat1 V c).share 0 = fullShare.left := by
  unfold Dat.share; rw [if_neg (by decide)]; dsimp only [dat1]
theorem share1_1 (c : Dev nD) : (dat1 V c).share 1 = fullShare.right := by
  unfold Dat.share; rw [if_neg (by decide)]; dsimp only [dat1]
theorem share1_2 (c : Dev nD) : (dat1 V c).share 2 = fullShare := by
  unfold Dat.share; rw [if_pos (by decide)]

theorem Phi1_castSucc (c : Dev nD) (t : Fin cfg1.N) :
    (dat1 V c).Φ t.castSucc = PhiS V c t.val (Nat.le_of_lt t.isLt) := by
  dsimp only [dat1]; simp only [Fin.coe_castSucc]

theorem Phi1_succ (c : Dev nD) (t : Fin cfg1.N) :
    (dat1 V c).Φ t.succ = PhiS V c (t.val + 1) t.isLt := rfl

/-! ## Entering and leaving the region -/

/-- The scoped rest, split at the scratch. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM fullShare d)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [scM, owns_whole]; rfl

theorem phi_in1 (c : Dev nD) : iprop((∃ r, prngReg c r) ∗ Pipeline.scopedRest (Ix := Unit) (Name := ℕ) (U := UR sig nD τ) (Lvl := ℕ) (Val := Elt F) spec1 c) ⊢ ((dat1 V c).Φ 0 : sProp 𝕄) := by
  rw [show (dat1 V c).Φ 0 = PhiS V c 0 (Nat.zero_le _) from rfl, PhiS_first V c 0 _ (Nat.zero_mod _), scopedRest1_split]
  iintro ⟨Hg, HS, HR⟩
  isplitl [HS]; · iexact HS
  isplitl [HR]; · iexact HR
  iexact Hg

theorem phi_out1 (c : Dev nD) : ((dat1 V c).Φ (Fin.last cfg1.N) : sProp 𝕄) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS V c cfg1.N (Nat.le_refl _) from rfl,
    PhiS_first V c _ _ (by rw [N64]), scopedRest1_split]
  iintro ⟨HS, HR, Hg⟩
  isplitl [Hg]; · iexact Hg
  isplitl [HS]; · iexact HS
  iexact HR

end Data

end Cert.KernelIdeal.Denom

end
-- ==== Proof.DenomRun.lean ====
import proofs.«169832_j86492051407493_2_alg».proof.Proof.DenomBase

/-! The denominator kernel's body run on whole memrefs, one theorem per control case of its four branches on the grid
coordinates (reset at the first key tile; masked or plain row sums; copy-out at the last key tile). -/

set_option maxRecDepth 16384

noncomputable section

namespace Cert.KernelIdeal.Denom

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Whole-buffer loads and stores -/

/-- A load of a whole 1024 × 256 buffer reads its contents. -/
theorem ld256 (m : Memref sig .tc .vmem S1024x256 .f32) (h : m.IsWhole) (x : Vec F S1024x256 .f32) :
    View.readAt (Elt F) m.view (Rect.unit (s := S1024x256) ![0, 0] S1024x256.size inb_S1024x256_S1024x256_0_0).toLoadRect (h.unread x) = x := by
  rw [View.readAt_eq_ld, h.read_unread]; exact View.ld_unit_zero hz2 _ x

/-- A load of a whole 1024 × 1 column reads its contents. -/
theorem ld1 (m : Memref sig .tc .vmem S1024x1 .f32) (h : m.IsWhole) (x : Vec F S1024x1 .f32) :
    View.readAt (Elt F) m.view (Rect.unit (s := S1024x1) ![0, 0] S1024x1.size inb_S1024x1_S1024x1_0_0).toLoadRect (h.unread x) = x := by
  rw [View.readAt_eq_ld, h.read_unread]; exact View.ld_unit_zero hz2 _ x

/-- A load of the whole column after a store of the whole column reads what was stored. -/
theorem cov1 (v : View sig .tc .vmem S1024x1 .f32) (w : S1024x1.Idx → Elt F .f32) (L : List (View.Piece (Elt F) S1024x1 .f32)) :
    v.readCov ((⟨Rect.unit (s := S1024x1) ![0, 0] S1024x1.size inb_S1024x1_S1024x1_0_0, w⟩ : View.Piece (Elt F) S1024x1 .f32) :: L)
      (Rect.unit (s := S1024x1) ![0, 0] S1024x1.size inb_S1024x1_S1024x1_0_0).toLoadRect = w :=
  View.readCov_cons_toLoadRect v (Rect.unit (s := S1024x1) ![0, 0] S1024x1.size inb_S1024x1_S1024x1_0_0) w L

/-- The whole column, stored last, is what the buffer then reads. -/
theorem read_store1 (v : View sig .tc .vmem S1024x1 .f32) (f : v.ty.Contents (Elt F)) (w : S1024x1.Idx → Elt F .f32)
    (L : List (View.Piece (Elt F) S1024x1 .f32)) :
    v.read (Elt F) (v.writes (Elt F) f ((⟨Rect.unit (s := S1024x1) ![0, 0] S1024x1.size inb_S1024x1_S1024x1_0_0, w⟩ : View.Piece (Elt F) S1024x1 .f32) :: L)) = w :=
  (View.read_writes_eq_canon _ _ _ (fun y => ⟨_, List.mem_cons_self, View.mem_set_unit_zero hz2 inb_S1024x1_S1024x1_0_0 y⟩)).trans
    (View.canon_cons_unit_zero hz2 _ w L)

/-! ## The body's run, one control case at a time

On whole memrefs — the query block `x0`, the key block `x1`, the output buffer at `y`, the scratch at `xs` — the body
leaves the inputs as they were, the scratch at the point's update of the zero column (first key tile) or of `xs`
(later ones), and the output buffer at that update on the last key tile, untouched elsewhere. -/

set_option maxHeartbeats 1000000 in
theorem run_ZD (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (hZ : condZ i) (hD : condD i) (hN : ¬condN i) (hL : ¬condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare y
            ∗ owns (c : Thread nD τ) arg5 fullShare (k1_pay3 x0 x1 (k1_pay1 (F := F)))) -∗ K ⟨⟩))
      ⊢ wp frame (wpE (defs₀ (F := F)) Variants.none c none) E (cc1__denom_kernel i arg2 harg2 arg3 harg3 arg4 harg4 arg5 harg5) K := by
  simp only [cc1__denom_kernel_eq_skeleton]; unfold cc1__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hZ | exact hD | exact hN | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  refine (read_store1 _ _ _ _).trans ?_
  exact congr (congr (congrArg (k1_pay3 (F := F)) (ld256 arg2 harg2 x0)) (ld256 arg3 harg3 x1)) (cov1 arg5.view (k1_pay1 (F := F)) [])

set_option maxHeartbeats 1000000 in
theorem run_ZN (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (hZ : condZ i) (hD : ¬condD i) (hN : condN i) (hL : ¬condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare y
            ∗ owns (c : Thread nD τ) arg5 fullShare (k1_pay4 x0 x1 (k1_pay1 (F := F)))) -∗ K ⟨⟩))
      ⊢ wp frame (wpE (defs₀ (F := F)) Variants.none c none) E (cc1__denom_kernel i arg2 harg2 arg3 harg3 arg4 harg4 arg5 harg5) K := by
  simp only [cc1__denom_kernel_eq_skeleton]; unfold cc1__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hZ | exact hD | exact hN | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  refine (read_store1 _ _ _ _).trans ?_
  exact congr (congr (congrArg (k1_pay4 (F := F)) (ld256 arg2 harg2 x0)) (ld256 arg3 harg3 x1)) (cov1 arg5.view (k1_pay1 (F := F)) [])

set_option maxHeartbeats 1000000 in
theorem run_MD (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (hZ : ¬condZ i) (hD : condD i) (hN : ¬condN i) (hL : ¬condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare y
            ∗ owns (c : Thread nD τ) arg5 fullShare (k1_pay3 x0 x1 xs)) -∗ K ⟨⟩))
      ⊢ wp frame (wpE (defs₀ (F := F)) Variants.none c none) E (cc1__denom_kernel i arg2 harg2 arg3 harg3 arg4 harg4 arg5 harg5) K := by
  simp only [cc1__denom_kernel_eq_skeleton]; unfold cc1__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hZ | exact hD | exact hN | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  refine (read_store1 _ _ _ _).trans ?_
  exact congr (congr (congrArg (k1_pay3 (F := F)) (ld256 arg2 harg2 x0)) (ld256 arg3 harg3 x1)) (ld1 arg5 harg5 xs)

set_option maxHeartbeats 1000000 in
theorem run_MN (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (hZ : ¬condZ i) (hD : ¬condD i) (hN : condN i) (hL : ¬condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare y
            ∗ owns (c : Thread nD τ) arg5 fullShare (k1_pay4 x0 x1 xs)) -∗ K ⟨⟩))
      ⊢ wp frame (wpE (defs₀ (F := F)) Variants.none c none) E (cc1__denom_kernel i arg2 harg2 arg3 harg3 arg4 harg4 arg5 harg5) K := by
  simp only [cc1__denom_kernel_eq_skeleton]; unfold cc1__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hZ | exact hD | exact hN | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  refine (read_store1 _ _ _ _).trans ?_
  exact congr (congr (congrArg (k1_pay4 (F := F)) (ld256 arg2 harg2 x0)) (ld256 arg3 harg3 x1)) (ld1 arg5 harg5 xs)

set_option maxHeartbeats 1000000 in
theorem run_LD (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (hZ : ¬condZ i) (hD : condD i) (hN : ¬condN i) (hL : condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare (k1_pay3 x0 x1 xs)
            ∗ owns (c : Thread nD τ) arg5 fullShare (k1_pay3 x0 x1 xs)) -∗ K ⟨⟩))
      ⊢ wp frame (wpE (defs₀ (F := F)) Variants.none c none) E (cc1__denom_kernel i arg2 harg2 arg3 harg3 arg4 harg4 arg5 harg5) K := by
  simp only [cc1__denom_kernel_eq_skeleton]; unfold cc1__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hZ | exact hD | exact hN | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    refine (read_store1 _ _ _ _).trans ?_
    refine (cov1 _ _ _).trans ?_
    exact congr (congr (congrArg (k1_pay3 (F := F)) (ld256 arg2 harg2 x0)) (ld256 arg3 harg3 x1)) (ld1 arg5 harg5 xs)
  iexists _; isplitr
  swap; · iexact HS
  ipureintro
  sl_unfold_words
  refine (read_store1 _ _ _ _).trans ?_
  exact congr (congr (congrArg (k1_pay3 (F := F)) (ld256 arg2 harg2 x0)) (ld256 arg3 harg3 x1)) (ld1 arg5 harg5 xs)

set_option maxHeartbeats 1000000 in
theorem run_LN (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (hZ : ¬condZ i) (hD : ¬condD i) (hN : condN i) (hL : condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare (k1_pay4 x0 x1 xs)
            ∗ owns (c : Thread nD τ) arg5 fullShare (k1_pay4 x0 x1 xs)) -∗ K ⟨⟩))
      ⊢ wp frame (wpE (defs₀ (F := F)) Variants.none c none) E (cc1__denom_kernel i arg2 harg2 arg3 harg3 arg4 harg4 arg5 harg5) K := by
  simp only [cc1__denom_kernel_eq_skeleton]; unfold cc1__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hZ | exact hD | exact hN | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    refine (read_store1 _ _ _ _).trans ?_
    refine (cov1 _ _ _).trans ?_
    exact congr (congr (congrArg (k1_pay4 (F := F)) (ld256 arg2 harg2 x0)) (ld256 arg3 harg3 x1)) (ld1 arg5 harg5 xs)
  iexists _; isplitr
  swap; · iexact HS
  ipureintro
  sl_unfold_words
  refine (read_store1 _ _ _ _).trans ?_
  exact congr (congr (congrArg (k1_pay4 (F := F)) (ld256 arg2 harg2 x0)) (ld256 arg3 harg3 x1)) (ld1 arg5 harg5 xs)

end Cert.KernelIdeal.Denom

end
-- ==== Proof.DenomBody.lean ====
import proofs.«169832_j86492051407493_2_alg».proof.Proof.DenomRun

/-! The denominator region's body obligation.

At every grid point the two input buffers hold the point's query and key blocks; the scratch column comes in at what
the point before left (at anything when a query tile begins) and goes out at `accAt`; the output buffer is handed back
untouched off the last key tile and holds `accAt` on it. The three positions of the key tile within its query tile
(first, inner, last) are the three cases of the proof; the diagonal and off-diagonal tiles are joined by `step`. -/

set_option maxRecDepth 16384

noncomputable section

namespace Cert.KernelIdeal.Denom

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The runs joined over the diagonal test -/

theorem kernel_first (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (n : ℕ) (hD : condD i ↔ n / 8 = n % 8) (hN : condN i ↔ n / 8 ≠ n % 8) (hZ : condZ i) (hL : ¬condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare y
            ∗ owns (c : Thread nD τ) arg5 fullShare (step n x0 x1 (k1_pay1 (F := F)))) -∗ K ⟨⟩))
      ⊢ wp frame (wpE (defs₀ (F := F)) Variants.none c none) E (cc1__denom_kernel i arg2 harg2 arg3 harg3 arg4 harg4 arg5 harg5) K := by
  by_cases h : n / 8 = n % 8
  · rw [step_diag n h]
    exact run_ZD c E i arg2 harg2 arg3 harg3 arg4 harg4 arg5 harg5 hZ (hD.mpr h) (fun hn => (hN.mp hn) h) hL x0 x1 y xs K
  · rw [step_off n h]
    exact run_ZN c E i arg2 harg2 arg3 harg3 arg4 harg4 arg5 harg5 hZ (fun hd => h (hD.mp hd)) (hN.mpr h) hL x0 x1 y xs K

theorem kernel_mid (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (n : ℕ) (hD : condD i ↔ n / 8 = n % 8) (hN : condN i ↔ n / 8 ≠ n % 8) (hZ : ¬condZ i) (hL : ¬condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare y
            ∗ owns (c : Thread nD τ) arg5 fullShare (step n x0 x1 xs)) -∗ K ⟨⟩))
      ⊢ wp frame (wpE (defs₀ (F := F)) Variants.none c none) E (cc1__denom_kernel i arg2 harg2 arg3 harg3 arg4 harg4 arg5 harg5) K := by
  by_cases h : n / 8 = n % 8
  · rw [step_diag n h]
    exact run_MD c E i arg2 harg2 arg3 harg3 arg4 harg4 arg5 harg5 hZ (hD.mpr h) (fun hn => (hN.mp hn) h) hL x0 x1 y xs K
  · rw [step_off n h]
    exact run_MN c E i arg2 harg2 arg3 harg3 arg4 harg4 arg5 harg5 hZ (fun hd => h (hD.mp hd)) (hN.mpr h) hL x0 x1 y xs K

theorem kernel_last (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (n : ℕ) (hD : condD i ↔ n / 8 = n % 8) (hN : condN i ↔ n / 8 ≠ n % 8) (hZ : ¬condZ i) (hL : condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare (step n x0 x1 xs)
            ∗ owns (c : Thread nD τ) arg5 fullShare (step n x0 x1 xs)) -∗ K ⟨⟩))
      ⊢ wp frame (wpE (defs₀ (F := F)) Variants.none c none) E (cc1__denom_kernel i arg2 harg2 arg3 harg3 arg4 harg4 arg5 harg5) K := by
  by_cases h : n / 8 = n % 8
  · rw [step_diag n h]
    exact run_LD c E i arg2 harg2 arg3 harg3 arg4 harg4 arg5 harg5 hZ (hD.mpr h) (fun hn => (hN.mp hn) h) hL x0 x1 y xs K
  · rw [step_off n h]
    exact run_LN c E i arg2 harg2 arg3 harg3 arg4 harg4 arg5 harg5 hZ (fun hd => h (hD.mp hd)) (hN.mpr h) hL x0 x1 y xs K

section Body

variable (V : (c : Dev nD) → (b : Ref sig .tc) → Buf (Elt F) ((c : Thread nD τ).loc b))

/-- After a point that is not the last of its query tile the invariant holds the scratch at that point's column. -/
theorem PhiS_after (c : Dev nD) (t : Fin cfg1.N) (h : t.val % 8 ≠ 7) :
    PhiS V c (t.val + 1) t.isLt = iprop(owns (c : Thread nD τ) scM fullShare (accAt V c t.val t.isLt) ∗ Pipeline.scopedRestBut (Ix := Unit) (Name := ℕ) (U := UR sig nD τ) (Lvl := ℕ) (Val := Elt F) spec1 c [cc1_scratch0] ∗ (∃ r, prngReg c r)) := by
  have h' : (t.val + 1) % 8 ≠ 0 := by omega
  unfold PhiS; rw [dif_neg h']; rfl

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [liveAt0 (grid1.coords t)], after1_0]
  rw [show (dat1 V c).leavesExact 1 t = owns (c : Thread nD τ) (st1_1 t) fullShare ((dat1 V c).after 1 t) from by
    unfold Dat.leavesExact; rw [liveAt1 (grid1.coords t)], after1_1]
  rw [Phi1_castSucc, Phi1_succ]
  have hN : t.val < 64 := lt_of_lt_of_eq t.isLt N64
  by_cases h0 : t.val % 8 = 0
  · -- the first key tile of a query tile: the scratch comes in at anything and is reset
    have h7 : t.val % 8 ≠ 7 := by omega
    rw [Dat.leavesExact_idle (dat1 V c) 2 t (idleAt2 t h7) (noFlush2 t h7)]
    rw [PhiS_first V c t.val _ h0, PhiS_after V c t h7, accAt_first V c t h0]
    iintro ⟨⟨⟨%ds, HS⟩, HR, Hg⟩, Ho, ⟨%d0, H0⟩, ⟨%d1, H1⟩, ⟨%d2, H2⟩⟩
    iapply (kernel_first c Set.univ (grid1.coords t) _ _ _ _ _ _ _ _ t.val (hcondD t) (hcondN t) ((hcondZ t).mpr h0)
      (fun h => h7 ((hcondL t).mp h)) (iblk1 V c 0 t) (iblk1 V c 1 t) ((dat1 V c).before 2 t d2) ds _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · by_cases h7 : t.val % 8 = 7
    · -- the last key tile: the column is completed and copied to the output buffer
      rw [show (dat1 V c).leavesExact 2 t = owns (c : Thread nD τ) (st1_2 t) fullShare ((dat1 V c).after 2 t) from by
        unfold Dat.leavesExact; rw [liveAt2 t h7], after1_2]
      rw [PhiS_later V c t.val _ h0 (Nat.lt_of_le_of_lt (Nat.sub_le _ _) t.isLt),
        PhiS_first V c (t.val + 1) _ (by omega), accAt_later V c t h0]
      iintro ⟨⟨HS, HR, Hg⟩, Ho, ⟨%d0, H0⟩, ⟨%d1, H1⟩, ⟨%d2, H2⟩⟩
      iapply (kernel_last c Set.univ (grid1.coords t) _ _ _ _ _ _ _ _ t.val (hcondD t) (hcondN t) (fun h => h0 ((hcondZ t).mp h))
        ((hcondL t).mpr h7) (iblk1 V c 0 t) (iblk1 V c 1 t) ((dat1 V c).before 2 t d2)
        (accAt V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexists _; iexact HS
        isplitl [HR]; · iexact HR
        iexact Hg
      isplitl [Ho]; · iexact Ho
      isplitl [H0]; · iexact H0
      isplitl [H1]; · iexact H1
      iexact H2
    · -- an inner key tile: the column gains the tile's row sums
      rw [Dat.leavesExact_idle (dat1 V c) 2 t (idleAt2 t h7) (noFlush2 t h7)]
      rw [PhiS_later V c t.val _ h0 (Nat.lt_of_le_of_lt (Nat.sub_le _ _) t.isLt), PhiS_after V c t h7, accAt_later V c t h0]
      iintro ⟨⟨HS, HR, Hg⟩, Ho, ⟨%d0, H0⟩, ⟨%d1, H1⟩, ⟨%d2, H2⟩⟩
      iapply (kernel_mid c Set.univ (grid1.coords t) _ _ _ _ _ _ _ _ t.val (hcondD t) (hcondN t) (fun h => h0 ((hcondZ t).mp h))
        (fun h => h7 ((hcondL t).mp h)) (iblk1 V c 0 t) (iblk1 V c 1 t) ((dat1 V c).before 2 t d2)
        (accAt V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Body

end Cert.KernelIdeal.Denom

end
-- ==== Proof.Assemble.lean ====
/-
  The two regions' proof data and body obligations put into the run: the frame of the whole program and its run with
  the result read off, at any float instance.
-/
import proofs.«169832_j86492051407493_2_alg».proof.Proof.Frame
import proofs.«169832_j86492051407493_2_alg».proof.Proof.PrepBody
import proofs.«169832_j86492051407493_2_alg».proof.Proof.DenomBody

noncomputable section

namespace Cert.KernelIdeal.Whole

open Idealize.ShloMosaic Idealize.ShloMosaic.TcCoe
open Idealize.SL Idealize.SL.Sem
open Cert.KernelIdeal.Gen

variable {F : FTy → Type} [FloatOps F]

/-- The normalising region's record. -/
def prep : Reg0 F where
  dat V c := Cert.KernelIdeal.Prep.dat0 V c
  hA V c w := Cert.KernelIdeal.Prep.A_eq0 V c w
  hq _ _ _ := rfl
  howed _ _ _ := rfl
  hrec _ _ _ := rfl
  hΦ _ _ _ := rfl
  hbody V c := Cert.KernelIdeal.Prep.body_obligation0 V c

/-- The denominator region's record. -/
def denom : Reg1 F where
  dat V c := Cert.KernelIdeal.Denom.dat1 V c
  hA V c w := Cert.KernelIdeal.Denom.A_eq1 V c w
  hs0 V c := Cert.KernelIdeal.Denom.share1_0 V c
  hs1 V c := Cert.KernelIdeal.Denom.share1_1 V c
  hs2 V c := Cert.KernelIdeal.Denom.share1_2 V c
  howed _ _ _ := rfl
  hrec _ _ _ := rfl
  hin V c := Cert.KernelIdeal.Denom.phi_in1 V c
  hout V c := Cert.KernelIdeal.Denom.phi_out1 V c
  hbody V c := Cert.KernelIdeal.Denom.body_obligation1 V c

variable (m : (ℓ : Loc nD τ sig) → Buf (Elt F) ℓ) (ρ : Dev nD → PrngReg)

/-- The program's frame: it terminates, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_whole prep denom m ρ

end Cert.KernelIdeal.Whole

end
-- ==== Proof.BitsRun.lean ====
/-
  The whole program as one run, for any float instance.

  @main is four items: the row-normalising region, a host stretch (stack the two normalised halves; lay the
  row-pair products end to end twice), the denominator region, a host stretch (the quotient, logarithm, mean and
  sign). Between two items every buffer that outlives a region holds known contents, a fold from the launch memory:
  a region changes only its output arrays, which end at what its write-backs leave; a host stretch changes only the
  buffers its operations write. The run: every weakly fair execution terminates and each such buffer ends at the
  last fold. Nothing here looks inside a region: each region enters as its proof data and its body obligation
  (`Reg0`, `Reg1`). The second region reads ONE array through two windows; that array's ownership is split in two
  halves on the way in and joined on the way out.
-/
import proofs.«169832_j86492051407493_2_alg».proof.Proof.Gen.Kernel.Launch
import proofs.«169832_j86492051407493_2_alg».proof.Proof.Gen.Kernel.Points
import proofs.«169832_j86492051407493_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The contents a region finds in the buffers that outlive it, per core. -/
abbrev Entry (F : FTy → Type) [FloatOps F] : Type :=
  (c : Dev nD) → (b : Ref sig .tc) → Buf (Elt F) ((c : Thread nD τ).loc b)

/-- What the run needs of the first region: proof data at any entry contents whose arrays are those contents, every
    input held whole, nothing owed, the invariant the scoped rest and the generator register; and the body obligation. -/
structure Reg0 (F : FTy → Type) [FloatOps F] where
  dat : Entry F → (c : Dev nD) → Dat τ (Elt F) Unit ℕ (UR sig nD τ) ℕ cfg0 c
  hA : ∀ V c w, (dat V c).A w = V c (Pipeline.arrRef spec0 w)
  hq : ∀ V c w, (dat V c).q w = fullShare
  howed : ∀ V c t, (dat V c).owed t = 0
  hrec : ∀ V c t, (dat V c).recorded t = Set.univ
  hΦ : ∀ V c t, (dat V c).Φ t = Pipeline.ΦA (U := UR sig nD τ) spec0 c
  hbody : ∀ V c, BodyObligation (dat V c) (defs₀ (F := F)) Variants.none () Set.univ

/-- What the run needs of the second region: the same, except that its two input windows hold the two halves of the
    one array they read, and its invariant (which carries the accumulator) is only known to be made from, and to
    give back, the scoped rest and the generator register. -/
structure Reg1 (F : FTy → Type) [FloatOps F] where
  dat : Entry F → (c : Dev nD) → Dat τ (Elt F) Unit ℕ (UR sig nD τ) ℕ cfg1 c
  hA : ∀ V c w, (dat V c).A w = V c (Pipeline.arrRef spec1 w)
  hs0 : ∀ V c, (dat V c).share 0 = fullShare.left
  hs1 : ∀ V c, (dat V c).share 1 = fullShare.right
  hs2 : ∀ V c, (dat V c).share 2 = fullShare
  howed : ∀ V c t, (dat V c).owed t = 0
  hrec : ∀ V c t, (dat V c).recorded t = Set.univ
  hin : ∀ V c, iprop((∃ r, prngReg c r) ∗ Pipeline.scopedRest (Ix := Unit) (Name := ℕ) (U := UR sig nD τ) (Lvl := ℕ) (Val := Elt F) spec1 c)
    ⊢ ((dat V c).Φ 0 : sProp (MT nD τ sig Unit (Elt F) ℕ (UR sig nD τ) ℕ))
  hout : ∀ V c, ((dat V c).Φ (Fin.last cfg1.N) : sProp (MT nD τ sig Unit (Elt F) ℕ (UR sig nD τ) ℕ))
    ⊢ iprop((∃ r, prngReg c r) ∗ Pipeline.scopedRest (Ix := Unit) (Name := ℕ) (U := UR sig nD τ) (Lvl := ℕ) (Val := Elt F) spec1 c)
  hbody : ∀ V c, BodyObligation (dat V c) (defs₀ (F := F)) Variants.none () Set.univ

variable (R0 : Reg0 F) (R1 : Reg1 F)
variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- The same at the TensorCore's references: what the first region finds. -/
abbrev E0 : Entry F := fun c b => W0 m ρ c b
/-- After the first region: its arrays at what its write-backs leave, every other buffer untouched. -/
def W1 (c : Dev nD) : Valuation τ sig (Elt F) :=
  Pipeline.withArrays spec0 c (W0 m ρ c) fun w => (R0.dat (E0 m ρ) c).arrAt w cfg0.N
abbrev E1 : Entry F := fun c b => W1 R0 m ρ c b
/-- After the first host stretch: what the second region finds. -/
abbrev W2 : Dev nD → Valuation τ sig (Elt F) := fun c => StableHlo.after hostOps1 (W1 R0 m ρ c)
abbrev E2 : Entry F := fun c b => W2 R0 m ρ c b
/-- After the second region: its one output array at what its write-backs leave. -/
def W3 (c : Dev nD) : Valuation τ sig (Elt F) :=
  Function.update (W2 R0 m ρ c) (Proc.devRef .tc main_v5 : DevRef τ sig) ((R1.dat (E2 R0 m ρ) c).arrAt 2 cfg1.N)
abbrev E3 : Entry F := fun c b => W3 R0 R1 m ρ c b
/-- After the second host stretch: the end. -/
abbrev W4 : Dev nD → Valuation τ sig (Elt F) := fun c => StableHlo.after hostOps2 (W3 R0 R1 m ρ c)

theorem W1_arr (c : Dev nD) (w : Fin cfg0.W) :
    W1 R0 m ρ c (Proc.devRef .tc (Pipeline.arrRef spec0 w)) = (R0.dat (E0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 R0 m ρ c (Proc.devRef .tc b) = W0 m ρ c (Proc.devRef .tc b) := by
  unfold W1; exact Pipeline.withArrays_of_ne spec0 c _ _ b hb
theorem W3_out (c : Dev nD) : W3 R0 R1 m ρ c (Proc.devRef .tc main_v5) = (R1.dat (E2 R0 m ρ) c).arrAt 2 cfg1.N := by
  unfold W3; exact Function.update_self ..
theorem W3_of_ne (c : Dev nD) (b : Ref sig .tc) (hb : b ≠ main_v5) :
    W3 R0 R1 m ρ c (Proc.devRef .tc b) = W2 R0 m ρ c (Proc.devRef .tc b) := by
  unfold W3; exact Function.update_of_ne (StableHlo.devRef_ne_of_ne hb) ..

/-! ## The proof data family and what rides beside the buffers -/

/-- Each pipeline's proof data at the contents its region finds. -/
def pdats : (p : Fin 2) → (c : Dev nD) → Dat τ (Elt F) Unit ℕ (UR sig nD τ) ℕ (Pipeline.pin (pcfgs (F := F)) adm p) c
  | ⟨0, _⟩ => fun c => R0.dat (E0 m ρ) c
  | ⟨1, _⟩ => fun c => R1.dat (E2 R0 m ρ) c

abbrev 𝒱₀ : Variants := Variants.none
/-- No core owes another anything: no level is assigned. -/
abbrev L : GSem nD τ sig → Finset Unit := fun _ => ∅
abbrev lv : GSem nD τ sig → Unit → ℕ := fun _ _ => 0

/-- Beside the buffers, through every item: the generator register at some state and the core owing nothing. -/
abbrev Rest (c : Dev nD) : sProp 𝕄 :=
  iprop((∃ r, prngReg c r) ∗ ∃ W, owes (c : Thread nD τ) (0 : CellTallies nD τ sig Unit) W)

/-- A host stretch over the buffers that outlive regions, from contents `W`, the rest riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region -/

theorem exit0_arr (c : Dev nD) (w : Fin cfg0.W) :
    (R0.dat (E0 m ρ) c).arrAt w cfg0.N = E1 R0 m ρ c (Pipeline.arrRef spec0 w) := (W1_arr R0 m ρ c w).symm
theorem exit0_rest (c : Dev nD) : ∀ b, b ∉ Finset.univ.image (Pipeline.arrRef spec0) → E1 R0 m ρ c b = E0 m ρ c b :=
  fun b hb => W1_of_ne R0 m ρ c b fun w e => hb (Finset.mem_image.mpr ⟨w, Finset.mem_univ _, e⟩)

set_option backward.isDefEq.respectTransparency.types false in
/-- The normalising region between the launch contents and `W1`: its five arrays are split out of the buffers and
    put back at their final contents; the generator register enters the invariant and comes back; nothing is owed. -/
def reg0 : Pipeline.RegionSeg (pcfgs (F := F)) adm (pdats R0 R1 m ρ) () defs₀ 𝒱₀ L lv 0 where
  win := launch0.win.to₀
  block_pos := launch0.block_pos
  stage_whole := launch0.stage_whole
  K := PEmpty
  osem k := k.elim
  ho := Pipeline.OwnSemFacts.none _
  hbody c := (R0.hbody (E0 m ρ) c).loose
  hwaits := Pipeline.hwaits_of_owed_zero _ _ _ _ L lv 0 fun c t => R0.howed (E0 m ρ) c t
  pre c := iprop(StableHlo.held (c : Thread nD τ) (Pipeline.ucRefs τ sig) (W0 m ρ c) ∗ Rest c)
  post c := iprop(StableHlo.held (c : Thread nD τ) (Pipeline.ucRefs τ sig) (W1 R0 m ρ c) ∗ Rest c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats R0 R1 m ρ) launch0.win launch0.arr_whole c
      ((pdats R0 R1 m ρ 0 c).share_full fun w => R0.hq (E0 m ρ) c w) (E0 m ρ c) fun w => R0.hA (E0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats R0 R1 m ρ 0 c).owed 0 = 0 from R0.howed (E0 m ρ) c 0]
      icases HO with ⟨%W, HO⟩; iexists W; isplitr
      · ipureintro; exact fun x _ => Or.inl (show x ∈ (R0.dat (E0 m ρ) c).recorded 0 from (R0.hrec (E0 m ρ) c 0).symm ▸ Set.mem_univ x)
      iexact HO
    isplitl [Hp]; · iexact Hp
    iexact Hrest
  hin c := by
    rw [show (pdats R0 R1 m ρ 0 c).Φ 0 = Pipeline.ΦA (U := UR sig nD τ) spec0 c from R0.hΦ (E0 m ρ) c 0]; unfold Pipeline.ΦA
    iintro ⟨Hp, -, Hr⟩
    isplitl [Hr]; · iexact Hr
    iexact Hp
  hout c := by
    rw [Pipeline.ownSems0_none, show (pdats R0 R1 m ρ 0 c).Φ (Fin.last _) = Pipeline.ΦA (U := UR sig nD τ) spec0 c from R0.hΦ (E0 m ρ) c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats R0 R1 m ρ) ((pdats R0 R1 m ρ 0 c).share_full fun w => R0.hq (E0 m ρ) c w)
      (E0 m ρ c) (E1 R0 m ρ c) ((pdats R0 R1 m ρ 0 c).arrAt · cfg0.N) (exit0_arr R0 m ρ c) (exit0_rest R0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats R0 R1 m ρ 0 c).owed (Fin.last _) = 0 from R0.howed (E0 m ρ) c _]
    icases HO with ⟨%W, -, HO⟩; iexists W; iexact HO

/-! ## The second region: one array behind two windows -/

/-- The arrays behind the second region's three windows are two buffers. -/
theorem arrs1 : Finset.univ.image (Pipeline.arrRef spec1) = {main_v1, main_v5} := by decide

/-- Entering: the stacked matrix, held whole, is split into the two halves its two windows hold; the output array is
    held whole. The contents are what the region finds. -/
theorem enter1 (c : Dev nD) :
    (Pipeline.arrBufs (Ix := Unit) (Name := ℕ) (U := UR sig nD τ) (Lvl := ℕ) spec1 c (E2 R0 m ρ c) : sProp 𝕄)
      ⊢ (R1.dat (E2 R0 m ρ) c).arrays ((R1.dat (E2 R0 m ρ) c).arrAt · 0) := by
  unfold Pipeline.arrBufs Dat.arrays
  rw [arrs1, bigSep_insert (by decide), bigSep_singleton, bigSep_W1, R1.hs0, R1.hs1, R1.hs2,
    (arr_whole1 0).set_eq_univ, (arr_whole1 2).set_eq_univ]
  beta_reduce
  rw [show (R1.dat (E2 R0 m ρ) c).arrAt 0 0 = E2 R0 m ρ c main_v1 from R1.hA _ c 0,
    show (R1.dat (E2 R0 m ρ) c).arrAt 1 0 = E2 R0 m ρ c main_v1 from R1.hA _ c 1,
    show (R1.dat (E2 R0 m ρ) c).arrAt 2 0 = E2 R0 m ρ c main_v5 from R1.hA _ c 2]
  show (iprop((((c : Thread nD τ).loc main_v1) ↦{fullShare} E2 R0 m ρ c main_v1) ∗ (((c : Thread nD τ).loc main_v5) ↦{fullShare} E2 R0 m ρ c main_v5)) : sProp 𝕄) ⊢ _
  iintro ⟨H1, H5⟩
  ihave H := (pointsTo_share (PosShare.mem_left_op_right fullShare)).1 $$ H1
  icases H with ⟨Hl, Hr⟩
  isplitl [Hl]; · iexact Hl
  isplitl [Hr]; · iexact Hr
  iexact H5

/-- Leaving: the two halves, both still at the contents found (an input's array is never written), are joined;
    the output array is at what the write-backs left. -/
theorem leave1 (c : Dev nD) :
    ((R1.dat (E2 R0 m ρ) c).arrays ((R1.dat (E2 R0 m ρ) c).arrAt · cfg1.N) : sProp 𝕄)
      ⊢ Pipeline.arrBufs (Ix := Unit) (Name := ℕ) (U := UR sig nD τ) (Lvl := ℕ) spec1 c (E3 R0 R1 m ρ c) := by
  unfold Pipeline.arrBufs Dat.arrays
  rw [arrs1, bigSep_insert (by decide), bigSep_singleton, bigSep_W1, R1.hs0, R1.hs1, R1.hs2,
    (arr_whole1 0).set_eq_univ, (arr_whole1 2).set_eq_univ]
  beta_reduce
  rw [show (R1.dat (E2 R0 m ρ) c).arrAt 0 cfg1.N = E3 R0 R1 m ρ c main_v1 from
      ((R1.dat (E2 R0 m ρ) c).arrAt_in 0 rfl _).trans ((R1.hA _ c 0).trans (W3_of_ne R0 R1 m ρ c main_v1 (by decide)).symm),
    show (R1.dat (E2 R0 m ρ) c).arrAt 1 cfg1.N = E3 R0 R1 m ρ c main_v1 from
      ((R1.dat (E2 R0 m ρ) c).arrAt_in 1 rfl _).trans ((R1.hA _ c 1).trans (W3_of_ne R0 R1 m ρ c main_v1 (by decide)).symm),
    show (R1.dat (E2 R0 m ρ) c).arrAt 2 cfg1.N = E3 R0 R1 m ρ c main_v5 from (W3_out R0 R1 m ρ c).symm]
  show _ ⊢ (iprop((((c : Thread nD τ).loc main_v1) ↦{fullShare} E3 R0 R1 m ρ c main_v1) ∗ (((c : Thread nD τ).loc main_v5) ↦{fullShare} E3 R0 R1 m ρ c main_v5)) : sProp 𝕄)
  iintro ⟨Hl, Hr, H5⟩
  isplitl [Hl Hr]
  · iapply (pointsTo_share (PosShare.mem_left_op_right fullShare)).2
    isplitl [Hl] <;> iassumption
  iexact H5

/-- Every other buffer that outlives the region is untouched by it. -/
theorem rest1 (c : Dev nD) :
    (Pipeline.unscopedRest (Ix := Unit) (Name := ℕ) (U := UR sig nD τ) (Lvl := ℕ) spec1 c (E2 R0 m ρ c) : sProp 𝕄)
      = Pipeline.unscopedRest (Ix := Unit) (Name := ℕ) (U := UR sig nD τ) (Lvl := ℕ) spec1 c (E3 R0 R1 m ρ c) := by
  unfold Pipeline.unscopedRest
  refine bigSep_congr fun b hb => ?_
  have hb' : b ≠ main_v5 := fun e => (Finset.mem_sdiff.mp hb).2 (by rw [arrs1, e]; decide)
  rw [show E3 R0 R1 m ρ c b = E2 R0 m ρ c b from W3_of_ne R0 R1 m ρ c b hb']

set_option backward.isDefEq.respectTransparency.types false in
/-- The denominator region between `W2` and `W3`. -/
def reg1 : Pipeline.RegionSeg (pcfgs (F := F)) adm (pdats R0 R1 m ρ) () defs₀ 𝒱₀ L lv 1 where
  win := winFacts₀1
  block_pos := block_pos1
  stage_whole := stage_whole1
  K := PEmpty
  osem k := k.elim
  ho := Pipeline.OwnSemFacts.none _
  hbody c := (R1.hbody (E2 R0 m ρ) c).loose
  hwaits := Pipeline.hwaits_of_owed_zero _ _ _ _ L lv 1 fun c t => R1.howed (E2 R0 m ρ) c t
  pre c := iprop(StableHlo.held (c : Thread nD τ) (Pipeline.ucRefs τ sig) (W2 R0 m ρ c) ∗ Rest c)
  post c := iprop(StableHlo.held (c : Thread nD τ) (Pipeline.ucRefs τ sig) (W3 R0 R1 m ρ c) ∗ Rest c)
  X c := iprop(∃ r, prngReg c r)
  Y c := iprop(∃ r, prngReg c r)
  Z c := Pipeline.unscopedRest (Ix := Unit) (Name := ℕ) (U := UR sig nD τ) (Lvl := ℕ) spec1 c (E2 R0 m ρ c)
  hentry c := by
    rw [Pipeline.ownSems0_none]
    have hsplit : (StableHlo.held (c : Thread nD τ) (Pipeline.ucRefs τ sig) (W2 R0 m ρ c) : sProp 𝕄)
        ⊢ iprop(Pipeline.arrBufs (Ix := Unit) (Name := ℕ) (U := UR sig nD τ) (Lvl := ℕ) spec1 c (E2 R0 m ρ c)
            ∗ Pipeline.unscopedRest (Ix := Unit) (Name := ℕ) (U := UR sig nD τ) (Lvl := ℕ) spec1 c (E2 R0 m ρ c)) := by
      rw [← Pipeline.unscopedBufs_held]
      exact Entails.of_eq (Pipeline.unscopedBufs_split₀ (Pipeline.pin (pcfgs (F := F)) adm) 1 winFacts₀1.arr_unscoped c (E2 R0 m ρ c))
    have henter : (Pipeline.arrBufs (Ix := Unit) (Name := ℕ) (U := UR sig nD τ) (Lvl := ℕ) spec1 c (E2 R0 m ρ c) : sProp 𝕄)
        ⊢ (pdats R0 R1 m ρ 1 c).arrays ((pdats R0 R1 m ρ 1 c).arrAt · 0) := enter1 R0 R1 m ρ c
    iintro ⟨⟨Hub, Hp, HO⟩, -, -⟩
    ihave H := hsplit $$ Hub
    icases H with ⟨Ha, Hrest⟩
    ihave Ha' := henter $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      rw [show (pdats R0 R1 m ρ 1 c).owed 0 = 0 from R1.howed (E2 R0 m ρ) c 0]
      icases HO with ⟨%W, HO⟩; iexists W; isplitr
      · ipureintro; exact fun x _ => Or.inl (show x ∈ (R1.dat (E2 R0 m ρ) c).recorded 0 from (R1.hrec (E2 R0 m ρ) c 0).symm ▸ Set.mem_univ x)
      iexact HO
    isplitl [Hp]; · iexact Hp
    iexact Hrest
  hin c :=
    (show iprop((∃ r, prngReg c r) ∗ Pipeline.prefHeld (pcfgs (F := F) 1).pre c (fun _ => fullShare) (adm (F := F) 1).1
            ∗ Pipeline.scopedRest (Ix := Unit) (Name := ℕ) (U := UR sig nD τ) (Lvl := ℕ) (Val := Elt F) spec1 c)
        ⊢ (iprop((∃ r, prngReg c r) ∗ Pipeline.scopedRest (Ix := Unit) (Name := ℕ) (U := UR sig nD τ) (Lvl := ℕ) (Val := Elt F) spec1 c) : sProp 𝕄) from by
      iintro ⟨Hp, -, Hr⟩
      isplitl [Hp]; · iexact Hp
      iexact Hr).trans (R1.hin (E2 R0 m ρ) c)
  hout c := by
    rw [Pipeline.ownSems0_none]
    exact (R1.hout (E2 R0 m ρ) c).trans (show (iprop((∃ r, prngReg c r) ∗ Pipeline.scopedRest (Ix := Unit) (Name := ℕ) (U := UR sig nD τ) (Lvl := ℕ) (Val := Elt F) spec1 c) : sProp 𝕄)
        ⊢ iprop((∃ r, prngReg c r) ∗ BI.emp ∗ Pipeline.scopedRest (Ix := Unit) (Name := ℕ) (U := UR sig nD τ) (Lvl := ℕ) (Val := Elt F) spec1 c) from by
      iintro ⟨Hp, Hr⟩
      isplitl [Hp]; · iexact Hp
      isplitr; · iempintro
      iexact Hr)
  hexit c := by
    have hjoin : iprop(Pipeline.arrBufs (Ix := Unit) (Name := ℕ) (U := UR sig nD τ) (Lvl := ℕ) spec1 c (E3 R0 R1 m ρ c)
            ∗ Pipeline.unscopedRest (Ix := Unit) (Name := ℕ) (U := UR sig nD τ) (Lvl := ℕ) spec1 c (E2 R0 m ρ c))
        ⊢ (StableHlo.held (c : Thread nD τ) (Pipeline.ucRefs τ sig) (W3 R0 R1 m ρ c) : sProp 𝕄) := by
      rw [← Pipeline.unscopedBufs_held, rest1 R0 R1 m ρ c]
      exact Entails.of_eq (Pipeline.unscopedBufs_split₀ (Pipeline.pin (pcfgs (F := F)) adm) 1 winFacts₀1.arr_unscoped c (E3 R0 R1 m ρ c)).symm
    have hleave : ((pdats R0 R1 m ρ 1 c).arrays ((pdats R0 R1 m ρ 1 c).arrAt · (Pipeline.pin (pcfgs (F := F)) adm 1).N) : sProp 𝕄)
        ⊢ Pipeline.arrBufs (Ix := Unit) (Name := ℕ) (U := UR sig nD τ) (Lvl := ℕ) spec1 c (E3 R0 R1 m ρ c) := leave1 R0 R1 m ρ c
    iintro ⟨Ha, HO, HY, Hrest⟩
    ihave Ha' := hleave $$ Ha
    imodintro
    isplitl [Ha' Hrest]
    · iapply hjoin
      isplitl [Ha'] <;> iassumption
    isplitl [HY]; · iexact HY
    unfold Pipeline.Dat.owesAt Pipeline.owesWithin
    rw [show (pdats R0 R1 m ρ 1 c).owed (Fin.last _) = 0 from R1.howed (E2 R0 m ρ) c _]
    icases HO with ⟨%W, -, HO⟩; iexists W; iexact HO

/-! ## @main as its four items, and the launch -/

abbrev items : List (Pipeline.Seg (pcfgs (F := F)) adm (pdats R0 R1 m ρ) () defs₀ 𝒱₀ L lv) :=
  [ .region (reg0 R0 R1 m ρ),
    .host (hostItem hostOps1 hostOps1_sub hostOps1_fresh (W1 R0 m ρ)),
    .region (reg1 R0 R1 m ρ),
    .host (hostItem hostOps2 hostOps2_sub hostOps2_fresh (W3 R0 R1 m ρ)) ]

theorem main_items (c : Dev nD) : main (F := F) c = Pipeline.Seg.run (items R0 R1 m ρ) :=
  main_segs adm (pdats R0 R1 m ρ) () 𝒱₀ L lv _ _ (reg0 R0 R1 m ρ) (reg1 R0 R1 m ρ) rfl rfl c

set_option backward.isDefEq.respectTransparency.types false in
/-- THE RUN. From any memory with zero counters every weakly fair execution of @main terminates, nothing faulting,
    and every buffer that outlives the regions ends at the last fold `W4`. -/
theorem run_whole : θ_run defs (onTc (τ := τ) (main (F := F))) ⟨m, fun _ => 0, ρ⟩ (fun r => ∀ c : Dev nD,
      ∀ b ∈ Pipeline.ucRefs τ sig, r.2.mem (((c : Thread nD τ)).1, b) = W4 R0 R1 m ρ c b) :=
  Pipeline.θ_run_regions_kit (pcfgs (F := F)) adm (pdats R0 R1 m ρ) () cellOf_inj emb₁ defs₀ 𝒱₀ L lv m ρ main (items R0 R1 m ρ)
    (fun c Q => by rw [main_items R0 R1 m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c))
    (Tₙ := fun c => iprop(StableHlo.held (c : Thread nD τ) (Pipeline.ucRefs τ sig) (W4 R0 R1 m ρ c) ∗ ∃ r, prngReg c r))
    (hch := ⟨fun _ => .rfl, fun _ => .rfl, fun _ => .rfl, fun _ => .rfl, fun c => show iprop(StableHlo.held (c : Thread nD τ) (Pipeline.ucRefs τ sig) (W4 R0 R1 m ρ c) ∗ Rest c) ⊢ _ from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 R0 R1 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 R0 R1 m ρ c) s')
      isplitl [Hh] <;> iassumption)
    (hQ := fun s h c => h c)

end Cert.Kernel.Whole

end
-- ==== Proof.BitsFrame.lean ====
/-
  The arguments end as launched, and so the frame.

  No host operation writes an argument array and no region may change one: an argument is an INPUT array of the first
  region (an input's array is never written, so it ends at its entry contents, which are the launch contents) and is not
  among the second region's arrays. Reading the last fold back at an argument's buffer therefore walks to the launch
  memory; with the run this is the frame claim, at any float instance.
-/
import proofs.«169832_j86492051407493_2_alg».proof.Proof.BitsRun

noncomputable section

namespace Cert.Kernel.Whole

open Idealize.ShloMosaic Idealize.ShloMosaic.TcCoe
open Idealize.SL Idealize.SL.Sem
open Idealize.ShloMosaic.Pipeline (Dat)
open Cert.Kernel.Gen

variable {F : FTy → Type} [FloatOps F]
variable (R0 : Reg0 F) (R1 : Reg1 F)
variable (m : (ℓ : Loc nD τ sig) → Buf (Elt F) ℓ) (ρ : Dev nD → PrngReg)

theorem W4_arg0 (c : Dev nD) : W4 R0 R1 m ρ c (Proc.devRef .tc main_arg0) = m ((c : Thread nD τ).loc main_arg0) :=
  calc W4 R0 R1 m ρ c (Proc.devRef .tc main_arg0)
    _ = W3 R0 R1 m ρ c (Proc.devRef .tc main_arg0) := StableHlo.after_of_writes_sub hostOps2 _ hostOps2_writes (r := main_arg0) (by decide)
    _ = W2 R0 m ρ c (Proc.devRef .tc main_arg0) := W3_of_ne R0 R1 m ρ c main_arg0 (by decide)
    _ = W1 R0 m ρ c (Proc.devRef .tc main_arg0) := StableHlo.after_of_writes_sub hostOps1 _ hostOps1_writes (r := main_arg0) (by decide)
    _ = (R0.dat (E0 m ρ) c).arrAt 0 cfg0.N := W1_arr R0 m ρ c 0
    _ = (R0.dat (E0 m ρ) c).A 0 := (R0.dat (E0 m ρ) c).arrAt_in 0 rfl _
    _ = m ((c : Thread nD τ).loc main_arg0) := R0.hA (E0 m ρ) c 0

theorem W4_arg1 (c : Dev nD) : W4 R0 R1 m ρ c (Proc.devRef .tc main_arg1) = m ((c : Thread nD τ).loc main_arg1) :=
  calc W4 R0 R1 m ρ c (Proc.devRef .tc main_arg1)
    _ = W3 R0 R1 m ρ c (Proc.devRef .tc main_arg1) := StableHlo.after_of_writes_sub hostOps2 _ hostOps2_writes (r := main_arg1) (by decide)
    _ = W2 R0 m ρ c (Proc.devRef .tc main_arg1) := W3_of_ne R0 R1 m ρ c main_arg1 (by decide)
    _ = W1 R0 m ρ c (Proc.devRef .tc main_arg1) := StableHlo.after_of_writes_sub hostOps1 _ hostOps1_writes (r := main_arg1) (by decide)
    _ = (R0.dat (E0 m ρ) c).arrAt 1 cfg0.N := W1_arr R0 m ρ c 1
    _ = (R0.dat (E0 m ρ) c).A 1 := (R0.dat (E0 m ρ) c).arrAt_in 1 rfl _
    _ = m ((c : Thread nD τ).loc main_arg1) := R0.hA (E0 m ρ) c 1

/-- The run with the result and the arguments read off: the result buffer at the last fold, the arguments as launched. -/
theorem run_read : θ_run defs (onTc (τ := τ) (main (F := F))) ⟨m, fun _ => 0, ρ⟩ (fun r => ∀ c : Dev nD,
      r.2.mem ((c.tc : Thread nD τ).loc main_v11) = W4 R0 R1 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v11 (by decide)),
     (h c _ (mem_uc main_arg0 (by decide))).trans (W4_arg0 R0 R1 m ρ c),
     (h c _ (mem_uc main_arg1 (by decide))).trans (W4_arg1 R0 R1 m ρ c)⟩) (run_whole R0 R1 m ρ)

include R0 R1 in
/-- THE FRAME: every weakly fair execution terminates, nothing faulting, the argument arrays as launched. -/
theorem frame_whole : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => (h c).2) (run_read R0 R1 m ρ)

end Cert.Kernel.Whole

end
-- ==== Proof.BitsPrepBody.lean ====
/- The row-normalising kernel: what one body call leaves, and the pipeline's proof data

The first kernel reads two blocks of 1024 rows (one from each input matrix), and writes three blocks:
each input block with every row divided by `max (sqrt (sum of squares of the row)) eps`, and the column of
the row-wise inner products of the two normalised blocks. This module states, for buffer contents `V`
at the kernel's entry, the block each window holds at a grid point, what the body leaves in each output
buffer (its one store of the whole buffer), the body's triple, and the proof data of the pipeline with
its body obligation.
-/
import proofs.«169832_j86492051407493_2_alg».proof.Proof.Gen.Kernel.Launch
import proofs.«169832_j86492051407493_2_alg».proof.Proof.Gen.Kernel.Skeleton
import proofs.«169832_j86492051407493_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Prep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the kernel finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The second input's staging buffer holds its block at every point, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole buffer -/

/-- The whole 1024 × 256 buffer. -/
abbrev rM : Rect S1024x256 := Rect.unit (s := S1024x256) ![0, 0] S1024x256.size inb_S1024x256_S1024x256_0_0
/-- The whole 1024 × 1 buffer. -/
abbrev rC : Rect S1024x1 := Rect.unit (s := S1024x1) ![0, 0] S1024x1.size inb_S1024x1_S1024x1_0_0

/-! ## What the body leaves in each output buffer -/

/-- The first output's buffer after the body: the first input block, row-normalised. -/
def outN1 (x0 : Vec F S1024x256 .f32) : Vec F S1024x256 .f32 :=
  View.canon [⟨rM, k0_pay1 (View.ld x0 rM)⟩]

/-- The second output's buffer after the body: the second input block, row-normalised. -/
def outN2 (x1 : Vec F S1024x256 .f32) : Vec F S1024x256 .f32 :=
  View.canon [⟨rM, k0_pay2 (View.ld x1 rM)⟩]

/-- The third output's buffer after the body: the row-wise inner products of the two normalised blocks. -/
def outP (x0 x1 : Vec F S1024x256 .f32) : Vec F S1024x1 .f32 :=
  View.canon [⟨rC, k0_pay3 (View.ld x0 rM) (View.ld x1 rM)⟩]

/-- One store of the whole 1024 × 256 buffer covers it. -/
theorem coverM (p0 : Vec F S1024x256 .f32) (y : S1024x256.Idx) :
    ∃ pc ∈ ([⟨rM, p0⟩] : List (View.Piece (Elt F) S1024x256 .f32)), y ∈ pc.1.set :=
  View.cover_of_tiled [⟨rM, p0⟩] S1024x256.size (by rfl) y

/-- One store of the whole 1024 × 1 buffer covers it. -/
theorem coverC (p0 : Vec F S1024x1 .f32) (y : S1024x1.Idx) :
    ∃ pc ∈ ([⟨rC, p0⟩] : List (View.Piece (Elt F) S1024x1 .f32)), y ∈ pc.1.set :=
  View.cover_of_tiled [⟨rC, p0⟩] S1024x1.size (by rfl) y

/-! ## The body's triple -/

set_option maxHeartbeats 1000000 in
/-- The body on whole staging buffers, the inputs' at contents `x0`, `x1` and the outputs' at anything, runs to the
    continuation holding the inputs' as they were and the outputs' at `outN1 x0`, `outN2 x1`, `outP x0 x1`. -/
theorem sound_kernel0 (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S1024x256 .f32) (harg4 : arg4.IsWhole)
    (arg5 : Memref sig .tc .vmem S1024x1 .f32) (harg5 : arg5.IsWhole)
    (x0 : Vec F S1024x256 .f32) (x1 : Vec F S1024x256 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (outN1 x0) ∗ owns (c : Thread nD τ) arg4 fullShare (outN2 x1)
            ∗ owns (c : Thread nD τ) arg5 fullShare (outP x0 x1)) -∗ K ⟨⟩))
      ⊢ wp frame (wpE (defs₀ (F := F)) Variants.none c none) E (cc0__prep_kernel i arg1 harg1 arg2 harg2 arg3 harg3 arg4 harg4 arg5 harg5) K := by
  simp only [cc0__prep_kernel_eq_skeleton]; unfold cc0__prep_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverM _)
  isplitl [H3]
  · iexists _; isplitr
    swap; · iexact H3
    ipureintro
    exact View.read_writes_eq_canon _ _ _ (coverM _)
  iexists _; isplitr
  swap; · iexact H4
  ipureintro
  exact View.read_writes_eq_canon _ _ _ (coverC _)

/-! ## The pipeline's proof data -/

/-- The proof data of the pipeline on core `c`: the arrays as the kernel finds them (`V`); after the body at point
    `t` each input's buffer at its block, the first two outputs' at the row-normalised input blocks and the third's at
    their row-wise inner products; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outN1 (iblk0 V c 0 t)
    | ⟨3, _⟩ => outN2 (iblk0 V c 1 t)
    | ⟨4, _⟩ => outP (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outN1 (iblk0 V c 0 t) := by dsimp only [dat0]
theorem after0_3 (c : Dev nD) (t : Fin cfg0.N) : (dat0 V c).after 3 t = outN2 (iblk0 V c 1 t) := by dsimp only [dat0]
theorem after0_4 (c : Dev nD) (t : Fin cfg0.N) : (dat0 V c).after 4 t = outP (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Prep

end
-- ==== Proof.BitsDenomBase.lean ====
import proofs.«169832_j86492051407493_2_alg».proof.Proof.Gen.Kernel.Launch
import proofs.«169832_j86492051407493_2_alg».proof.Proof.Gen.Kernel.Skeleton
import proofs.«169832_j86492051407493_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

/-! The denominator region's schedule and what it accumulates.

The grid is 8 × 8, point `t = 8·qi + kj`. Per query tile `qi` the scratch column is reset at `kj = 0`, then at each
key tile `kj` gains the row sums of `exp((2·q)·kᵀ)` of the point's two input blocks — with the diagonal entries
replaced by zero on the tiles `qi = kj` — and at `kj = 7` is copied to the output block. `accAt` is that column
after point `t`, by recursion on the point; `dat1` is the proof data built on it: the two input windows read the one
stacked array at complementary half shares and always hold their blocks, the output window holds the column where
`kj = 7`, and the invariant carries the scratch at `accAt` between points of one query tile. -/

set_option maxRecDepth 16384

noncomputable section

namespace Cert.Kernel.Denom

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The body's first branch zeroes the accumulator: taken where the key-tile coordinate is 0. -/
abbrev condZ (i : grid1.Coords) : Prop := (Scalar.cmpi .ne (Scalar.extui (Scalar.cmpi .eq (BitVec.ofNat 32 (i 1).val) 0#32)) 0#32) = 1#1
/-- The diagonal branch: taken where the query-tile and key-tile coordinates agree. -/
abbrev condD (i : grid1.Coords) : Prop := (Scalar.cmpi .ne (Scalar.extui (Scalar.cmpi .eq (BitVec.ofNat 32 (i 0).val) (BitVec.ofNat 32 (i 1).val))) 0#32) = 1#1
/-- The off-diagonal branch: taken where they differ. -/
abbrev condN (i : grid1.Coords) : Prop := (Scalar.cmpi .ne (Scalar.extui (Scalar.cmpi .ne (BitVec.ofNat 32 (i 0).val) (BitVec.ofNat 32 (i 1).val))) 0#32) = 1#1
/-- The last branch copies the accumulator out: taken where the key-tile coordinate is 7. -/
abbrev condL (i : grid1.Coords) : Prop := k1_cond4 i = 1#1

/-! ## The branch conditions over the grid, in closed form -/

theorem hcondZ : ∀ t : Fin cfg1.N, condZ (grid1.coords t) ↔ t.val % 8 = 0 :=
  (by decide +kernel : ∀ t : Fin grid1.N, condZ (grid1.coords t) ↔ t.val % 8 = 0)
theorem hcondD : ∀ t : Fin cfg1.N, condD (grid1.coords t) ↔ t.val / 8 = t.val % 8 :=
  (by decide +kernel : ∀ t : Fin grid1.N, condD (grid1.coords t) ↔ t.val / 8 = t.val % 8)
theorem hcondN : ∀ t : Fin cfg1.N, condN (grid1.coords t) ↔ t.val / 8 ≠ t.val % 8 :=
  (by decide +kernel : ∀ t : Fin grid1.N, condN (grid1.coords t) ↔ t.val / 8 ≠ t.val % 8)
theorem hcondL : ∀ t : Fin cfg1.N, condL (grid1.coords t) ↔ t.val % 8 = 7 :=
  (by decide +kernel : ∀ t : Fin grid1.N, condL (grid1.coords t) ↔ t.val % 8 = 7)

/-! ## Where the windows are live -/

theorem liveAt0 : ∀ i : grid1.Coords, cfg1.idle 0 i = false := fun _ => rfl
theorem liveAt1 : ∀ i : grid1.Coords, cfg1.idle 1 i = false := fun _ => rfl
/-- The output window is idle exactly off the last key tile, -/
theorem idleAt2 : ∀ t : Fin cfg1.N, t.val % 8 ≠ 7 → cfg1.idle 2 (grid1.coords t) = true :=
  (by decide +kernel : ∀ t : Fin grid1.N, t.val % 8 ≠ 7 → cfg1.idle 2 (grid1.coords t) = true)
theorem liveAt2 : ∀ t : Fin cfg1.N, t.val % 8 = 7 → cfg1.idle 2 (grid1.coords t) = false :=
  (by decide +kernel : ∀ t : Fin grid1.N, t.val % 8 = 7 → cfg1.idle 2 (grid1.coords t) = false)
/-- and is not written back there. -/
theorem noFlush2 (t : Fin cfg1.N) (h : t.val % 8 ≠ 7) : (cfg1.win 2).flush t = false := by
  cases hf : (cfg1.win 2).flush t
  · rfl
  · exact absurd ((flush1_2 t).mp hf) h

/-! ## The scratch column and the zero offsets -/

/-- The accumulator: the kernel's own scratch column, whole. -/
abbrev scM : Memref sig .tc .vmem S1024x1 .f32 := Memref.whole cc1_scratch0

theorem hz2 : (![0, 0] : Fin 2 → ℕ) = fun _ => 0 := by funext a; fin_cases a <;> rfl

theorem N64 : cfg1.N = 64 := N_1

section Data

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: unfetched, the
    block index has not moved and the body left the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- One point's update of the column `s` from the query block `q` and the key block `k`: the masked row sums on a
    diagonal tile (`t / 8 = t % 8`), the plain row sums elsewhere. -/
def step (n : ℕ) (q k : Vec F S1024x256 .f32) (s : Vec F S1024x1 .f32) : Vec F S1024x1 .f32 :=
  if n / 8 = n % 8 then k1_pay3 q k s else k1_pay4 q k s

theorem step_diag (n : ℕ) (h : n / 8 = n % 8) (q k : Vec F S1024x256 .f32) (s : Vec F S1024x1 .f32) : step n q k s = k1_pay3 q k s := if_pos h
theorem step_off (n : ℕ) (h : n / 8 ≠ n % 8) (q k : Vec F S1024x256 .f32) (s : Vec F S1024x1 .f32) : step n q k s = k1_pay4 q k s := if_neg h

/-- The scratch column after the body at point `n`: the point's update of the zero column at the first key tile of a
    query tile, of what the point before left elsewhere. -/
def accAt (c : Dev nD) : (n : ℕ) → n < cfg1.N → Vec F S1024x1 .f32
  | 0, hn => step 0 (iblk1 V c 0 ⟨0, hn⟩) (iblk1 V c 1 ⟨0, hn⟩) (k1_pay1 (F := F))
  | n + 1, hn => step (n + 1) (iblk1 V c 0 ⟨n + 1, hn⟩) (iblk1 V c 1 ⟨n + 1, hn⟩)
      (if (n + 1) % 8 = 0 then k1_pay1 (F := F) else accAt c n (Nat.lt_of_succ_lt hn))

/-- At the first key tile of a query tile the update starts from the zero column; -/
theorem accAt_first (c : Dev nD) (t : Fin cfg1.N) (h : t.val % 8 = 0) :
    accAt V c t.val t.isLt = step t.val (iblk1 V c 0 t) (iblk1 V c 1 t) (k1_pay1 (F := F)) := by
  obtain ⟨n, hn⟩ := t
  cases n with
  | zero => rfl
  | succ n => exact congrArg _ (if_pos h)

/-- at a later one from what the point before left. -/
theorem accAt_later (c : Dev nD) (t : Fin cfg1.N) (h : t.val % 8 ≠ 0) :
    accAt V c t.val t.isLt = step t.val (iblk1 V c 0 t) (iblk1 V c 1 t)
      (accAt V c (t.val - 1) (Nat.lt_of_le_of_lt (Nat.sub_le _ _) t.isLt)) := by
  obtain ⟨n, hn⟩ := t
  cases n with
  | zero => exact absurd (Nat.zero_mod _) h
  | succ n => exact congrArg _ (if_neg h)

/-! ## The invariant between points -/

/-- Before position `n`: the scratch whole — at what the point before left when `n` is inside a query tile, at any
    contents when a query tile begins (the body resets it there) —, the core's other scoped buffers that no window
    stages, and the generator register. -/
def PhiS (c : Dev nD) (n : ℕ) (hn : n ≤ cfg1.N) : sProp 𝕄 :=
  iprop((if h : n % 8 = 0 then iprop(∃ d, owns (c : Thread nD τ) scM fullShare d)
      else owns (c : Thread nD τ) scM fullShare (accAt V c (n - 1) (by have := Nat.pos_of_ne_zero (fun e : n = 0 => h (e ▸ Nat.zero_mod 8)); omega)))
    ∗ Pipeline.scopedRestBut (Ix := Unit) (Name := ℕ) (U := UR sig nD τ) (Lvl := ℕ) (Val := Elt F) spec1 c [cc1_scratch0]
    ∗ (∃ r, prngReg c r))

theorem PhiS_first (c : Dev nD) (n : ℕ) (hn : n ≤ cfg1.N) (h : n % 8 = 0) :
    PhiS V c n hn = iprop((∃ d, owns (c : Thread nD τ) scM fullShare d)
      ∗ Pipeline.scopedRestBut (Ix := Unit) (Name := ℕ) (U := UR sig nD τ) (Lvl := ℕ) (Val := Elt F) spec1 c [cc1_scratch0]
      ∗ (∃ r, prngReg c r)) := by
  unfold PhiS; rw [dif_pos h]

theorem PhiS_later (c : Dev nD) (n : ℕ) (hn : n ≤ cfg1.N) (h : n % 8 ≠ 0) (hn' : n - 1 < cfg1.N) :
    PhiS V c n hn = iprop(owns (c : Thread nD τ) scM fullShare (accAt V c (n - 1) hn')
      ∗ Pipeline.scopedRestBut (Ix := Unit) (Name := ℕ) (U := UR sig nD τ) (Lvl := ℕ) (Val := Elt F) spec1 c [cc1_scratch0]
      ∗ (∃ r, prngReg c r)) := by
  unfold PhiS; rw [dif_neg h]

/-! ## The proof data -/

/-- The proof data of the region on core `c`: the arrays as the region finds them; after the body the inputs' buffers
    at their blocks and the output's at the accumulated column (consulted where it is written back); the two input
    windows hold the one stacked array at the two halves of the full share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

theorem share1_0 (c : Dev nD) : (dat1 V c).share 0 = fullShare.left := by
  unfold Dat.share; rw [if_neg (by decide)]; dsimp only [dat1]
theorem share1_1 (c : Dev nD) : (dat1 V c).share 1 = fullShare.right := by
  unfold Dat.share; rw [if_neg (by decide)]; dsimp only [dat1]
theorem share1_2 (c : Dev nD) : (dat1 V c).share 2 = fullShare := by
  unfold Dat.share; rw [if_pos (by decide)]

theorem Phi1_castSucc (c : Dev nD) (t : Fin cfg1.N) :
    (dat1 V c).Φ t.castSucc = PhiS V c t.val (Nat.le_of_lt t.isLt) := by
  dsimp only [dat1]; simp only [Fin.coe_castSucc]

theorem Phi1_succ (c : Dev nD) (t : Fin cfg1.N) :
    (dat1 V c).Φ t.succ = PhiS V c (t.val + 1) t.isLt := rfl

/-! ## Entering and leaving the region -/

/-- The scoped rest, split at the scratch. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM fullShare d)
          ∗ Pipeline.scopedRestBut (Ix := Unit) (Name := ℕ) (U := UR sig nD τ) (Lvl := ℕ) (Val := Elt F) spec1 c [cc1_scratch0]) := by
  rw [Pipeline.scopedRest_split_of_list spec1 c [cc1_scratch0] (by decide) (by decide)]
  simp only [scM, owns_whole]; rfl

theorem phi_in1 (c : Dev nD) : iprop((∃ r, prngReg c r) ∗ Pipeline.scopedRest (Ix := Unit) (Name := ℕ) (U := UR sig nD τ) (Lvl := ℕ) (Val := Elt F) spec1 c) ⊢ ((dat1 V c).Φ 0 : sProp 𝕄) := by
  rw [show (dat1 V c).Φ 0 = PhiS V c 0 (Nat.zero_le _) from rfl, PhiS_first V c 0 _ (Nat.zero_mod _), scopedRest1_split]
  iintro ⟨Hg, HS, HR⟩
  isplitl [HS]; · iexact HS
  isplitl [HR]; · iexact HR
  iexact Hg

theorem phi_out1 (c : Dev nD) : ((dat1 V c).Φ (Fin.last cfg1.N) : sProp 𝕄) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = PhiS V c cfg1.N (Nat.le_refl _) from rfl,
    PhiS_first V c _ _ (by rw [N64]), scopedRest1_split]
  iintro ⟨HS, HR, Hg⟩
  isplitl [Hg]; · iexact Hg
  isplitl [HS]; · iexact HS
  iexact HR

end Data

end Cert.Kernel.Denom

end
-- ==== Proof.BitsDenomRun.lean ====
import proofs.«169832_j86492051407493_2_alg».proof.Proof.BitsDenomBase

/-! The denominator kernel's body run on whole memrefs, one theorem per control case of its four branches on the grid
coordinates (reset at the first key tile; masked or plain row sums; copy-out at the last key tile). -/

set_option maxRecDepth 16384

noncomputable section

namespace Cert.Kernel.Denom

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## Whole-buffer loads and stores -/

/-- A load of a whole 1024 × 256 buffer reads its contents. -/
theorem ld256 (m : Memref sig .tc .vmem S1024x256 .f32) (h : m.IsWhole) (x : Vec F S1024x256 .f32) :
    View.readAt (Elt F) m.view (Rect.unit (s := S1024x256) ![0, 0] S1024x256.size inb_S1024x256_S1024x256_0_0).toLoadRect (h.unread x) = x := by
  rw [View.readAt_eq_ld, h.read_unread]; exact View.ld_unit_zero hz2 _ x

/-- A load of a whole 1024 × 1 column reads its contents. -/
theorem ld1 (m : Memref sig .tc .vmem S1024x1 .f32) (h : m.IsWhole) (x : Vec F S1024x1 .f32) :
    View.readAt (Elt F) m.view (Rect.unit (s := S1024x1) ![0, 0] S1024x1.size inb_S1024x1_S1024x1_0_0).toLoadRect (h.unread x) = x := by
  rw [View.readAt_eq_ld, h.read_unread]; exact View.ld_unit_zero hz2 _ x

/-- A load of the whole column after a store of the whole column reads what was stored. -/
theorem cov1 (v : View sig .tc .vmem S1024x1 .f32) (w : S1024x1.Idx → Elt F .f32) (L : List (View.Piece (Elt F) S1024x1 .f32)) :
    v.readCov ((⟨Rect.unit (s := S1024x1) ![0, 0] S1024x1.size inb_S1024x1_S1024x1_0_0, w⟩ : View.Piece (Elt F) S1024x1 .f32) :: L)
      (Rect.unit (s := S1024x1) ![0, 0] S1024x1.size inb_S1024x1_S1024x1_0_0).toLoadRect = w :=
  View.readCov_cons_toLoadRect v (Rect.unit (s := S1024x1) ![0, 0] S1024x1.size inb_S1024x1_S1024x1_0_0) w L

/-- The whole column, stored last, is what the buffer then reads. -/
theorem read_store1 (v : View sig .tc .vmem S1024x1 .f32) (f : v.ty.Contents (Elt F)) (w : S1024x1.Idx → Elt F .f32)
    (L : List (View.Piece (Elt F) S1024x1 .f32)) :
    v.read (Elt F) (v.writes (Elt F) f ((⟨Rect.unit (s := S1024x1) ![0, 0] S1024x1.size inb_S1024x1_S1024x1_0_0, w⟩ : View.Piece (Elt F) S1024x1 .f32) :: L)) = w :=
  (View.read_writes_eq_canon _ _ _ (fun y => ⟨_, List.mem_cons_self, View.mem_set_unit_zero hz2 inb_S1024x1_S1024x1_0_0 y⟩)).trans
    (View.canon_cons_unit_zero hz2 _ w L)

/-! ## The body's run, one control case at a time

On whole memrefs — the query block `x0`, the key block `x1`, the output buffer at `y`, the scratch at `xs` — the body
leaves the inputs as they were, the scratch at the point's update of the zero column (first key tile) or of `xs`
(later ones), and the output buffer at that update on the last key tile, untouched elsewhere. -/

set_option maxHeartbeats 1000000 in
theorem run_ZD (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (hZ : condZ i) (hD : condD i) (hN : ¬condN i) (hL : ¬condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare y
            ∗ owns (c : Thread nD τ) arg5 fullShare (k1_pay3 x0 x1 (k1_pay1 (F := F)))) -∗ K ⟨⟩))
      ⊢ wp frame (wpE (defs₀ (F := F)) Variants.none c none) E (cc1__denom_kernel i arg2 harg2 arg3 harg3 arg4 harg4 arg5 harg5) K := by
  simp only [cc1__denom_kernel_eq_skeleton]; unfold cc1__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hZ | exact hD | exact hN | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  refine (read_store1 _ _ _ _).trans ?_
  exact congr (congr (congrArg (k1_pay3 (F := F)) (ld256 arg2 harg2 x0)) (ld256 arg3 harg3 x1)) (cov1 arg5.view (k1_pay1 (F := F)) [])

set_option maxHeartbeats 1000000 in
theorem run_ZN (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (hZ : condZ i) (hD : ¬condD i) (hN : condN i) (hL : ¬condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare y
            ∗ owns (c : Thread nD τ) arg5 fullShare (k1_pay4 x0 x1 (k1_pay1 (F := F)))) -∗ K ⟨⟩))
      ⊢ wp frame (wpE (defs₀ (F := F)) Variants.none c none) E (cc1__denom_kernel i arg2 harg2 arg3 harg3 arg4 harg4 arg5 harg5) K := by
  simp only [cc1__denom_kernel_eq_skeleton]; unfold cc1__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hZ | exact hD | exact hN | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  refine (read_store1 _ _ _ _).trans ?_
  exact congr (congr (congrArg (k1_pay4 (F := F)) (ld256 arg2 harg2 x0)) (ld256 arg3 harg3 x1)) (cov1 arg5.view (k1_pay1 (F := F)) [])

set_option maxHeartbeats 1000000 in
theorem run_MD (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (hZ : ¬condZ i) (hD : condD i) (hN : ¬condN i) (hL : ¬condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare y
            ∗ owns (c : Thread nD τ) arg5 fullShare (k1_pay3 x0 x1 xs)) -∗ K ⟨⟩))
      ⊢ wp frame (wpE (defs₀ (F := F)) Variants.none c none) E (cc1__denom_kernel i arg2 harg2 arg3 harg3 arg4 harg4 arg5 harg5) K := by
  simp only [cc1__denom_kernel_eq_skeleton]; unfold cc1__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hZ | exact hD | exact hN | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  refine (read_store1 _ _ _ _).trans ?_
  exact congr (congr (congrArg (k1_pay3 (F := F)) (ld256 arg2 harg2 x0)) (ld256 arg3 harg3 x1)) (ld1 arg5 harg5 xs)

set_option maxHeartbeats 1000000 in
theorem run_MN (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (hZ : ¬condZ i) (hD : ¬condD i) (hN : condN i) (hL : ¬condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare y
            ∗ owns (c : Thread nD τ) arg5 fullShare (k1_pay4 x0 x1 xs)) -∗ K ⟨⟩))
      ⊢ wp frame (wpE (defs₀ (F := F)) Variants.none c none) E (cc1__denom_kernel i arg2 harg2 arg3 harg3 arg4 harg4 arg5 harg5) K := by
  simp only [cc1__denom_kernel_eq_skeleton]; unfold cc1__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hZ | exact hD | exact hN | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  refine (read_store1 _ _ _ _).trans ?_
  exact congr (congr (congrArg (k1_pay4 (F := F)) (ld256 arg2 harg2 x0)) (ld256 arg3 harg3 x1)) (ld1 arg5 harg5 xs)

set_option maxHeartbeats 1000000 in
theorem run_LD (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (hZ : ¬condZ i) (hD : condD i) (hN : ¬condN i) (hL : condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare (k1_pay3 x0 x1 xs)
            ∗ owns (c : Thread nD τ) arg5 fullShare (k1_pay3 x0 x1 xs)) -∗ K ⟨⟩))
      ⊢ wp frame (wpE (defs₀ (F := F)) Variants.none c none) E (cc1__denom_kernel i arg2 harg2 arg3 harg3 arg4 harg4 arg5 harg5) K := by
  simp only [cc1__denom_kernel_eq_skeleton]; unfold cc1__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hZ | exact hD | exact hN | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    refine (read_store1 _ _ _ _).trans ?_
    refine (cov1 _ _ _).trans ?_
    exact congr (congr (congrArg (k1_pay3 (F := F)) (ld256 arg2 harg2 x0)) (ld256 arg3 harg3 x1)) (ld1 arg5 harg5 xs)
  iexists _; isplitr
  swap; · iexact HS
  ipureintro
  sl_unfold_words
  refine (read_store1 _ _ _ _).trans ?_
  exact congr (congr (congrArg (k1_pay3 (F := F)) (ld256 arg2 harg2 x0)) (ld256 arg3 harg3 x1)) (ld1 arg5 harg5 xs)

set_option maxHeartbeats 1000000 in
theorem run_LN (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (hZ : ¬condZ i) (hD : ¬condD i) (hN : condN i) (hL : condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare (k1_pay4 x0 x1 xs)
            ∗ owns (c : Thread nD τ) arg5 fullShare (k1_pay4 x0 x1 xs)) -∗ K ⟨⟩))
      ⊢ wp frame (wpE (defs₀ (F := F)) Variants.none c none) E (cc1__denom_kernel i arg2 harg2 arg3 harg3 arg4 harg4 arg5 harg5) K := by
  simp only [cc1__denom_kernel_eq_skeleton]; unfold cc1__denom_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1
  obtain rfl := harg4.eq_unread hf2; obtain rfl := harg5.eq_unread hfs
  sl_exec (disch := first | exact hZ | exact hD | exact hN | exact hL)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    refine (read_store1 _ _ _ _).trans ?_
    refine (cov1 _ _ _).trans ?_
    exact congr (congr (congrArg (k1_pay4 (F := F)) (ld256 arg2 harg2 x0)) (ld256 arg3 harg3 x1)) (ld1 arg5 harg5 xs)
  iexists _; isplitr
  swap; · iexact HS
  ipureintro
  sl_unfold_words
  refine (read_store1 _ _ _ _).trans ?_
  exact congr (congr (congrArg (k1_pay4 (F := F)) (ld256 arg2 harg2 x0)) (ld256 arg3 harg3 x1)) (ld1 arg5 harg5 xs)

end Cert.Kernel.Denom

end
-- ==== Proof.BitsDenomBody.lean ====
import proofs.«169832_j86492051407493_2_alg».proof.Proof.BitsDenomRun

/-! The denominator region's body obligation.

At every grid point the two input buffers hold the point's query and key blocks; the scratch column comes in at what
the point before left (at anything when a query tile begins) and goes out at `accAt`; the output buffer is handed back
untouched off the last key tile and holds `accAt` on it. The three positions of the key tile within its query tile
(first, inner, last) are the three cases of the proof; the diagonal and off-diagonal tiles are joined by `step`. -/

set_option maxRecDepth 16384

noncomputable section

namespace Cert.Kernel.Denom

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The runs joined over the diagonal test -/

theorem kernel_first (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (n : ℕ) (hD : condD i ↔ n / 8 = n % 8) (hN : condN i ↔ n / 8 ≠ n % 8) (hZ : condZ i) (hL : ¬condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare y
            ∗ owns (c : Thread nD τ) arg5 fullShare (step n x0 x1 (k1_pay1 (F := F)))) -∗ K ⟨⟩))
      ⊢ wp frame (wpE (defs₀ (F := F)) Variants.none c none) E (cc1__denom_kernel i arg2 harg2 arg3 harg3 arg4 harg4 arg5 harg5) K := by
  by_cases h : n / 8 = n % 8
  · rw [step_diag n h]
    exact run_ZD c E i arg2 harg2 arg3 harg3 arg4 harg4 arg5 harg5 hZ (hD.mpr h) (fun hn => (hN.mp hn) h) hL x0 x1 y xs K
  · rw [step_off n h]
    exact run_ZN c E i arg2 harg2 arg3 harg3 arg4 harg4 arg5 harg5 hZ (fun hd => h (hD.mp hd)) (hN.mpr h) hL x0 x1 y xs K

theorem kernel_mid (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (n : ℕ) (hD : condD i ↔ n / 8 = n % 8) (hN : condN i ↔ n / 8 ≠ n % 8) (hZ : ¬condZ i) (hL : ¬condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare y
            ∗ owns (c : Thread nD τ) arg5 fullShare (step n x0 x1 xs)) -∗ K ⟨⟩))
      ⊢ wp frame (wpE (defs₀ (F := F)) Variants.none c none) E (cc1__denom_kernel i arg2 harg2 arg3 harg3 arg4 harg4 arg5 harg5) K := by
  by_cases h : n / 8 = n % 8
  · rw [step_diag n h]
    exact run_MD c E i arg2 harg2 arg3 harg3 arg4 harg4 arg5 harg5 hZ (hD.mpr h) (fun hn => (hN.mp hn) h) hL x0 x1 y xs K
  · rw [step_off n h]
    exact run_MN c E i arg2 harg2 arg3 harg3 arg4 harg4 arg5 harg5 hZ (fun hd => h (hD.mp hd)) (hN.mpr h) hL x0 x1 y xs K

theorem kernel_last (c : Dev nD) (E : Set ℕ) (i : grid1.Coords)
    (arg2 : Memref sig .tc .vmem S1024x256 .f32) (harg2 : arg2.IsWhole) (arg3 : Memref sig .tc .vmem S1024x256 .f32) (harg3 : arg3.IsWhole)
    (arg4 : Memref sig .tc .vmem S1024x1 .f32) (harg4 : arg4.IsWhole) (arg5 : Memref sig .tc .vmem S1024x1 .f32) (harg5 : arg5.IsWhole)
    (n : ℕ) (hD : condD i ↔ n / 8 = n % 8) (hN : condN i ↔ n / 8 ≠ n % 8) (hZ : ¬condZ i) (hL : condL i)
    (x0 x1 : Vec F S1024x256 .f32) (y xs : Vec F S1024x1 .f32) (K : PUnit → sProp 𝕄) :
    iprop(owns (c : Thread nD τ) arg2 fullShare x0 ∗ owns (c : Thread nD τ) arg3 fullShare x1
        ∗ owns (c : Thread nD τ) arg4 fullShare y ∗ owns (c : Thread nD τ) arg5 fullShare xs
        ∗ (iprop(owns (c : Thread nD τ) arg2 fullShare x0 ∗ owns (c : Thread nD τ) arg3 fullShare x1
            ∗ owns (c : Thread nD τ) arg4 fullShare (step n x0 x1 xs)
            ∗ owns (c : Thread nD τ) arg5 fullShare (step n x0 x1 xs)) -∗ K ⟨⟩))
      ⊢ wp frame (wpE (defs₀ (F := F)) Variants.none c none) E (cc1__denom_kernel i arg2 harg2 arg3 harg3 arg4 harg4 arg5 harg5) K := by
  by_cases h : n / 8 = n % 8
  · rw [step_diag n h]
    exact run_LD c E i arg2 harg2 arg3 harg3 arg4 harg4 arg5 harg5 hZ (hD.mpr h) (fun hn => (hN.mp hn) h) hL x0 x1 y xs K
  · rw [step_off n h]
    exact run_LN c E i arg2 harg2 arg3 harg3 arg4 harg4 arg5 harg5 hZ (fun hd => h (hD.mp hd)) (hN.mpr h) hL x0 x1 y xs K

section Body

variable (V : (c : Dev nD) → (b : Ref sig .tc) → Buf (Elt F) ((c : Thread nD τ).loc b))

/-- After a point that is not the last of its query tile the invariant holds the scratch at that point's column. -/
theorem PhiS_after (c : Dev nD) (t : Fin cfg1.N) (h : t.val % 8 ≠ 7) :
    PhiS V c (t.val + 1) t.isLt = iprop(owns (c : Thread nD τ) scM fullShare (accAt V c t.val t.isLt) ∗ Pipeline.scopedRestBut (Ix := Unit) (Name := ℕ) (U := UR sig nD τ) (Lvl := ℕ) (Val := Elt F) spec1 c [cc1_scratch0] ∗ (∃ r, prngReg c r)) := by
  have h' : (t.val + 1) % 8 ≠ 0 := by omega
  unfold PhiS; rw [dif_neg h']; rfl

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).leavesExact 0 t = owns (c : Thread nD τ) (st1_0 t) fullShare ((dat1 V c).after 0 t) from by
    unfold Dat.leavesExact; rw [liveAt0 (grid1.coords t)], after1_0]
  rw [show (dat1 V c).leavesExact 1 t = owns (c : Thread nD τ) (st1_1 t) fullShare ((dat1 V c).after 1 t) from by
    unfold Dat.leavesExact; rw [liveAt1 (grid1.coords t)], after1_1]
  rw [Phi1_castSucc, Phi1_succ]
  have hN : t.val < 64 := lt_of_lt_of_eq t.isLt N64
  by_cases h0 : t.val % 8 = 0
  · -- the first key tile of a query tile: the scratch comes in at anything and is reset
    have h7 : t.val % 8 ≠ 7 := by omega
    rw [Dat.leavesExact_idle (dat1 V c) 2 t (idleAt2 t h7) (noFlush2 t h7)]
    rw [PhiS_first V c t.val _ h0, PhiS_after V c t h7, accAt_first V c t h0]
    iintro ⟨⟨⟨%ds, HS⟩, HR, Hg⟩, Ho, ⟨%d0, H0⟩, ⟨%d1, H1⟩, ⟨%d2, H2⟩⟩
    iapply (kernel_first c Set.univ (grid1.coords t) _ _ _ _ _ _ _ _ t.val (hcondD t) (hcondN t) ((hcondZ t).mpr h0)
      (fun h => h7 ((hcondL t).mp h)) (iblk1 V c 0 t) (iblk1 V c 1 t) ((dat1 V c).before 2 t d2) ds _)
    isplitl [H0]; · iexact H0
    isplitl [H1]; · iexact H1
    isplitl [H2]; · iexact H2
    isplitl [HS]; · iexact HS
    iintro ⟨H0, H1, H2, HS⟩
    isplitl [HS HR Hg]
    · isplitl [HS]; · iexact HS
      isplitl [HR]; · iexact HR
      iexact Hg
    isplitl [Ho]; · iexact Ho
    isplitl [H0]; · iexact H0
    isplitl [H1]; · iexact H1
    iexists _; iexact H2
  · by_cases h7 : t.val % 8 = 7
    · -- the last key tile: the column is completed and copied to the output buffer
      rw [show (dat1 V c).leavesExact 2 t = owns (c : Thread nD τ) (st1_2 t) fullShare ((dat1 V c).after 2 t) from by
        unfold Dat.leavesExact; rw [liveAt2 t h7], after1_2]
      rw [PhiS_later V c t.val _ h0 (Nat.lt_of_le_of_lt (Nat.sub_le _ _) t.isLt),
        PhiS_first V c (t.val + 1) _ (by omega), accAt_later V c t h0]
      iintro ⟨⟨HS, HR, Hg⟩, Ho, ⟨%d0, H0⟩, ⟨%d1, H1⟩, ⟨%d2, H2⟩⟩
      iapply (kernel_last c Set.univ (grid1.coords t) _ _ _ _ _ _ _ _ t.val (hcondD t) (hcondN t) (fun h => h0 ((hcondZ t).mp h))
        ((hcondL t).mpr h7) (iblk1 V c 0 t) (iblk1 V c 1 t) ((dat1 V c).before 2 t d2)
        (accAt V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexists _; iexact HS
        isplitl [HR]; · iexact HR
        iexact Hg
      isplitl [Ho]; · iexact Ho
      isplitl [H0]; · iexact H0
      isplitl [H1]; · iexact H1
      iexact H2
    · -- an inner key tile: the column gains the tile's row sums
      rw [Dat.leavesExact_idle (dat1 V c) 2 t (idleAt2 t h7) (noFlush2 t h7)]
      rw [PhiS_later V c t.val _ h0 (Nat.lt_of_le_of_lt (Nat.sub_le _ _) t.isLt), PhiS_after V c t h7, accAt_later V c t h0]
      iintro ⟨⟨HS, HR, Hg⟩, Ho, ⟨%d0, H0⟩, ⟨%d1, H1⟩, ⟨%d2, H2⟩⟩
      iapply (kernel_mid c Set.univ (grid1.coords t) _ _ _ _ _ _ _ _ t.val (hcondD t) (hcondN t) (fun h => h0 ((hcondZ t).mp h))
        (fun h => h7 ((hcondL t).mp h)) (iblk1 V c 0 t) (iblk1 V c 1 t) ((dat1 V c).before 2 t d2)
        (accAt V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Body

end Cert.Kernel.Denom

end
-- ==== Proof.BitsAssemble.lean ====
/-
  The two regions' proof data and body obligations put into the run: the frame of the whole program and its run with
  the result read off, at any float instance.
-/
import proofs.«169832_j86492051407493_2_alg».proof.Proof.BitsFrame
import proofs.«169832_j86492051407493_2_alg».proof.Proof.BitsPrepBody
import proofs.«169832_j86492051407493_2_alg».proof.Proof.BitsDenomBody

noncomputable section

namespace Cert.Kernel.Whole

open Idealize.ShloMosaic Idealize.ShloMosaic.TcCoe
open Idealize.SL Idealize.SL.Sem
open Cert.Kernel.Gen

variable {F : FTy → Type} [FloatOps F]

/-- The normalising region's record. -/
def prep : Reg0 F where
  dat V c := Cert.Kernel.Prep.dat0 V c
  hA V c w := Cert.Kernel.Prep.A_eq0 V c w
  hq _ _ _ := rfl
  howed _ _ _ := rfl
  hrec _ _ _ := rfl
  hΦ _ _ _ := rfl
  hbody V c := Cert.Kernel.Prep.body_obligation0 V c

/-- The denominator region's record. -/
def denom : Reg1 F where
  dat V c := Cert.Kernel.Denom.dat1 V c
  hA V c w := Cert.Kernel.Denom.A_eq1 V c w
  hs0 V c := Cert.Kernel.Denom.share1_0 V c
  hs1 V c := Cert.Kernel.Denom.share1_1 V c
  hs2 V c := Cert.Kernel.Denom.share1_2 V c
  howed _ _ _ := rfl
  hrec _ _ _ := rfl
  hin V c := Cert.Kernel.Denom.phi_in1 V c
  hout V c := Cert.Kernel.Denom.phi_out1 V c
  hbody V c := Cert.Kernel.Denom.body_obligation1 V c

variable (m : (ℓ : Loc nD τ sig) → Buf (Elt F) ℓ) (ρ : Dev nD → PrngReg)

/-- The program's frame: it terminates, faults nowhere, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_whole prep denom m ρ

end Cert.Kernel.Whole

end
-- ==== Proof.Spec.lean ====
/-
  The mathematics both programs compute, stated once over extended reals and literal index types, with no
  program imported.

  Two matrices z1, z2 (4096 rows of 256 numbers each) are normalised row by row — a row is divided by its
  Euclidean norm clamped below at ε — and stacked into one matrix Z of 8192 unit rows. The loss is
  −(1/8192) · Σ_r log (pos r / den r), where pos r is the inner product of row r with its partner row
  (r ± 4096) and den r is Σ_{c ≠ r} exp (⟨Z r, Z c⟩ / (1/2)).

  One side forms the positives row-pair by row-pair before stacking (`posHalf`) and the denominators tile by
  tile with the factor 2 folded into the left operand and the diagonal entries replaced by 0 (`denK`); the
  other side forms the whole similarity matrix, reads the positives off two of its diagonals (`posR`), masks
  the main diagonal with −∞ before dividing by 1/2 and exponentiating (`denR`). The last five operations of
  both (quotient, logarithm, sum from zero, division by 8192, negation) are one function, `tail`.
-/
import Idealize.ShloMosaic.PureOps.Ideal
import Idealize.ShloMosaic.PureOps.Ideal.Laws
import Idealize.ShloMosaic.Lib.ValueIdx

noncomputable section

namespace Cert.Spec

open Idealize.ShloMosaic

/-- ε, the lower clamp of a row's norm (the binary value of the word both programs carry). -/
def eps : EReal := Ideal.ofBits .f32 0x322BCC77#32
/-- The factor 2 = 1 / (1/2) that one side folds into the left operand. -/
def two : EReal := Ideal.ofBits .f32 0x40000000#32
/-- The temperature 1/2 the other side divides by. -/
def half : EReal := Ideal.ofBits .f32 0x3F000000#32
/-- The mask value −∞. -/
def negInf : EReal := Ideal.ofBits .f32 0xFF800000#32

/-- A row's Euclidean norm, clamped below at ε. -/
def nrm {n : ℕ} (z : Fin n → Fin 256 → EReal) (r : Fin n) : EReal :=
  max (Ideal.sqrt (∑ d : Fin 256, z r d * z r d)) eps

/-- The matrix with every row divided by its clamped norm. -/
def unit {n : ℕ} (z : Fin n → Fin 256 → EReal) (r : Fin n) (d : Fin 256) : EReal :=
  Ideal.div (z r d) (nrm z r)

/-- The inner product of the i-th unit rows of the two matrices. -/
def posHalf (z1 z2 : Fin 4096 → Fin 256 → EReal) (i : Fin 4096) : EReal :=
  ∑ d : Fin 256, unit z1 i d * unit z2 i d

/-- Two 4096-row matrices one above the other. -/
def stack (x y : Fin 4096 → Fin 256 → EReal) (r : Fin 8192) (d : Fin 256) : EReal :=
  if h : r.val < 4096 then x ⟨r.val, h⟩ d else y ⟨r.val - 4096, by omega⟩ d

/-- Row c of key tile kj. -/
def row (kj : Fin 8) (c : Fin 1024) : Fin 8192 := ⟨kj.val * 1024 + c.val, by omega⟩

/-- The denominators tile by tile: the scaled inner products exponentiated, the entry on the main diagonal
    replaced by zero, summed over the 1024 columns of each of the 8 key tiles. -/
def denK (Z : Fin 8192 → Fin 256 → EReal) (r : Fin 8192) : EReal :=
  ∑ kj : Fin 8, ∑ c : Fin 1024,
    if r = row kj c then (0 : EReal) else Ideal.exp (∑ d : Fin 256, (Z r d * two) * Z (row kj c) d)

/-- An entry of the similarity matrix Z · Zᵀ. -/
def simR (Z : Fin 8192 → Fin 256 → EReal) (p q : Fin 8192) : EReal := ∑ d : Fin 256, Z p d * Z q d

/-- The positives read off the diagonals at offsets +4096 and −4096 of the similarity matrix. -/
def posR (Z : Fin 8192 → Fin 256 → EReal) (r : Fin 8192) : EReal :=
  if h : r.val < 4096 then simR Z r ⟨r.val + 4096, by omega⟩ else simR Z r ⟨r.val - 4096, by omega⟩

/-- The denominators from the whole similarity matrix: the main diagonal masked with −∞, every entry divided
    by 1/2 and exponentiated, each row summed. -/
def denR (Z : Fin 8192 → Fin 256 → EReal) (r : Fin 8192) : EReal :=
  ∑ c : Fin 8192, Ideal.exp (Ideal.div (if r = c then negInf else simR Z r c) half)

/-- An array of shape [n, 256] as a function of its row and column. -/
def mat {n : ℕ} (a : (⟨2, ![n, 256]⟩ : Shape).Idx → EReal) (r : Fin n) (d : Fin 256) : EReal :=
  a (ValueIdx.ix2 r d)

/-- The positives of the row-pair form, laid end to end twice: entry r is the pair r mod 4096. -/
def posK (z1 z2 : Fin 4096 → Fin 256 → EReal) (r : Fin 8192) : EReal :=
  if h : r.val < 4096 then posHalf z1 z2 ⟨r.val, h⟩ else posHalf z1 z2 ⟨r.val - 4096, by omega⟩

end Cert.Spec

end
-- ==== Proof.LibReal.lean ====
/-
  Real numbers among the extended reals, and the operations that keep them real.
  Part 1, scalars. An extended real is a real number, +∞ or −∞. Over the reals the ring laws hold; at the infinities distributivity
  and cancellation fail. So an identity that needs those laws is proved for real values, and a computation is shown to
  stay among the reals: sums, differences, products, maxima and finite sums of reals are real; the logistic function
  1/(1 + e^(-x)) is real everywhere (it is 0 at −∞ and 1 at +∞); a quotient by a non-zero real is real; the inverse
  square root of a positive real is real.
  Part 2, arrays at the ideal values. An array is real when every entry is. The elementwise sum, difference, product
  and maximum of real arrays are real; so is any re-indexing of one (a broadcast, a reshape, a slice, a gather: each
  entry of the result is an entry of the operand); the logistic function of any array; the host's product of two real
  arrays (each entry a finite sum of products); its sum-reduction of a real array from a real initial value (the initial
  value plus a finite sum of entries); its scatter-add of real updates into a real operand (the operand's entry plus a
  finite sum of update entries); the quotient by an array of one non-zero real; the inverse square root of an array of
  positive reals; a selection between two real arrays. An array
  every entry of which passes jnp's `isfinite` test (|x| < +∞) is real.
-/
import Idealize.ShloMosaic.PureOps.Ideal
import Idealize.ShloMosaic.PureOps.Ideal.Laws
import Idealize.ShloMosaic.Lib.ValueIdx
import Mathlib.Data.EReal.Basic

noncomputable section

namespace Cert.LibReal

open Idealize.ShloMosaic

/-- `x` is a real number: neither infinity. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The negative of a real is real. -/
theorem IsReal.neg {x : EReal} (hx : IsReal x) : IsReal (-x) := by
  obtain ⟨a, rfl⟩ := hx; exact ⟨-a, (EReal.coe_neg a).symm⟩

/-- The larger of two reals is real. -/
theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The logistic function's value is a real number at every extended real. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- A real divided by a non-zero real is real. -/
theorem IsReal.div_coe {x : EReal} (hx : IsReal x) {y : ℝ} (hy : y ≠ 0) : IsReal (Ideal.div x (y : EReal)) := by
  rw [Ideal.div_coe hy]; exact hx.mul (isReal_coe _)

/-- The inverse square root of a positive real is real. -/
theorem isReal_rsqrt_pos {r : ℝ} (hr : 0 < r) : IsReal (Ideal.rsqrt (r : EReal)) := by
  rw [Ideal.rsqrt_coe, if_neg (not_lt.mpr hr.le), if_neg hr.ne']; exact isReal_coe _

/-- The scale-and-shift form of a normalisation is the centred form, over the reals:
    (g·r)·x + (b − m·(g·r)) = (g·(x − m))·r + b, by distributivity. -/
theorem norm_forms (g x m r b : ℝ) :
    ((g : EReal) * r) * x + ((b : EReal) - m * ((g : EReal) * r)) = ((g : EReal) * ((x : EReal) - m)) * r + b := by
  have h : (g * r) * x + (b - m * (g * r)) = (g * (x - m)) * r + b := by ring
  exact_mod_cast congrArg (fun t : ℝ => (t : EReal)) h

/-- The same for extended reals known to be real. -/
theorem norm_forms_of_isReal {g x m r b : EReal} (hg : IsReal g) (hx : IsReal x) (hm : IsReal m) (hr : IsReal r)
    (hb : IsReal b) : (g * r) * x + (b - m * (g * r)) = (g * (x - m)) * r + b := by
  obtain ⟨g, rfl⟩ := hg; obtain ⟨x, rfl⟩ := hx; obtain ⟨m, rfl⟩ := hm; obtain ⟨r, rfl⟩ := hr; obtain ⟨b, rfl⟩ := hb
  exact norm_forms g x m r b

/-! ## Non-negative and positive reals -/

/-- `x` is a non-negative real number. -/
def IsNonneg (x : EReal) : Prop := ∃ r : ℝ, 0 ≤ r ∧ x = (r : EReal)

/-- `x` is a positive real number. -/
def IsPos (x : EReal) : Prop := ∃ r : ℝ, 0 < r ∧ x = (r : EReal)

theorem IsNonneg.isReal {x : EReal} (h : IsNonneg x) : IsReal x := by obtain ⟨r, -, e⟩ := h; exact ⟨r, e⟩
theorem IsPos.isReal {x : EReal} (h : IsPos x) : IsReal x := by obtain ⟨r, -, e⟩ := h; exact ⟨r, e⟩
theorem isNonneg_zero : IsNonneg 0 := ⟨0, le_refl _, rfl⟩

/-- The square of a real is non-negative. -/
theorem IsReal.mul_self_nonneg {x : EReal} (hx : IsReal x) : IsNonneg (x * x) := by
  obtain ⟨a, rfl⟩ := hx; exact ⟨a * a, _root_.mul_self_nonneg a, (EReal.coe_mul a a).symm⟩

/-- A sum of two non-negative reals is non-negative. -/
theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩

/-- A finite sum of non-negative reals is non-negative. -/
theorem IsNonneg.sum {ι : Type} (s : Finset ι) (f : ι → EReal) (h : ∀ i ∈ s, IsNonneg (f i)) : IsNonneg (∑ i ∈ s, f i) := by
  classical
  induction s using Finset.induction_on with
  | empty => rw [Finset.sum_empty]; exact isNonneg_zero
  | insert a s ha ih =>
    rw [Finset.sum_insert ha]
    exact (h a (Finset.mem_insert_self a s)).add (ih fun i hi => h i (Finset.mem_insert_of_mem hi))

/-- A non-negative real divided by a positive real is non-negative. -/
theorem IsNonneg.div_coe {x : EReal} (hx : IsNonneg x) {y : ℝ} (hy : 0 < y) : IsNonneg (Ideal.div x (y : EReal)) := by
  obtain ⟨a, ha, rfl⟩ := hx
  rw [Ideal.div_coe hy.ne']
  exact ⟨a * (1 / y), mul_nonneg ha (one_div_pos.mpr hy).le, (EReal.coe_mul a (1 / y)).symm⟩

/-- A non-negative real plus a positive real is positive. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The inverse square root of a positive real is a positive real. -/
theorem IsPos.rsqrt {x : EReal} (hx : IsPos x) : IsPos (Ideal.rsqrt x) := by
  obtain ⟨r, hr, rfl⟩ := hx
  rw [Ideal.rsqrt_coe, if_neg (not_lt.mpr hr.le), if_neg hr.ne']
  exact ⟨(Real.sqrt r)⁻¹, inv_pos.mpr (Real.sqrt_pos.mpr hr), rfl⟩

/-! ## The host's finiteness test -/

/-- jnp's `isfinite` on one value, `|x| < +∞` against the word 0x7F800000: where it holds the value is a real. -/
theorem isReal_of_abs_lt_inf (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | coe r => exact isReal_coe r
  | top => simp at h'

/-! ## Arrays -/

section Arrays
variable {s t : Shape} {φ : FTy}

/-- Every entry of the array is a real number. -/
def RealVec (v : FVec Ideal s φ) : Prop := ∀ i, IsReal (v i)

theorem RealVec.addf {x y : FVec Ideal s φ} (hx : RealVec x) (hy : RealVec y) : RealVec (addf x y) :=
  fun i => (hx i).add (hy i)
theorem RealVec.subf {x y : FVec Ideal s φ} (hx : RealVec x) (hy : RealVec y) : RealVec (subf x y) :=
  fun i => (hx i).sub (hy i)
theorem RealVec.mulf {x y : FVec Ideal s φ} (hx : RealVec x) (hy : RealVec y) : RealVec (mulf x y) :=
  fun i => (hx i).mul (hy i)
theorem RealVec.maximumf {x y : FVec Ideal s φ} (hx : RealVec x) (hy : RealVec y) : RealVec (maximumf x y) :=
  fun i => (hx i).max (hy i)

/-- A constant array of a bit pattern that denotes a real. -/
theorem realVec_constant (b : BitVec φ.bits) (hb : IsReal (Ideal.ofBits φ b)) : RealVec (constant (F := Ideal) s φ b) :=
  fun _ => hb

/-- Any re-indexing of a real array is real: each entry of the result is an entry of the operand. -/
theorem RealVec.reindex {x : FVec Ideal s φ} (hx : RealVec x) (g : t.Idx → s.Idx) : RealVec (fun j => x (g j) : FVec Ideal t φ) :=
  fun j => hx (g j)

theorem RealVec.broadcastInDim {x : FVec Ideal s φ} (hx : RealVec x) (dims : Fin s.rank → Fin t.rank)
    (h : s.BroadcastsInDim t dims) : RealVec (broadcastInDim t dims h x : FVec Ideal t φ) :=
  fun j => by unfold Idealize.ShloMosaic.broadcastInDim; exact hx _

theorem RealVec.shapeCast {x : FVec Ideal s φ} (hx : RealVec x) (h : s.ShapeCasts t) : RealVec (shapeCast t x h : FVec Ideal t φ) :=
  fun j => by unfold Idealize.ShloMosaic.shapeCast; exact hx _

theorem RealVec.extractStridedSlice {x : FVec Ideal s φ} (hx : RealVec x) (off : Fin s.rank → Nat) (h : s.Slices off t) :
    RealVec (extractStridedSlice t off x h : FVec Ideal t φ) :=
  fun j => by unfold Idealize.ShloMosaic.extractStridedSlice; exact hx _

theorem RealVec.gather {si : Shape} {w : Nat} {x : FVec Ideal s φ} (hx : RealVec x) (d : GatherDims s si t) (idx : IVec si w) :
    RealVec (Host.gather d x idx : FVec Ideal t φ) :=
  fun j => hx _

/-- The logistic function of any array is a real array. -/
theorem realVec_logistic (x : FVec Ideal s φ) : RealVec (logistic x) :=
  fun i => isReal_logistic (x i)

/-- The host's product of two real arrays is real. -/
theorem RealVec.dotGeneral {sl sr so : Shape} {φ₁ φ₂ : FTy} (d : DotDims sl sr so) (prec : Option ContractPrecision)
    {lhs : FVec Ideal sl φ₁} {rhs : FVec Ideal sr φ₂} (hl : RealVec lhs) (hr : RealVec rhs) :
    RealVec (Host.dotGeneral d prec lhs rhs) := fun j => by
  simp only [Host.dotGeneral]
  rw [Ideal.dotGeneral_apply]
  exact IsReal.sum _ _ fun k _ => (hl _).mul (hr _)

/-- The host's sum-reduction of a real array from a real initial value is real. -/
theorem RealVec.reduceAdd {axes : List (Fin s.rank)} {u : Shape} {x : FVec Ideal s φ} (hx : RealVec x)
    (init : u.Idx → Ideal φ) (hi : ∀ k, IsReal (init k)) (h : s.ReducesTo axes t) (hu : 0 < u.numel) :
    RealVec (Host.reduceAdd x init h hu : FVec Ideal t φ) := fun j => by
  show IsReal (Ideal.hostReduceAdd h x (init (Shape.Idx.first hu)) j)
  unfold Ideal.hostReduceAdd
  exact (hi _).add (IsReal.sum _ _ fun i _ => hx i)

/-- The host's scatter-add of real updates into a real operand is real. -/
theorem RealVec.scatterAdd {si su : Shape} {w : Nat} (d : ScatterDims s si su) {x : FVec Ideal s φ} (hx : RealVec x)
    (idx : IVec si w) {upd : FVec Ideal su φ} (hu : RealVec upd) : RealVec (Host.scatterAdd d x idx upd) := fun i => by
  show IsReal (Ideal.hostScatterAdd d x idx upd i)
  unfold Ideal.hostScatterAdd
  exact (hx i).add (IsReal.sum _ _ fun j _ => hu j)

/-- A real array divided, entry by entry, by an array of one non-zero real is real. -/
theorem RealVec.divf_const {x y : FVec Ideal s φ} (hx : RealVec x) {c : ℝ} (hc : c ≠ 0) (hy : ∀ i, y i = (c : EReal)) :
    RealVec (Host.divf x y) := fun i => by
  show IsReal (Ideal.div (x i) (y i))
  rw [hy i]; exact (hx i).div_coe hc

/-- The inverse square root of an array of positive reals is real. -/
theorem realVec_rsqrt_pos {x : FVec Ideal s φ} (hx : ∀ i, ∃ r : ℝ, 0 < r ∧ x i = (r : EReal)) : RealVec (Host.rsqrt x) := fun i => by
  obtain ⟨r, hr, e⟩ := hx i
  show IsReal (Ideal.rsqrt (x i))
  rw [e]; exact isReal_rsqrt_pos hr

/-- A selection between two real arrays is real. -/
theorem RealVec.select (c : IVec s 1) {a b : FVec Ideal s φ} (ha : RealVec a) (hb : RealVec b) :
    RealVec (select c a b : FVec Ideal s φ) := fun i => by
  show IsReal (Scalar.select (c i) (a i) (b i))
  unfold Scalar.select
  split
  · exact ha i
  · exact hb i

/-- An array every entry of which passes the host's finiteness test is real. -/
theorem realVec_of_finite_test (x : FVec Ideal s .f32)
    (h : ∀ i, FloatOps.cmpf .olt (FloatOps.hostAbsf (x i)) (FloatOps.ofBits (F := Ideal) .f32 0x7F800000#32) = 1#1) : RealVec x :=
  fun i => isReal_of_abs_lt_inf (x i) (h i)

end Arrays

end Cert.LibReal

end
-- ==== Proof.Algebra.lean ====
/-
  The two arrangements of the loss agree on real inputs.

  The constants: the words 2.0, 0.5, −∞ denote 2, 1/2, ⊥, and ε denotes a positive real.
  Normalising keeps entries real: a row of reals has a real non-negative sum of squares, its square root is a real,
  the clamp at ε > 0 makes the divisor a positive real, and a real divided by a non-zero real is real.
  Stacking commutes with normalising row by row (each row's norm only reads that row).
  Positives: entry r of the stacked similarity matrix's ±4096 diagonals is the inner product of unit row r with its
  partner, a commutative product.
  Denominators: the 8 × 1024 tiles enumerate the 8192 columns once each; on the diagonal exp (⊥ / (1/2)) = exp ⊥ = 0;
  off it, for real unit rows, Σ_d (a_d · 2) · b_d = (Σ_d a_d · b_d) · 2 = (Σ_d a_d · b_d) / (1/2) — the one step that
  uses that the entries are real (distributivity fails at the infinities).
-/
import proofs.«169832_j86492051407493_2_alg».proof.Proof.Spec
import proofs.«169832_j86492051407493_2_alg».proof.Proof.LibReal

noncomputable section

namespace Cert.Spec

open Idealize.ShloMosaic Cert.LibReal

/-! ## The constants -/

theorem two_eq : two = ((2 : ℝ) : EReal) := by
  unfold two; simp [Ideal.ofBits, Ideal.ieee, -EReal.coe_mul]; norm_num

theorem half_eq : half = ((1 / 2 : ℝ) : EReal) := by
  unfold half; simp [Ideal.ofBits, Ideal.ieee, -EReal.coe_mul]; norm_num

theorem negInf_eq : negInf = ⊥ := by
  unfold negInf; simp [Ideal.ofBits, Ideal.ieee]

theorem eps_pos : ∃ e : ℝ, 0 < e ∧ eps = (e : EReal) := by
  refine ⟨(1 * ((2 ^ 23 + 2870391 : ℕ) : ℝ) * (2 : ℝ) ^ ((100 : ℤ) - (2 ^ (8 - 1) - 1) - 23)), by positivity, ?_⟩
  unfold eps; simp [Ideal.ofBits, Ideal.ieee, -EReal.coe_mul]

/-! ## Reals stay real -/

/-- Every entry a real number. -/
def RealMat {n : ℕ} (z : Fin n → Fin 256 → EReal) : Prop := ∀ r d, IsReal (z r d)

theorem sqrt_nonneg_real {x : EReal} (hx : IsNonneg x) : IsNonneg (Ideal.sqrt x) := by
  obtain ⟨r, hr, rfl⟩ := hx
  refine ⟨Real.sqrt r, Real.sqrt_nonneg r, ?_⟩
  show (if r < 0 then (⊥ : EReal) else (Real.sqrt r : EReal)) = _
  rw [if_neg (not_lt.mpr hr)]

/-- A real row's clamped norm is a positive real. -/
theorem nrm_pos {n : ℕ} {z : Fin n → Fin 256 → EReal} (hz : RealMat z) (r : Fin n) : IsPos (nrm z r) := by
  obtain ⟨e, he, hee⟩ := eps_pos
  have hs : IsNonneg (Ideal.sqrt (∑ d : Fin 256, z r d * z r d)) :=
    sqrt_nonneg_real (IsNonneg.sum _ _ fun d _ => (hz r d).mul_self_nonneg)
  obtain ⟨s, hs0, hse⟩ := hs
  refine ⟨max s e, lt_max_of_lt_right he, ?_⟩
  unfold nrm; rw [hse, hee]
  exact (EReal.coe_strictMono.monotone.map_max).symm

theorem unit_real {n : ℕ} {z : Fin n → Fin 256 → EReal} (hz : RealMat z) : RealMat (unit z) := fun r d => by
  obtain ⟨p, hp, hpe⟩ := nrm_pos hz r
  unfold unit; rw [hpe]
  exact (hz r d).div_coe (ne_of_gt hp)

theorem stack_real {x y : Fin 4096 → Fin 256 → EReal} (hx : RealMat x) (hy : RealMat y) : RealMat (stack x y) := fun r d => by
  unfold stack; split
  · exact hx _ d
  · exact hy _ d

/-! ## Stacking and normalising commute -/

theorem stack_lo (x y : Fin 4096 → Fin 256 → EReal) {r : Fin 8192} (h : r.val < 4096) (d : Fin 256) :
    stack x y r d = x ⟨r.val, h⟩ d := by unfold stack; exact dif_pos h

theorem stack_hi (x y : Fin 4096 → Fin 256 → EReal) {r : Fin 8192} (h : ¬ r.val < 4096) (d : Fin 256) :
    stack x y r d = y ⟨r.val - 4096, by have := r.isLt; omega⟩ d := by unfold stack; exact dif_neg h

theorem unit_stack (x y : Fin 4096 → Fin 256 → EReal) : unit (stack x y) = stack (unit x) (unit y) := by
  funext r d
  by_cases h : r.val < 4096
  · rw [stack_lo _ _ h]
    show Ideal.div (stack x y r d) (max (Ideal.sqrt (∑ d' : Fin 256, stack x y r d' * stack x y r d')) eps) = _
    simp only [stack_lo x y h]
    rfl
  · rw [stack_hi _ _ h]
    show Ideal.div (stack x y r d) (max (Ideal.sqrt (∑ d' : Fin 256, stack x y r d' * stack x y r d')) eps) = _
    simp only [stack_hi x y h]
    rfl

/-! ## The positives -/

theorem posK_eq_posR (z1 z2 : Fin 4096 → Fin 256 → EReal) (r : Fin 8192) :
    posK z1 z2 r = posR (stack (unit z1) (unit z2)) r := by
  by_cases h : r.val < 4096
  · have h' : ¬ ((⟨r.val + 4096, by omega⟩ : Fin 8192).val < 4096) := by
      show ¬ (r.val + 4096 < 4096); omega
    unfold posK posR
    rw [dif_pos h, dif_pos h]
    unfold posHalf simR
    refine Finset.sum_congr rfl fun d _ => ?_
    rw [stack_lo _ _ h, stack_hi _ _ h']
    refine congrArg (fun i => unit z1 ⟨r.val, h⟩ d * unit z2 i d) (Fin.ext ?_)
    show r.val = r.val + 4096 - 4096
    omega
  · have h' : (⟨r.val - 4096, by have := r.isLt; omega⟩ : Fin 8192).val < 4096 := by
      show r.val - 4096 < 4096; have := r.isLt; omega
    unfold posK posR
    rw [dif_neg h, dif_neg h]
    unfold posHalf simR
    refine Finset.sum_congr rfl fun d _ => ?_
    rw [stack_hi _ _ h, stack_lo _ _ h']
    exact mul_comm _ _

/-! ## The denominators -/

/-- The tiles enumerate the columns: (kj, c) ↦ kj · 1024 + c is a bijection Fin 8 × Fin 1024 ≃ Fin 8192. -/
def rowEquiv : Fin 8 × Fin 1024 ≃ Fin 8192 where
  toFun p := row p.1 p.2
  invFun q := (⟨q.val / 1024, by have := q.isLt; omega⟩, ⟨q.val % 1024, Nat.mod_lt _ (by decide)⟩)
  left_inv p := by
    obtain ⟨⟨a, ha⟩, ⟨b, hb⟩⟩ := p
    simp only [row, Prod.mk.injEq, Fin.mk.injEq]
    constructor <;> omega
  right_inv q := by
    apply Fin.ext
    simp only [row]
    have := q.isLt; omega

theorem sum_tiles (f : Fin 8192 → EReal) : (∑ kj : Fin 8, ∑ c : Fin 1024, f (row kj c)) = ∑ q : Fin 8192, f q := by
  rw [← Finset.sum_product', Finset.univ_product_univ]
  exact Equiv.sum_comp rowEquiv f

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For real rows the factor 2 on the left operand is the division of the inner product by 1/2. -/
theorem scaled_inner (a b : Fin 256 → EReal) (ha : ∀ d, IsReal (a d)) (hb : ∀ d, IsReal (b d)) :
    (∑ d : Fin 256, (a d * two) * b d) = Ideal.div (∑ d : Fin 256, a d * b d) half := by
  choose a' ha' using ha
  choose b' hb' using hb
  rw [half_eq, Ideal.div_coe (by norm_num : (1 / 2 : ℝ) ≠ 0), two_eq]
  simp only [ha', hb', ← EReal.coe_mul, ← coe_sum]
  congr 1
  rw [Finset.sum_mul]
  refine Finset.sum_congr rfl fun d _ => ?_
  ring

theorem denK_eq_denR {Z : Fin 8192 → Fin 256 → EReal} (hZ : RealMat Z) (r : Fin 8192) : denK Z r = denR Z r := by
  unfold denK denR
  rw [← sum_tiles (fun c => Ideal.exp (Ideal.div (if r = c then negInf else simR Z r c) half))]
  refine Finset.sum_congr rfl fun kj _ => Finset.sum_congr rfl fun c _ => ?_
  by_cases h : r = row kj c
  · rw [if_pos h, if_pos h, negInf_eq, half_eq, Ideal.div_coe (by norm_num : (1 / 2 : ℝ) ≠ 0)]
    have : (⊥ : EReal) * ((1 / (1 / 2) : ℝ) : EReal) = ⊥ := by
      rw [show ((1 / (1 / 2) : ℝ)) = 2 by norm_num]
      exact EReal.bot_mul_coe_of_pos (by norm_num)
    rw [this]; rfl
  · rw [if_neg h, if_neg h, scaled_inner _ _ (hZ r) (hZ (row kj c))]
    rfl

end Cert.Spec

end
-- ==== Proof.LibStack.lean ====
/-
  Two matrices of equal width one above the other, and a one-column matrix flattened, read at coordinates.
  Row r of the stacked matrix is row r of the upper piece when r is below the upper piece's height M, and row r − M of
  the lower piece otherwise; entry r of the flattened column is the column's entry (r, 0). Any element type, any extents.
-/
import Idealize.ShloMosaic.Lib.ValueIdx
import Idealize.ShloMosaic.Lib.Pipeline.Value

noncomputable section

namespace Cert.Lib.Stack

open Idealize.ShloMosaic Idealize.ShloMosaic.ValueIdx

variable {α : Type}

/-- A row of the upper piece. -/
theorem rows_top {M M2 N : Nat} (x y : (⟨2, ![M, N]⟩ : Shape).Idx → α)
    (h : Shape.Concatenates [(⟨2, ![M, N]⟩ : Shape), ⟨2, ![M, N]⟩] ⟨2, ![M2, N]⟩ 0) (r : Fin M) (hr : r.val < M2) (d : Fin N) :
    concatenate ⟨2, ![M2, N]⟩ 0 [⟨⟨2, ![M, N]⟩, x⟩, ⟨⟨2, ![M, N]⟩, y⟩] h (ix2 ⟨r.val, hr⟩ d) = x (ix2 r d) :=
  concatenate_pair_apply_left 0 x y h _ rfl (ix2 r d) (fun b => match b with | ⟨0, _⟩ => rfl | ⟨1, _⟩ => rfl)

/-- A row of the lower piece. -/
theorem rows_bottom {M M2 N : Nat} (x y : (⟨2, ![M, N]⟩ : Shape).Idx → α)
    (h : Shape.Concatenates [(⟨2, ![M, N]⟩ : Shape), ⟨2, ![M, N]⟩] ⟨2, ![M2, N]⟩ 0) (r : Fin M) (hr : M + r.val < M2) (d : Fin N) :
    concatenate ⟨2, ![M2, N]⟩ 0 [⟨⟨2, ![M, N]⟩, x⟩, ⟨⟨2, ![M, N]⟩, y⟩] h (ix2 ⟨M + r.val, hr⟩ d) = y (ix2 r d) :=
  concatenate_pair_apply_right 0 x y h _ rfl rfl (ix2 r d)
    (fun b hb => match b, hb with | ⟨0, _⟩, hb => absurd rfl hb | ⟨1, _⟩, _ => rfl)
    (Nat.add_comm _ _)

/-- A one-column matrix flattened to a vector. -/
theorem col_flat {M : Nat} (x : (⟨2, ![M, 1]⟩ : Shape).Idx → α) (h : (⟨2, ![M, 1]⟩ : Shape).ShapeCasts ⟨1, ![M]⟩) (r : Fin M) :
    shapeCast ⟨1, ![M]⟩ x h (ix1 r) = x (ix2 r (0 : Fin 1)) :=
  shapeCast_apply x h (ix1 r) (ix2 r 0) (by
    rw [Shape.rowMajor_val_two, Shape.rowMajor_val_one]
    show r.val * 1 + 0 = r.val
    omega)

end Cert.Lib.Stack

end
-- ==== Proof.LibPairs.lean ====
/-
  Small layout reads over variable extents and any element type:
  two vectors laid end to end, read in the first and in the second half; two one-column matrices side by side, read in
  each column; a vector broadcast to a one-column matrix,
  read at a row; one column of a matrix cut out and flattened, read at an entry.
-/
import Idealize.ShloMosaic.Lib.ValueIdx
import Idealize.ShloMosaic.Lib.Pipeline.Value

noncomputable section

namespace Cert.Lib.Pairs

open Idealize.ShloMosaic Idealize.ShloMosaic.ValueIdx

variable {α : Type}

/-- Two vectors of length M end to end: entry j of the first half is the first vector's entry j. -/
theorem cat_left {M M2 : Nat} (x y : (⟨1, ![M]⟩ : Shape).Idx → α)
    (h : Shape.Concatenates [(⟨1, ![M]⟩ : Shape), ⟨1, ![M]⟩] ⟨1, ![M2]⟩ 0) (j : Fin M) (hj : j.val < M2) :
    concatenate ⟨1, ![M2]⟩ 0 [⟨⟨1, ![M]⟩, x⟩, ⟨⟨1, ![M]⟩, y⟩] h (ix1 ⟨j.val, hj⟩) = x (ix1 j) :=
  concatenate_pair_apply_left 0 x y h _ rfl (ix1 j) (fun b => match b with | ⟨0, _⟩ => rfl)

/-- Two vectors of length M end to end: entry M + j is the second vector's entry j. -/
theorem cat_right {M M2 : Nat} (x y : (⟨1, ![M]⟩ : Shape).Idx → α)
    (h : Shape.Concatenates [(⟨1, ![M]⟩ : Shape), ⟨1, ![M]⟩] ⟨1, ![M2]⟩ 0) (j : Fin M) (hj : M + j.val < M2) :
    concatenate ⟨1, ![M2]⟩ 0 [⟨⟨1, ![M]⟩, x⟩, ⟨⟨1, ![M]⟩, y⟩] h (ix1 ⟨M + j.val, hj⟩) = y (ix1 j) :=
  concatenate_pair_apply_right 0 x y h _ rfl rfl (ix1 j) (fun b hb => absurd (Subsingleton.elim _ _) hb)
    (by show j.val + M = M + j.val; omega)

/-- Two one-column matrices side by side: column 0 of the result is the first. -/
theorem cols_left {N : Nat} (u v : (⟨2, ![N, 1]⟩ : Shape).Idx → α)
    (h : Shape.Concatenates [(⟨2, ![N, 1]⟩ : Shape), ⟨2, ![N, 1]⟩] ⟨2, ![N, 2]⟩ 1) (r : Fin N) :
    concatenate ⟨2, ![N, 2]⟩ 1 [⟨⟨2, ![N, 1]⟩, u⟩, ⟨⟨2, ![N, 1]⟩, v⟩] h (ix2 r (0 : Fin 2)) = u (ix2 r (0 : Fin 1)) :=
  concatenate_pair_apply_left 1 u v h _ rfl (ix2 r 0) (fun b => match b with | ⟨0, _⟩ => rfl | ⟨1, _⟩ => rfl)

/-- Two one-column matrices side by side: column 1 of the result is the second. -/
theorem cols_right {N : Nat} (u v : (⟨2, ![N, 1]⟩ : Shape).Idx → α)
    (h : Shape.Concatenates [(⟨2, ![N, 1]⟩ : Shape), ⟨2, ![N, 1]⟩] ⟨2, ![N, 2]⟩ 1) (r : Fin N) :
    concatenate ⟨2, ![N, 2]⟩ 1 [⟨⟨2, ![N, 1]⟩, u⟩, ⟨⟨2, ![N, 1]⟩, v⟩] h (ix2 r (1 : Fin 2)) = v (ix2 r (0 : Fin 1)) :=
  concatenate_pair_apply_right 1 u v h _ rfl rfl (ix2 r 0)
    (fun b hb => match b, hb with | ⟨0, _⟩, _ => rfl | ⟨1, _⟩, hb => absurd rfl hb)
    (by show 0 + 1 = 1; rfl)

/-- A vector broadcast along axis 0 into a one-column matrix: row j holds the vector's entry j. -/
theorem bcastCol_apply {M : Nat} (v : (⟨1, ![M]⟩ : Shape).Idx → α) (dims : Fin 1 → Fin 2) (hd : dims 0 = 0)
    (h : (⟨1, ![M]⟩ : Shape).BroadcastsInDim ⟨2, ![M, 1]⟩ dims) (j : Fin M) (c : Fin 1) :
    broadcastInDim ⟨2, ![M, 1]⟩ dims h v (ix2 j c) = v (ix1 j) := by
  refine broadcastInDim_apply (s := ⟨1, ![M]⟩) (t := ⟨2, ![M, 1]⟩) dims h v (ix2 j c) (ix1 j) (fun a => ?_)
  match a with
  | ⟨0, _⟩ =>
    show j.val = if M = 1 then 0 else ((ix2 j c) (dims 0)).val
    rw [hd]
    split
    · have := j.isLt; omega
    · rfl

/-- Column c of an [M, C] matrix cut out as [M, 1] and flattened to [M]: entry j is the matrix entry (j, c). -/
theorem col_apply {M C : Nat} (g : (⟨2, ![M, C]⟩ : Shape).Idx → α) (c : Fin C) (off : Fin 2 → Nat)
    (ho0 : off 0 = 0) (ho1 : off 1 = c.val)
    (hs : (⟨2, ![M, C]⟩ : Shape).Slices off ⟨2, ![M, 1]⟩) (hc : (⟨2, ![M, 1]⟩ : Shape).ShapeCasts ⟨1, ![M]⟩) (j : Fin M) :
    shapeCast ⟨1, ![M]⟩ (extractStridedSlice ⟨2, ![M, 1]⟩ off g hs) hc (ix1 j) = g (ix2 j c) := by
  rw [shapeCast_apply _ hc (ix1 j) (ix2 j (0 : Fin 1)) (by
    rw [Shape.rowMajor_val_two, Shape.rowMajor_val_one]; show j.val * 1 + 0 = j.val; omega)]
  exact extractStridedSlice_apply off g hs _ (ix2 j c) (fun a => match a with
    | ⟨0, _⟩ => by show j.val = off 0 + j.val; omega
    | ⟨1, _⟩ => by show c.val = off 1 + 0; omega)

end Cert.Lib.Pairs

end
-- ==== Proof.KernelValue.lean ====
/-
  What the kernel's program leaves in its result, at the extended reals.

  The last host stretch applies the five closing operations (`tailK`) to the vector of positives and the vector of
  denominators. The positives are the first region's row-pair products flattened and laid end to end twice: entry r is
  the product of pair r mod 4096 (`Spec.posK`). The denominators are the second region's output column flattened; that
  region read the two normalised halves stacked, so entry r is `Spec.denK` of the stacked unit rows.
  The two regions enter through what their output arrays hold at the end (`Vals`).
-/
import proofs.«169832_j86492051407493_2_alg».proof.Proof.Run
import proofs.«169832_j86492051407493_2_alg».proof.Proof.Spec
import proofs.«169832_j86492051407493_2_alg».proof.Proof.Algebra
import proofs.«169832_j86492051407493_2_alg».proof.Proof.LibStack
import proofs.«169832_j86492051407493_2_alg».proof.Proof.LibPairs
import Idealize.ShloMosaic.Lib.StableHlo.Run

noncomputable section

namespace Cert.KernelIdeal.Whole

open Idealize.ShloMosaic Idealize.ShloMosaic.TcCoe Idealize.ShloMosaic.ValueIdx
open Idealize.SL Idealize.SL.Sem
open Cert.KernelIdeal.Gen Cert.Spec

/-- The five closing host operations as one function of the positives and the denominators. -/
def tailK (pos den : FVec Ideal S8192 .f32) : FVec Ideal S_ .f32 :=
  Host.negf (F := Ideal) (Host.divf (F := Ideal)
    (Host.reduceAdd (F := Ideal) (Host.log (F := Ideal) (Host.divf (F := Ideal) pos den))
      (constant (F := Ideal) S_ .f32 0x00000000#32) Facts₀.reducesTo_S8192_S_d0 Facts₀.h_S_)
    (constant (F := Ideal) S_ .f32 0x46000000#32))

/-- What the two regions' output arrays hold at the end, entry by entry. -/
structure Vals (R0 : Reg0 Ideal) (R1 : Reg1 Ideal) : Prop where
  unit1 : ∀ (V : Entry Ideal) (c : Dev nD) (r : Fin 4096) (d : Fin 256),
    (R0.dat V c).arrAt 2 cfg0.N (ix2 r d) = unit (mat (V c main_arg0)) r d
  unit2 : ∀ (V : Entry Ideal) (c : Dev nD) (r : Fin 4096) (d : Fin 256),
    (R0.dat V c).arrAt 3 cfg0.N (ix2 r d) = unit (mat (V c main_arg1)) r d
  pairs : ∀ (V : Entry Ideal) (c : Dev nD) (r : Fin 4096),
    (R0.dat V c).arrAt 4 cfg0.N (ix2 r (0 : Fin 1)) = posHalf (mat (V c main_arg0)) (mat (V c main_arg1)) r
  dens : ∀ (V : Entry Ideal) (c : Dev nD) (r : Fin 8192),
    (R1.dat V c).arrAt 2 cfg1.N (ix2 r (0 : Fin 1)) = denK (mat (V c main_v1)) r

variable (R0 : Reg0 Ideal) (R1 : Reg1 Ideal) (hv : Vals R0 R1)
variable (m : (ℓ : Loc nD τ sig) → Buf (Elt Ideal) ℓ) (ρ : Dev nD → PrngReg)

/-- The result buffer at the end: the closing operations of the positives' buffer and the flattened denominators. -/
theorem W4_result (c : Dev nD) :
    (W4 R0 R1 m ρ c (Proc.devRef .tc main_v11) : S_.Idx → EReal)
      = tailK (W3 R0 R1 m ρ c (Proc.devRef .tc main_v4))
          (shapeCast S8192 (W3 R0 R1 m ρ c (Proc.devRef .tc main_v5)) Facts₀.shapeCasts_S8192x1_S8192) := by
  show StableHlo.after hostOps2 (W3 R0 R1 m ρ c) (Proc.devRef .tc main_v11) = _
  after_results
  rfl

/-- The positives' buffer after the first host stretch: the flattened pair products, twice. -/
theorem W2_pos (c : Dev nD) :
    (W2 R0 m ρ c (Proc.devRef .tc main_v4) : S8192.Idx → EReal)
      = concatenate S8192 0 [⟨S4096, shapeCast S4096 (W1 R0 m ρ c (Proc.devRef .tc main_v0_2)) Facts₀.shapeCasts_S4096x1_S4096⟩,
          ⟨S4096, shapeCast S4096 (W1 R0 m ρ c (Proc.devRef .tc main_v0_2)) Facts₀.shapeCasts_S4096x1_S4096⟩]
          Facts₀.concatenates_S4096_S4096_S8192_d0 := by
  show StableHlo.after hostOps1 (W1 R0 m ρ c) (Proc.devRef .tc main_v4) = _
  after_results
  rfl

/-- The stacked matrix after the first host stretch: the two normalised halves one above the other. -/
theorem W2_stack (c : Dev nD) :
    (W2 R0 m ρ c (Proc.devRef .tc main_v1) : S8192x256.Idx → EReal)
      = concatenate S8192x256 0 [⟨S4096x256, W1 R0 m ρ c (Proc.devRef .tc main_v0_0)⟩,
          ⟨S4096x256, W1 R0 m ρ c (Proc.devRef .tc main_v0_1)⟩] Facts₀.concatenates_S4096x256_S4096x256_S8192x256_d0 := by
  show StableHlo.after hostOps1 (W1 R0 m ρ c) (Proc.devRef .tc main_v1) = _
  after_results

/-! ## Entry by entry -/

/-- The first input as a matrix of rows and columns. -/
abbrev zA (c : Dev nD) : Fin 4096 → Fin 256 → EReal := mat (E0 m ρ c main_arg0)
/-- The second input. -/
abbrev zB (c : Dev nD) : Fin 4096 → Fin 256 → EReal := mat (E0 m ρ c main_arg1)

include hv in
/-- The stacked matrix the second region reads is the two normalised inputs one above the other. -/
theorem stacked_eq (c : Dev nD) : mat (E2 R0 m ρ c main_v1) = stack (unit (zA m ρ c)) (unit (zB m ρ c)) := by
  funext r d
  show (W2 R0 m ρ c (Proc.devRef .tc main_v1) : S8192x256.Idx → EReal) (ix2 r d) = _
  rw [W2_stack]
  by_cases h : r.val < 4096
  · rw [stack_lo _ _ h]
    have e := Cert.Lib.Stack.rows_top (W1 R0 m ρ c (Proc.devRef .tc main_v0_0)) (W1 R0 m ρ c (Proc.devRef .tc main_v0_1))
      Facts₀.concatenates_S4096x256_S4096x256_S8192x256_d0 (⟨r.val, h⟩ : Fin 4096) r.isLt d
    refine e.trans ?_
    rw [show W1 R0 m ρ c (Proc.devRef .tc main_v0_0) = (R0.dat (E0 m ρ) c).arrAt 2 cfg0.N from W1_arr R0 m ρ c 2]
    exact hv.unit1 (E0 m ρ) c ⟨r.val, h⟩ d
  · rw [stack_hi _ _ h]
    have hr : 4096 + (r.val - 4096) < 8192 := by have := r.isLt; omega
    have e := Cert.Lib.Stack.rows_bottom (W1 R0 m ρ c (Proc.devRef .tc main_v0_0)) (W1 R0 m ρ c (Proc.devRef .tc main_v0_1))
      Facts₀.concatenates_S4096x256_S4096x256_S8192x256_d0 (⟨r.val - 4096, by have := r.isLt; omega⟩ : Fin 4096) hr d
    have er : (⟨4096 + (r.val - 4096), hr⟩ : Fin 8192) = r := Fin.ext (by show 4096 + (r.val - 4096) = r.val; omega)
    rw [er] at e
    refine e.trans ?_
    rw [show W1 R0 m ρ c (Proc.devRef .tc main_v0_1) = (R0.dat (E0 m ρ) c).arrAt 3 cfg0.N from W1_arr R0 m ρ c 3]
    exact hv.unit2 (E0 m ρ) c _ d

include hv in
/-- The positives' buffer, entry r: the product of pair r mod 4096. -/
theorem pos_eq (c : Dev nD) (r : Fin 8192) :
    (W3 R0 R1 m ρ c (Proc.devRef .tc main_v4) : S8192.Idx → EReal) (ix1 r) = posK (zA m ρ c) (zB m ρ c) r := by
  rw [show W3 R0 R1 m ρ c (Proc.devRef .tc main_v4) = W2 R0 m ρ c (Proc.devRef .tc main_v4) from W3_of_ne R0 R1 m ρ c main_v4 (by decide)]
  rw [W2_pos]
  have hflat : ∀ i : Fin 4096, shapeCast S4096 (W1 R0 m ρ c (Proc.devRef .tc main_v0_2)) Facts₀.shapeCasts_S4096x1_S4096 (ix1 i)
      = posHalf (zA m ρ c) (zB m ρ c) i := fun i => by
    refine (Cert.Lib.Stack.col_flat (W1 R0 m ρ c (Proc.devRef .tc main_v0_2)) Facts₀.shapeCasts_S4096x1_S4096 i).trans ?_
    rw [show W1 R0 m ρ c (Proc.devRef .tc main_v0_2) = (R0.dat (E0 m ρ) c).arrAt 4 cfg0.N from W1_arr R0 m ρ c 4]
    exact hv.pairs (E0 m ρ) c i
  by_cases h : r.val < 4096
  · unfold posK; rw [dif_pos h]
    have e := Cert.Lib.Pairs.cat_left (shapeCast S4096 (W1 R0 m ρ c (Proc.devRef .tc main_v0_2)) Facts₀.shapeCasts_S4096x1_S4096)
      (shapeCast S4096 (W1 R0 m ρ c (Proc.devRef .tc main_v0_2)) Facts₀.shapeCasts_S4096x1_S4096)
      Facts₀.concatenates_S4096_S4096_S8192_d0 (⟨r.val, h⟩ : Fin 4096) r.isLt
    exact e.trans (hflat _)
  · unfold posK; rw [dif_neg h]
    have hr : 4096 + (r.val - 4096) < 8192 := by have := r.isLt; omega
    have e := Cert.Lib.Pairs.cat_right (shapeCast S4096 (W1 R0 m ρ c (Proc.devRef .tc main_v0_2)) Facts₀.shapeCasts_S4096x1_S4096)
      (shapeCast S4096 (W1 R0 m ρ c (Proc.devRef .tc main_v0_2)) Facts₀.shapeCasts_S4096x1_S4096)
      Facts₀.concatenates_S4096_S4096_S8192_d0 (⟨r.val - 4096, by have := r.isLt; omega⟩ : Fin 4096) hr
    have er : (⟨4096 + (r.val - 4096), hr⟩ : Fin 8192) = r := Fin.ext (by show 4096 + (r.val - 4096) = r.val; omega)
    rw [er] at e
    exact e.trans (hflat _)

include hv in
/-- The flattened denominators, entry r. -/
theorem den_eq (c : Dev nD) (r : Fin 8192) :
    shapeCast S8192 (W3 R0 R1 m ρ c (Proc.devRef .tc main_v5)) Facts₀.shapeCasts_S8192x1_S8192 (ix1 r)
      = denK (stack (unit (zA m ρ c)) (unit (zB m ρ c))) r := by
  refine (Cert.Lib.Stack.col_flat (W3 R0 R1 m ρ c (Proc.devRef .tc main_v5)) Facts₀.shapeCasts_S8192x1_S8192 r).trans ?_
  rw [show W3 R0 R1 m ρ c (Proc.devRef .tc main_v5) = (R1.dat (E2 R0 m ρ) c).arrAt 2 cfg1.N from W3_out R0 R1 m ρ c]
  rw [hv.dens (E2 R0 m ρ) c r, stacked_eq R0 R1 hv m ρ c]

include hv in
/-- THE KERNEL'S RESULT: the closing operations of the pair products and the tiled denominators. -/
theorem result_eq (c : Dev nD) :
    (W4 R0 R1 m ρ c (Proc.devRef .tc main_v11) : S_.Idx → EReal)
      = tailK (fun i => posK (zA m ρ c) (zB m ρ c) (i 0)) (fun i => denK (stack (unit (zA m ρ c)) (unit (zB m ρ c))) (i 0)) := by
  rw [W4_result]
  congr 1
  · funext i
    rw [eq_ix1 i]
    exact pos_eq R0 R1 hv m ρ c (i 0)
  · funext i
    rw [eq_ix1 i]
    exact den_eq R0 R1 hv m ρ c (i 0)

end Cert.KernelIdeal.Whole

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.PrepPay.lean ====
/- The row-normalising kernel's three stored values, read at an index over the extended reals.

   For a block `x` of 1024 rows of 256 numbers, the first stored value at row `p`, column `q` is
   `x p q / max (sqrt (Σ_d x p d · x p d)) ε`; the second is the same of the other input block; the third, a
   column, is at row `p` the sum over `d` of the products of the first two at `(p, d)`. -/
import proofs.«169832_j86492051407493_2_alg».proof.Proof.Gen.KernelIdeal.Skeleton
import proofs.«169832_j86492051407493_2_alg».proof.Proof.LibLayout
import proofs.«169832_j86492051407493_2_alg».proof.Proof.Spec

noncomputable section

namespace Cert.KernelIdeal.Prep

open Idealize.ShloMosaic Idealize.ShloMosaic.ValueIdx
open Cert.KernelIdeal.Gen

/-- A block's row, normalised: the entry divided by the row's clamped Euclidean norm. -/
def unitRow (x : Vec Ideal S1024x256 .f32) (p : Fin 1024) (q : Fin 256) : EReal :=
  Ideal.div (x (ix2 p q)) (max (Ideal.sqrt (∑ d : Fin 256, x (ix2 p d) * x (ix2 p d))) Spec.eps)

/-- The first stored value at `(p, q)`: the first block's entry divided by its row's clamped norm. -/
theorem pay1_apply (x : Vec Ideal S1024x256 .f32) (p : Fin 1024) (q : Fin 256) :
    k0_pay1 (F := Ideal) x (ix2 p q) = unitRow x p q := by
  unfold k0_pay1 unitRow
  refine (divf_apply _ _ _).trans ?_
  refine congrArg (Ideal.div (x (ix2 p q))) ?_
  refine (LibLayout.broadcastTo_a1_ab_apply _ _ p q).trans ?_
  refine (maximumf_apply _ _ _).trans ?_
  refine congrArg₂ max ?_ rfl
  refine congrArg Ideal.sqrt ?_
  refine (LibLayout.shapeCast_a_a1_apply _ _ p 0).trans ?_
  exact LibLayout.sum_rows_apply _ _ _ _ p

/-- The second stored value at `(p, q)`: the second block's entry divided by its row's clamped norm. -/
theorem pay2_apply (x : Vec Ideal S1024x256 .f32) (p : Fin 1024) (q : Fin 256) :
    k0_pay2 (F := Ideal) x (ix2 p q) = unitRow x p q := by
  unfold k0_pay2 unitRow
  refine (divf_apply _ _ _).trans ?_
  refine congrArg (Ideal.div (x (ix2 p q))) ?_
  refine (LibLayout.broadcastTo_a1_ab_apply _ _ p q).trans ?_
  refine (maximumf_apply _ _ _).trans ?_
  refine congrArg₂ max ?_ rfl
  refine congrArg Ideal.sqrt ?_
  refine (LibLayout.shapeCast_a_a1_apply _ _ p 0).trans ?_
  exact LibLayout.sum_rows_apply _ _ _ _ p

/-- The third stored value at row `p`: the inner product of the two normalised rows `p`. -/
theorem pay3_apply (x0 x1 : Vec Ideal S1024x256 .f32) (p : Fin 1024) :
    k0_pay3 (F := Ideal) x0 x1 (ix2 p (0 : Fin 1)) = ∑ d : Fin 256, unitRow x0 p d * unitRow x1 p d := by
  unfold k0_pay3
  refine (LibLayout.shapeCast_a_a1_apply _ _ p 0).trans ?_
  refine (LibLayout.sum_rows_apply _ _ _ _ p).trans ?_
  refine Finset.sum_congr rfl fun d _ => ?_
  refine (mulf_apply _ _ _).trans ?_
  rw [pay1_apply, pay2_apply]

end Cert.KernelIdeal.Prep

end
-- ==== Proof.PrepValue.lean ====
/- The row-normalising kernel's three output arrays after its run, index by index.

   What a grid point writes back into an output window is the stored value of that point's input blocks; block
   `t` of a window holds rows `1024·t … 1024·t + 1023` of its array, and row `r` of an array is in the block of
   point `r / 1024`, so the four blocks cover each output array. Over the extended reals the three arrays end as:
   each input matrix with every row divided by its clamped Euclidean norm, and the column of the inner products
   of the two matrices' normalised rows. -/
import proofs.«169832_j86492051407493_2_alg».proof.Proof.PrepBody
import proofs.«169832_j86492051407493_2_alg».proof.Proof.PrepPay
import Idealize.ShloMosaic.Lib.Pipeline.Value

noncomputable section

namespace Cert.KernelIdeal.Prep

open Idealize.ShloMosaic Idealize.ShloMosaic.TcCoe Idealize.ShloMosaic.ValueIdx Idealize.SL.Sem
open Idealize.ShloMosaic.Pipeline (Dat)
open Cert.KernelIdeal.Gen

/-! ## Where a block's element sits in its array -/

theorem hz : (![0, 0] : Fin 2 → Nat) = fun _ => 0 := funext fun a => by fin_cases a <;> rfl

/-- The printed index maps, decided over the grid: every window's block at point `t` is block `(t, 0)`. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- A grid point is one of four. -/
theorem point_lt (t : Fin cfg0.N) : t.val < 4 := lt_of_lt_of_eq t.isLt N_0

section Blocks

variable {F : FTy → Type} [FloatOps F]
variable (V : (c : Dev nD) → (b : Ref sig .tc) → Buf (Elt F) ((c : Thread nD τ).loc b))

/-- Entry `(p, q)` of the first input's block at point `t` is entry `(1024·t + p, q)` of the first argument. -/
theorem iblk0_0_apply (c : Dev nD) (t : Fin cfg0.N) (p : Fin 1024) (q : Fin 256) (R : Fin 4096) (hR : R.val = t.val * 1024 + p.val) :
    (iblk0 V c 0 t : Vec F S1024x256 .f32) (ix2 p q) = (V c main_arg0 : S4096x256.Idx → Elt F .f32) (ix2 R q) := by
  obtain ⟨⟨e0, e1⟩, -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * p.val = R.val; omega
  | ⟨1, _⟩ => show win0_0.index t (1 : Fin 2) * 256 + 1 * q.val = q.val; omega

/-- Entry `(p, q)` of the second input's block at point `t` is entry `(1024·t + p, q)` of the second argument. -/
theorem iblk0_1_apply (c : Dev nD) (t : Fin cfg0.N) (p : Fin 1024) (q : Fin 256) (R : Fin 4096) (hR : R.val = t.val * 1024 + p.val) :
    (iblk0 V c 1 t : Vec F S1024x256 .f32) (ix2 p q) = (V c main_arg1 : S4096x256.Idx → Elt F .f32) (ix2 R q) := by
  obtain ⟨-, ⟨e0, e1⟩, -⟩ := idx_facts0 t
  unfold iblk0
  rw [View.read_apply]
  show V c main_arg1 _ = V c main_arg1 _
  congr 1
  funext a
  apply Fin.ext
  match a with
  | ⟨0, _⟩ => show win0_1.index t (0 : Fin 2) * 1024 + 1 * p.val = R.val; omega
  | ⟨1, _⟩ => show win0_1.index t (1 : Fin 2) * 256 + 1 * q.val = q.val; omega

/-! ## What a point writes back -/

/-- Point `t` writes back, into the first output, the first stored value of its first input block. -/
theorem flushed0_2_eq (c : Dev nD) (t : Fin cfg0.N) : (dat0 V c).flushed 2 t = k0_pay1 (iblk0 V c 0 t) := by
  show (cfg0.win 2).cut (grid0.coords t) ((dat0 V c).after 2 t) = _
  rw [after0_2]
  unfold outN1
  rw [View.canon_unit_zero hz]
  simp only [View.ld_unit_zero (S := S1024x256) hz]
  rfl

/-- Point `t` writes back, into the second output, the second stored value of its second input block. -/
theorem flushed0_3_eq (c : Dev nD) (t : Fin cfg0.N) : (dat0 V c).flushed 3 t = k0_pay2 (iblk0 V c 1 t) := by
  show (cfg0.win 3).cut (grid0.coords t) ((dat0 V c).after 3 t) = _
  rw [after0_3]
  unfold outN2
  rw [View.canon_unit_zero hz]
  simp only [View.ld_unit_zero (S := S1024x256) hz]
  rfl

/-- Point `t` writes back, into the third output, the third stored value of its two input blocks. -/
theorem flushed0_4_eq (c : Dev nD) (t : Fin cfg0.N) : (dat0 V c).flushed 4 t = k0_pay3 (iblk0 V c 0 t) (iblk0 V c 1 t) := by
  show (cfg0.win 4).cut (grid0.coords t) ((dat0 V c).after 4 t) = _
  rw [after0_4]
  unfold outP
  rw [View.canon_unit_zero hz]
  simp only [View.ld_unit_zero (S := S1024x256) hz]
  rfl

end Blocks

section Arrays

variable (V : (c : Dev nD) → (b : Ref sig .tc) → Buf (Elt Ideal) ((c : Thread nD τ).loc b))

/-- A block's normalised row is the array's: when row `p` of the block is row `R` of the array. -/
theorem unitRow_eq (x : Vec Ideal S1024x256 .f32) (A : S4096x256.Idx → EReal) (p : Fin 1024) (R : Fin 4096)
    (h : ∀ d : Fin 256, x (ix2 p d) = A (ix2 R d)) (q : Fin 256) :
    unitRow x p q = Spec.unit (Spec.mat A) R q := by
  unfold unitRow Spec.unit Spec.nrm Spec.mat
  simp only [h]

/-- An input matrix with every row divided by its clamped norm, as an array. -/
def unitArr (A : S4096x256.Idx → EReal) : S4096x256.Idx → EReal :=
  fun i => Spec.unit (Spec.mat A) ⟨(i 0).val, idx2_lt0 i⟩ ⟨(i 1).val, idx2_lt1 i⟩

theorem unitArr_apply (A : S4096x256.Idx → EReal) (r : Fin 4096) (d : Fin 256) :
    unitArr A (ix2 r d) = Spec.unit (Spec.mat A) r d := rfl

/-- The column of the inner products of the two matrices' normalised rows, as an array. -/
def posArr (A0 A1 : S4096x256.Idx → EReal) : S4096x1.Idx → EReal :=
  fun i => Spec.posHalf (Spec.mat A0) (Spec.mat A1) ⟨(i 0).val, idx2_lt0 i⟩

theorem posArr_apply (A0 A1 : S4096x256.Idx → EReal) (r : Fin 4096) :
    posArr A0 A1 (ix2 r (0 : Fin 1)) = Spec.posHalf (Spec.mat A0) (Spec.mat A1) r := rfl

/-- Entry `(p, q)` of block `t` of a 4096 × 256 output sits at `(1024·t + p, q)`. -/
theorem emb0_2 (t : Fin cfg0.N) (p : Fin 1024) (q : Fin 256) (R : Fin 4096) (hR : R.val = t.val * 1024 + p.val) :
    ((cfg0.win 2).blk t).view.emb (ix2 p q) = (ix2 R q : S4096x256.Idx) := by
  obtain ⟨-, -, ⟨e0, e1⟩, -⟩ := idx_facts0 t
  funext a
  apply Fin.ext
  match a with
  | ⟨0, _⟩ => show win0_2.index t (0 : Fin 2) * 1024 + 1 * p.val = R.val; omega
  | ⟨1, _⟩ => show win0_2.index t (1 : Fin 2) * 256 + 1 * q.val = q.val; omega

theorem emb0_3 (t : Fin cfg0.N) (p : Fin 1024) (q : Fin 256) (R : Fin 4096) (hR : R.val = t.val * 1024 + p.val) :
    ((cfg0.win 3).blk t).view.emb (ix2 p q) = (ix2 R q : S4096x256.Idx) := by
  obtain ⟨-, -, -, ⟨e0, e1⟩, -⟩ := idx_facts0 t
  funext a
  apply Fin.ext
  match a with
  | ⟨0, _⟩ => show win0_3.index t (0 : Fin 2) * 1024 + 1 * p.val = R.val; omega
  | ⟨1, _⟩ => show win0_3.index t (1 : Fin 2) * 256 + 1 * q.val = q.val; omega

/-- Entry `(p, 0)` of block `t` of the 4096 × 1 output sits at `(1024·t + p, 0)`. -/
theorem emb0_4 (t : Fin cfg0.N) (p : Fin 1024) (R : Fin 4096) (hR : R.val = t.val * 1024 + p.val) :
    ((cfg0.win 4).blk t).view.emb (ix2 p (0 : Fin 1)) = (ix2 R (0 : Fin 1) : S4096x1.Idx) := by
  obtain ⟨-, -, -, -, ⟨e0, e1⟩⟩ := idx_facts0 t
  funext a
  apply Fin.ext
  match a with
  | ⟨0, _⟩ => show win0_4.index t (0 : Fin 2) * 1024 + 1 * p.val = R.val; omega
  | ⟨1, _⟩ => show win0_4.index t (1 : Fin 2) * 1 + 1 * 0 = 0; omega

/-- The row of the array that row `p` of block `t` is. -/
def rowOf (t : Fin cfg0.N) (p : Fin 1024) : Fin 4096 := ⟨t.val * 1024 + p.val, by have := point_lt t; omega⟩

/-- What point `t` writes back into the first output is block `t` of the first argument's normalised rows. -/
theorem flushed0_2_read (c : Dev nD) (t : Fin cfg0.N) :
    (dat0 V c).flushed 2 t = ((cfg0.win 2).blk t).view.read (Elt Ideal) (unitArr (V c main_arg0 : S4096x256.Idx → EReal)) := by
  rw [flushed0_2_eq]
  funext j
  obtain ⟨p, q, rfl⟩ : ∃ (p : Fin 1024) (q : Fin 256), j = ix2 p q := ⟨j 0, j 1, eq_ix2 j⟩
  rw [View.read_apply, emb0_2 t p q (rowOf t p) rfl, unitArr_apply]
  refine (pay1_apply (iblk0 V c 0 t) p q).trans ?_
  exact unitRow_eq _ _ p (rowOf t p) (fun d => iblk0_0_apply V c t p d (rowOf t p) rfl) q

/-- What point `t` writes back into the second output is block `t` of the second argument's normalised rows. -/
theorem flushed0_3_read (c : Dev nD) (t : Fin cfg0.N) :
    (dat0 V c).flushed 3 t = ((cfg0.win 3).blk t).view.read (Elt Ideal) (unitArr (V c main_arg1 : S4096x256.Idx → EReal)) := by
  rw [flushed0_3_eq]
  funext j
  obtain ⟨p, q, rfl⟩ : ∃ (p : Fin 1024) (q : Fin 256), j = ix2 p q := ⟨j 0, j 1, eq_ix2 j⟩
  rw [View.read_apply, emb0_3 t p q (rowOf t p) rfl, unitArr_apply]
  refine (pay2_apply (iblk0 V c 1 t) p q).trans ?_
  exact unitRow_eq _ _ p (rowOf t p) (fun d => iblk0_1_apply V c t p d (rowOf t p) rfl) q

/-- What point `t` writes back into the third output is block `t` of the column of inner products. -/
theorem flushed0_4_read (c : Dev nD) (t : Fin cfg0.N) :
    (dat0 V c).flushed 4 t = ((cfg0.win 4).blk t).view.read (Elt Ideal)
      (posArr (V c main_arg0 : S4096x256.Idx → EReal) (V c main_arg1 : S4096x256.Idx → EReal)) := by
  rw [flushed0_4_eq]
  funext j
  obtain ⟨p, u, rfl⟩ : ∃ (p : Fin 1024) (u : Fin 1), j = ix2 p u := ⟨j 0, j 1, eq_ix2 j⟩
  obtain rfl : u = 0 := Subsingleton.elim _ _
  rw [View.read_apply, emb0_4 t p (rowOf t p) rfl, posArr_apply]
  refine (pay3_apply (iblk0 V c 0 t) (iblk0 V c 1 t) p).trans ?_
  unfold Spec.posHalf
  refine Finset.sum_congr rfl fun d _ => ?_
  rw [unitRow_eq _ _ p (rowOf t p) (fun d => iblk0_0_apply V c t p d (rowOf t p) rfl) d,
    unitRow_eq _ _ p (rowOf t p) (fun d => iblk0_1_apply V c t p d (rowOf t p) rfl) d]

/-! ## The four blocks cover each output array -/

/-- Row `r` is in the block of point `r / 1024`. -/
theorem pointOf (r : ℕ) (hr : r < 4096) : ∃ t : Fin cfg0.N, t.val = r / 1024 :=
  ⟨⟨r / 1024, by show _ < grid0.N; rw [N_0]; omega⟩, rfl⟩

theorem cover0_2 (i : S4096x256.Idx) : ∃ t : Fin cfg0.N, (cfg0.win 2).flush t = true ∧ i ∈ ((cfg0.win 2).blk t).view.set := by
  have hi0 : (i 0).val < 4096 := idx2_lt0 i
  have hi1 : (i 1).val < 256 := idx2_lt1 i
  obtain ⟨t, ht⟩ := pointOf (i 0).val hi0
  obtain ⟨-, -, ⟨e0, e1⟩, -⟩ := idx_facts0 t
  refine ⟨t, flush0_2 t, ?_⟩
  show i ∈ ((View.whole main_v0_0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

theorem cover0_3 (i : S4096x256.Idx) : ∃ t : Fin cfg0.N, (cfg0.win 3).flush t = true ∧ i ∈ ((cfg0.win 3).blk t).view.set := by
  have hi0 : (i 0).val < 4096 := idx2_lt0 i
  have hi1 : (i 1).val < 256 := idx2_lt1 i
  obtain ⟨t, ht⟩ := pointOf (i 0).val hi0
  obtain ⟨-, -, -, ⟨e0, e1⟩, -⟩ := idx_facts0 t
  refine ⟨t, flush0_3 t, ?_⟩
  show i ∈ ((View.whole main_v0_1).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 256 ≤ (i 1).val ∧ (i 1).val < win0_3.index t (1 : Fin 2) * 256 + 256; omega

theorem cover0_4 (i : S4096x1.Idx) : ∃ t : Fin cfg0.N, (cfg0.win 4).flush t = true ∧ i ∈ ((cfg0.win 4).blk t).view.set := by
  have hi0 : (i 0).val < 4096 := idx2_lt0 i
  have hi1 : (i 1).val < 1 := idx2_lt1 i
  obtain ⟨t, ht⟩ := pointOf (i 0).val hi0
  obtain ⟨-, -, -, -, ⟨e0, e1⟩⟩ := idx_facts0 t
  refine ⟨t, flush0_4 t, ?_⟩
  show i ∈ ((View.whole main_v0_2).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1 ≤ (i 1).val ∧ (i 1).val < win0_4.index t (1 : Fin 2) * 1 + 1; omega

/-! ## The output arrays after the run -/

theorem arr0_2 (c : Dev nD) : (dat0 V c).arrAt 2 cfg0.N = unitArr (V c main_arg0 : S4096x256.Idx → EReal) :=
  (dat0 V c).arrAt_eq_of_cover 2 (unitArr (V c main_arg0 : S4096x256.Idx → EReal)) (fun t _ => flushed0_2_read V c t) cover0_2

theorem arr0_3 (c : Dev nD) : (dat0 V c).arrAt 3 cfg0.N = unitArr (V c main_arg1 : S4096x256.Idx → EReal) :=
  (dat0 V c).arrAt_eq_of_cover 3 (unitArr (V c main_arg1 : S4096x256.Idx → EReal)) (fun t _ => flushed0_3_read V c t) cover0_3

theorem arr0_4 (c : Dev nD) : (dat0 V c).arrAt 4 cfg0.N
    = posArr (V c main_arg0 : S4096x256.Idx → EReal) (V c main_arg1 : S4096x256.Idx → EReal) :=
  (dat0 V c).arrAt_eq_of_cover 4 _ (fun t _ => flushed0_4_read V c t) cover0_4

/-- The first output ends as the first argument with every row divided by its clamped norm. -/
theorem final0_2 (c : Dev nD) (r : Fin 4096) (d : Fin 256) :
    (dat0 (F := Ideal) V c).arrAt 2 cfg0.N (ValueIdx.ix2 r d) = Spec.unit (Spec.mat (V c main_arg0)) r d := by
  rw [arr0_2]; rfl

/-- The second output ends as the second argument with every row divided by its clamped norm. -/
theorem final0_3 (c : Dev nD) (r : Fin 4096) (d : Fin 256) :
    (dat0 (F := Ideal) V c).arrAt 3 cfg0.N (ValueIdx.ix2 r d) = Spec.unit (Spec.mat (V c main_arg1)) r d := by
  rw [arr0_3]; rfl

/-- The third output ends as the column of the inner products of the two arguments' normalised rows. -/
theorem final0_4 (c : Dev nD) (r : Fin 4096) :
    (dat0 (F := Ideal) V c).arrAt 4 cfg0.N (ValueIdx.ix2 r (0 : Fin 1))
      = Spec.posHalf (Spec.mat (V c main_arg0)) (Spec.mat (V c main_arg1)) r := by
  rw [arr0_4]; rfl

end Arrays

end Cert.KernelIdeal.Prep

end
-- ==== Proof.LibConcat3.lean ====
/-
  Three arrays laid end to end along one axis, the transpose of a matrix, and the regrouping of the leading two axes of
  a rank-3 array into one axis of rows, each read at an index written by coordinates.

  Along the joined axis a position below the first extent lies in the first piece; a position that is the first extent
  plus an offset below the second extent lies in the second piece at that offset; a position that is the first two
  extents plus an offset lies in the third piece.  A transposed matrix at (j, i) is the matrix at (i, j).  Row
  n * b + s of the regrouped array is row s of plane n, because both orders are row-major.
-/
import Idealize.ShloMosaic.Lib.Pipeline.Value
import Idealize.ShloMosaic.Lib.ValueIdx

namespace Cert.LibConcat3

open Idealize.ShloMosaic Idealize.ShloMosaic.ValueIdx

variable {α : Type}

/-! ## Three vectors end to end -/

/-- Three vectors laid end to end, read at a position below the first extent: the first vector there. -/
theorem concat3_vec_apply_fst {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₀) (hj : j.val = c.val) :
    concatenate ⟨1, ![b]⟩ 0 [⟨⟨1, ![b₀]⟩, x₀⟩, ⟨⟨1, ![b₁]⟩, x₁⟩, ⟨⟨1, ![b₂]⟩, x₂⟩] h (ix1 j) = x₀ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 0 (by simp) _ x₀ rfl rfl 0 rfl (ix1 c)
    (fun d hd => by match d with | ⟨0, _⟩ => exact absurd rfl hd)
    (by show 0 + c.val = j.val; omega)

/-- Three vectors laid end to end, read at the first extent plus an offset: the second vector at the offset. -/
theorem concat3_vec_apply_snd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₁) (hj : j.val = b₀ + c.val) :
    concatenate ⟨1, ![b]⟩ 0 [⟨⟨1, ![b₀]⟩, x₀⟩, ⟨⟨1, ![b₁]⟩, x₁⟩, ⟨⟨1, ![b₂]⟩, x₂⟩] h (ix1 j) = x₁ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 1 (by simp) _ x₁ rfl rfl b₀ (Nat.add_zero b₀) (ix1 c)
    (fun d hd => by match d with | ⟨0, _⟩ => exact absurd rfl hd)
    (by show b₀ + c.val = j.val; omega)

/-- Three vectors laid end to end, read at the first two extents plus an offset: the third vector at the offset. -/
theorem concat3_vec_apply_thd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₂) (hj : j.val = b₀ + b₁ + c.val) :
    concatenate ⟨1, ![b]⟩ 0 [⟨⟨1, ![b₀]⟩, x₀⟩, ⟨⟨1, ![b₁]⟩, x₁⟩, ⟨⟨1, ![b₂]⟩, x₂⟩] h (ix1 j) = x₂ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 2 (by simp) _ x₂ rfl rfl (b₀ + (b₁ + 0)) rfl (ix1 c)
    (fun d hd => by match d with | ⟨0, _⟩ => exact absurd rfl hd)
    (by show b₀ + (b₁ + 0) + c.val = j.val; omega)

/-! ## Three matrices side by side -/

/-- Three matrices of one height laid side by side, read at a column below the first width: the first matrix there. -/
theorem concat3_cols_apply_fst {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₀) (hj : j.val = c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₀ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 0 (by simp) _ x₀ rfl rfl 0 rfl (ix2 r c)
    (fun d hd => by match d with | ⟨0, _⟩ => rfl | ⟨1, _⟩ => exact absurd rfl hd)
    (by show 0 + c.val = j.val; omega)

/-- Three matrices of one height laid side by side, read at the first width plus an offset: the second matrix at the
    offset. -/
theorem concat3_cols_apply_snd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₁) (hj : j.val = b₀ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₁ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 1 (by simp) _ x₁ rfl rfl b₀ (Nat.add_zero b₀) (ix2 r c)
    (fun d hd => by match d with | ⟨0, _⟩ => rfl | ⟨1, _⟩ => exact absurd rfl hd)
    (by show b₀ + c.val = j.val; omega)

/-- Three matrices of one height laid side by side, read at the first two widths plus an offset: the third matrix at
    the offset. -/
theorem concat3_cols_apply_thd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₂) (hj : j.val = b₀ + b₁ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₂ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 2 (by simp) _ x₂ rfl rfl (b₀ + (b₁ + 0)) rfl (ix2 r c)
    (fun d hd => by match d with | ⟨0, _⟩ => rfl | ⟨1, _⟩ => exact absurd rfl hd)
    (by show b₀ + (b₁ + 0) + c.val = j.val; omega)

/-! ## The transpose of a matrix -/

/-- The transpose of an `[a, b]` matrix reads, at (j, i), the matrix at (i, j). -/
theorem transpose_10_apply {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun d => by
    match d with
    | ⟨0, _⟩ => rfl
    | ⟨1, _⟩ => rfl

/-! ## Planes of rows as one run of rows, and back -/

/-- An `[a, b, c]` array regrouped as `[m, c]` reads, at row `n * b + s`, row `s` of plane `n`. -/
theorem shapeCast_planes_rows_apply {a b c m : ℕ} (x : (⟨3, ![a, b, c]⟩ : Shape).Idx → α)
    (h : (⟨3, ![a, b, c]⟩ : Shape).ShapeCasts ⟨2, ![m, c]⟩) (n : Fin a) (s : Fin b) (e : Fin c) (row : Fin m)
    (hrow : row.val = n.val * b + s.val) :
    shapeCast ⟨2, ![m, c]⟩ x h (ix2 row e) = x (ix3 n s e) :=
  shapeCast_apply x h _ _ (by
    rw [Shape.rowMajor_val_three, Shape.rowMajor_val_two]
    show (n.val * b + s.val) * c + e.val = row.val * c + e.val
    rw [hrow])

/-- An `[m, c]` array regrouped as `[a, b, c]` reads, at row `s` of plane `n`, row `n * b + s`. -/
theorem shapeCast_rows_planes_apply {a b c m : ℕ} (y : (⟨2, ![m, c]⟩ : Shape).Idx → α)
    (h : (⟨2, ![m, c]⟩ : Shape).ShapeCasts ⟨3, ![a, b, c]⟩) (n : Fin a) (s : Fin b) (e : Fin c) (row : Fin m)
    (hrow : row.val = n.val * b + s.val) :
    shapeCast ⟨3, ![a, b, c]⟩ y h (ix3 n s e) = y (ix2 row e) :=
  shapeCast_apply y h _ _ (by
    rw [Shape.rowMajor_val_three, Shape.rowMajor_val_two]
    show row.val * c + e.val = (n.val * b + s.val) * c + e.val
    rw [hrow])

end Cert.LibConcat3
-- ==== Proof.DenomPay.lean ====
import proofs.«169832_j86492051407493_2_alg».proof.Proof.Gen.KernelIdeal.Skeleton
import proofs.«169832_j86492051407493_2_alg».proof.Proof.LibLayout
import proofs.«169832_j86492051407493_2_alg».proof.Proof.LibConcat3
import proofs.«169832_j86492051407493_2_alg».proof.Proof.Spec

/-! The denominator kernel's arithmetic on the extended reals, read entry by entry.

An entry `(ρ, c)` of the exponentiated tile is `exp (Σ_d (q[ρ,d] · 2) · k[c,d])`: the product of the scaled query block
with the transposed key block, into a zero accumulator. The plain update adds a row's sum of those entries to the
column; the masked update first replaces the entry with `ρ = c` (row counter = column counter) by zero. -/

noncomputable section

namespace Cert.KernelIdeal.Denom

open Idealize.ShloMosaic Idealize.ShloMosaic.ValueIdx
open Cert.KernelIdeal.Gen

/-- The zero column, at an entry. -/
theorem pay1_apply (j : S1024x1.Idx) : k1_pay1 (F := Ideal) j = 0 := by
  unfold k1_pay1
  simp only [shapeCast_self]
  exact Ideal.ofBits_zero_f32

theorem dd_lhs0 (j : S1024x1024.Idx) (k : dot_S1024x256_S256x1024_S1024x1024_1_0_0_1_n_n.contr.Idx) :
    (dot_S1024x256_S256x1024_S1024x1024_1_0_0_1_n_n.lhsIdx j k 0).val = (j 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem dd_rhs1 (j : S1024x1024.Idx) (k : dot_S1024x256_S256x1024_S1024x1024_1_0_0_1_n_n.contr.Idx) :
    (dot_S1024x256_S256x1024_S1024x1024_1_0_0_1_n_n.rhsIdx j k 1).val = (j 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- An entry of the exponentiated tile. -/
theorem pay2_apply (q k : Vec Ideal S1024x256 .f32) (ρ cc : Fin 1024) :
    k1_pay2 (F := Ideal) q k (ix2 ρ cc) = Ideal.exp (∑ d : Fin 256, (q (ix2 ρ d) * Spec.two) * k (ix2 cc d)) := by
  unfold k1_pay2
  simp only [shapeCast_self]
  refine congrArg Ideal.exp ?_
  refine (Cert.LibLayout.matmul_rows_cols_apply dot_S1024x256_S256x1024_S1024x1024_1_0_0_1_n_n rfl rfl rfl rfl dd_lhs0 dd_rhs1 (some .fp32) _ _ ρ cc).trans ?_
  refine Finset.sum_congr rfl fun d _ => ?_
  rw [Cert.LibConcat3.transpose_10_apply]
  rfl

/-- The plain update: the column's entry plus the row's sum over the tile. -/
theorem pay4_apply (q k : Vec Ideal S1024x256 .f32) (s : Vec Ideal S1024x1 .f32) (ρ : Fin 1024) :
    k1_pay4 (F := Ideal) q k s (ix2 ρ (0 : Fin 1)) = s (ix2 ρ (0 : Fin 1)) + ∑ cc : Fin 1024, k1_pay2 (F := Ideal) q k (ix2 ρ cc) := by
  unfold k1_pay4
  simp only [shapeCast_self]
  refine (addf_apply _ _ _).trans ?_
  refine congrArg (s (ix2 ρ (0 : Fin 1)) + ·) ?_
  refine (Cert.LibLayout.shapeCast_a_a1_apply _ _ ρ 0).trans ?_
  exact Cert.LibLayout.sum_rows_apply (k1_pay2 (F := Ideal) q k) _ _ _ ρ

/-- Two counters below 1024 with the same 32-bit word are equal. -/
theorem word_inj (a b : Fin 1024) (e : BitVec.ofNat 32 a.val = BitVec.ofNat 32 b.val) : a = b := by
  have h := congrArg BitVec.toNat e
  rw [BitVec.toNat_ofNat, BitVec.toNat_ofNat, Nat.mod_eq_of_lt (by have := a.isLt; omega), Nat.mod_eq_of_lt (by have := b.isLt; omega)] at h
  exact Fin.ext h

/-- The mask's choice at an entry: the first value where the row and column counters agree, the second elsewhere. -/
theorem mask_choice {α : Type} (a b : Fin 1024) (A B : α) :
    Scalar.select (IntOp.cmpi .eq (BitVec.ofNat 32 a.val) (BitVec.ofNat 32 b.val)) A B = if a = b then A else B := by
  by_cases h : a = b
  · subst h
    rw [if_pos rfl]
    have e : IntOp.cmpi .eq (BitVec.ofNat 32 a.val) (BitVec.ofNat 32 a.val) = 1#1 := by simp [IntOp.cmpi]
    rw [e]; exact select_one A B
  · rw [if_neg h]
    have e : IntOp.cmpi .eq (BitVec.ofNat 32 a.val) (BitVec.ofNat 32 b.val) = 0#1 := by
      have hne : BitVec.ofNat 32 a.val ≠ BitVec.ofNat 32 b.val := fun e => h (word_inj a b e)
      have hb : (BitVec.ofNat 32 a.val == BitVec.ofNat 32 b.val) = false := beq_eq_false_iff_ne.mpr hne
      simp [IntOp.cmpi, hb]
    rw [e]; exact select_zero A B

/-- The masked update: the column's entry plus the row's sum over the tile with the diagonal entry replaced by zero. -/
theorem pay3_apply (q k : Vec Ideal S1024x256 .f32) (s : Vec Ideal S1024x1 .f32) (ρ : Fin 1024) :
    k1_pay3 (F := Ideal) q k s (ix2 ρ (0 : Fin 1))
      = s (ix2 ρ (0 : Fin 1)) + ∑ cc : Fin 1024, if ρ = cc then (0 : EReal) else k1_pay2 (F := Ideal) q k (ix2 ρ cc) := by
  unfold k1_pay3
  simp only [shapeCast_self]
  refine (addf_apply _ _ _).trans ?_
  refine congrArg (s (ix2 ρ (0 : Fin 1)) + ·) ?_
  refine (Cert.LibLayout.shapeCast_a_a1_apply _ _ ρ 0).trans ?_
  refine (Cert.LibLayout.sum_rows_apply _ _ _ _ ρ).trans ?_
  refine Finset.sum_congr rfl fun cc _ => ?_
  refine (select_apply _ _ _ _).trans ?_
  rw [show cmpi .eq (iota .tc S1024x1024 32 [0] iota_S1024x1024_d0_w32) (iota .tc S1024x1024 32 [1] iota_S1024x1024_d1_w32) (ix2 ρ cc)
      = IntOp.cmpi .eq (BitVec.ofNat 32 ρ.val) (BitVec.ofNat 32 cc.val) from by
    show IntOp.cmpi .eq _ _ = _
    rw [iota_single_apply, iota_single_apply]]
  refine (mask_choice ρ cc _ _).trans ?_
  refine if_congr Iff.rfl ?_ rfl
  exact Ideal.ofBits_zero_f32

end Cert.KernelIdeal.Denom

end
-- ==== Proof.DenomValue.lean ====
import proofs.«169832_j86492051407493_2_alg».proof.Proof.DenomBase
import proofs.«169832_j86492051407493_2_alg».proof.Proof.DenomPay

/-! The denominator region's result on the extended reals.

Row `r = qi · 1024 + ρ` of the output column ends holding `Spec.denK Z r`, `Z` the stacked unit rows the region reads:
after key tile `kj` of query tile `qi` the scratch column's entry `ρ` is the sum over the key tiles `0 … kj` of the tile's
row sum of `exp ((2 · Z r) · Z (row j c))` with the entry `r = row j c` left out — by induction along the key tiles,
each step one update of the column, starting from the zero column —, the last key tile's column is what the write-back
puts into rows `qi · 1024 …`, and the eight write-backs tile the array. -/

set_option maxRecDepth 16384

noncomputable section

namespace Cert.KernelIdeal.Denom

open Idealize.ShloMosaic Idealize.ShloMosaic.TcCoe Idealize.ShloMosaic.ValueIdx
open Idealize.SL Idealize.SL.Sem
open Idealize.ShloMosaic.Pipeline (Dat Cfg Window)
open Cert.KernelIdeal.Gen

/-! ## One key tile's share of a denominator -/

/-- Key tile `j`'s share of row `r`'s denominator. -/
def tile (Z : Fin 8192 → Fin 256 → EReal) (r : Fin 8192) (j : Fin 8) : EReal :=
  ∑ cc : Fin 1024, if r = Spec.row j cc then (0 : EReal) else Ideal.exp (∑ d : Fin 256, (Z r d * Spec.two) * Z (Spec.row j cc) d)

/-- The same with the tile counted by a natural number (zero past the eighth). -/
def tileN (Z : Fin 8192 → Fin 256 → EReal) (r : Fin 8192) (j : ℕ) : EReal :=
  if h : j < 8 then tile Z r ⟨j, h⟩ else 0

/-- The denominator is the sum of the eight tiles' shares. -/
theorem denK_eq_range (Z : Fin 8192 → Fin 256 → EReal) (r : Fin 8192) :
    Spec.denK Z r = ∑ j ∈ Finset.range 8, tileN Z r j := by
  rw [← Fin.sum_univ_eq_sum_range (fun j => tileN Z r j) 8]
  refine Finset.sum_congr rfl fun j _ => ?_
  unfold tileN; rw [dif_pos j.isLt]; rfl

/-- Rows of different tiles differ; rows of one tile agree exactly when their offsets do. -/
theorem row_eq_iff (a b : Fin 8) (x y : Fin 1024) : Spec.row a x = Spec.row b y ↔ a = b ∧ x = y := by
  constructor
  · intro h
    have h' : a.val * 1024 + x.val = b.val * 1024 + y.val := congrArg Fin.val h
    have hx := x.isLt; have hy := y.isLt
    exact ⟨Fin.ext (by omega), Fin.ext (by omega)⟩
  · rintro ⟨rfl, rfl⟩; rfl

/-- One update of the column at an entry: the entry plus the point's tile share, for blocks that are the rows of
    query tile `qi` and key tile `kj` of `Z`. -/
theorem step_entry (Z : Fin 8192 → Fin 256 → EReal) (n : ℕ) (qi kj : Fin 8) (hq : n / 8 = qi.val) (hk : n % 8 = kj.val)
    (q k : Vec Ideal S1024x256 .f32) (hqv : ∀ (ρ : Fin 1024) (d : Fin 256), q (ix2 ρ d) = Z (Spec.row qi ρ) d)
    (hkv : ∀ (cc : Fin 1024) (d : Fin 256), k (ix2 cc d) = Z (Spec.row kj cc) d)
    (s : Vec Ideal S1024x1 .f32) (ρ : Fin 1024) :
    step (F := Ideal) n q k s (ix2 ρ (0 : Fin 1)) = s (ix2 ρ (0 : Fin 1)) + tile Z (Spec.row qi ρ) kj := by
  have hpay : ∀ cc : Fin 1024, k1_pay2 (F := Ideal) q k (ix2 ρ cc)
      = Ideal.exp (∑ d : Fin 256, (Z (Spec.row qi ρ) d * Spec.two) * Z (Spec.row kj cc) d) := fun cc => by
    rw [pay2_apply]
    exact congrArg Ideal.exp (Finset.sum_congr rfl fun d _ => by rw [hqv, hkv])
  by_cases h : n / 8 = n % 8
  · have hqk : qi = kj := Fin.ext (by omega)
    rw [step_diag n h, pay3_apply]
    refine congrArg (s (ix2 ρ (0 : Fin 1)) + ·) ?_
    unfold tile
    refine Finset.sum_congr rfl fun cc _ => ?_
    rw [hpay cc]
    refine if_congr ?_ rfl rfl
    rw [row_eq_iff]
    exact ⟨fun e => ⟨hqk, e⟩, fun e => e.2⟩
  · have hqk : qi ≠ kj := fun e => h (by rw [hq, hk, e])
    rw [step_off n h, pay4_apply]
    refine congrArg (s (ix2 ρ (0 : Fin 1)) + ·) ?_
    unfold tile
    refine Finset.sum_congr rfl fun cc _ => ?_
    rw [hpay cc, if_neg]
    rw [row_eq_iff]
    exact fun e => hqk e.1

section Value

variable (V : (c : Dev nD) → (b : Ref sig .tc) → Buf (Elt Ideal) ((c : Thread nD τ).loc b))

/-! ## The blocks the body reads -/

/-- The printed index maps over the grid: the query and output blocks move with `t / 8`, the key block with `t % 8`. -/
theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- The query tile and the key tile of a point. -/
def qiOf (t : Fin cfg1.N) : Fin 8 := ⟨t.val / 8, by have h : t.val < 64 := lt_of_lt_of_eq t.isLt N64; omega⟩
def kjOf (t : Fin cfg1.N) : Fin 8 := ⟨t.val % 8, by omega⟩

/-- The stacked unit rows the region reads. -/
abbrev Zof (c : Dev nD) : Fin 8192 → Fin 256 → EReal := Spec.mat (V c main_v1)

theorem iblk0_apply (c : Dev nD) (t : Fin cfg1.N) (ρ : Fin 1024) (d : Fin 256) :
    iblk1 (F := Ideal) V c 0 t (ix2 ρ d) = Zof V c (Spec.row (qiOf t) ρ) d := by
  obtain ⟨e0, e1, -⟩ := idx_facts1 t
  show V c main_v1 (((cfg1.win 0).blk t).view.emb (ix2 ρ d)) = V c main_v1 (ix2 (Spec.row (qiOf t) ρ) d)
  refine congrArg (V c main_v1) (funext fun a => Fin.ext ?_)
  match a with
  | ⟨0, _⟩ => show win1_0.index t (0 : Fin 2) * 1024 + 1 * ρ.val = t.val / 8 * 1024 + ρ.val; omega
  | ⟨1, _⟩ => show win1_0.index t (1 : Fin 2) * 256 + 1 * d.val = d.val; omega

theorem iblk1_apply (c : Dev nD) (t : Fin cfg1.N) (cc : Fin 1024) (d : Fin 256) :
    iblk1 (F := Ideal) V c 1 t (ix2 cc d) = Zof V c (Spec.row (kjOf t) cc) d := by
  obtain ⟨-, -, e0, e1, -⟩ := idx_facts1 t
  show V c main_v1 (((cfg1.win 1).blk t).view.emb (ix2 cc d)) = V c main_v1 (ix2 (Spec.row (kjOf t) cc) d)
  refine congrArg (V c main_v1) (funext fun a => Fin.ext ?_)
  match a with
  | ⟨0, _⟩ => show win1_1.index t (0 : Fin 2) * 1024 + 1 * cc.val = t.val % 8 * 1024 + cc.val; omega
  | ⟨1, _⟩ => show win1_1.index t (1 : Fin 2) * 256 + 1 * d.val = d.val; omega

/-! ## The column after each point -/

/-- After point `n` the scratch column's entry `ρ` is the sum of the shares of the key tiles up to the point's:
    by induction along the points, a query tile's first point starting from the zero column. -/
theorem acc_entry_nat (c : Dev nD) : ∀ (n : ℕ) (hn : n < cfg1.N) (ρ : Fin 1024),
    accAt (F := Ideal) V c n hn (ix2 ρ (0 : Fin 1))
      = ∑ j ∈ Finset.range (n % 8 + 1), tileN (Zof V c) (Spec.row (qiOf ⟨n, hn⟩) ρ) j := by
  intro n
  induction n using Nat.strong_induction_on with
  | _ n ih =>
    intro hn ρ
    have hstep := fun s => step_entry (Zof V c) n (qiOf ⟨n, hn⟩) (kjOf ⟨n, hn⟩) rfl rfl (iblk1 V c 0 ⟨n, hn⟩) (iblk1 V c 1 ⟨n, hn⟩)
      (iblk0_apply V c ⟨n, hn⟩) (iblk1_apply V c ⟨n, hn⟩) s ρ
    have hlast : tileN (Zof V c) (Spec.row (qiOf ⟨n, hn⟩) ρ) (n % 8) = tile (Zof V c) (Spec.row (qiOf ⟨n, hn⟩) ρ) (kjOf ⟨n, hn⟩) := by
      unfold tileN; rw [dif_pos (by omega)]; rfl
    rw [Finset.sum_range_succ, hlast]
    by_cases h0 : n % 8 = 0
    · have e1 : accAt (F := Ideal) V c n hn = step n (iblk1 V c 0 ⟨n, hn⟩) (iblk1 V c 1 ⟨n, hn⟩) (k1_pay1 (F := Ideal)) :=
        accAt_first V c ⟨n, hn⟩ h0
      rw [e1, hstep, pay1_apply, h0, Finset.range_zero, Finset.sum_empty]
    · have hlt : n - 1 < cfg1.N := Nat.lt_of_le_of_lt (Nat.sub_le _ _) hn
      have e1 : accAt (F := Ideal) V c n hn = step n (iblk1 V c 0 ⟨n, hn⟩) (iblk1 V c 1 ⟨n, hn⟩) (accAt (F := Ideal) V c (n - 1) hlt) :=
        accAt_later V c ⟨n, hn⟩ h0
      have hprev := ih (n - 1) (by omega) hlt ρ
      have hq : qiOf ⟨n - 1, hlt⟩ = qiOf ⟨n, hn⟩ := Fin.ext (by show (n - 1) / 8 = n / 8; omega)
      have hm : (n - 1) % 8 + 1 = n % 8 := by omega
      rw [e1, hstep, hprev, hm, hq]

/-- The same at a grid point. -/
theorem acc_entry (c : Dev nD) (t : Fin cfg1.N) (ρ : Fin 1024) :
    accAt (F := Ideal) V c t.val t.isLt (ix2 ρ (0 : Fin 1))
      = ∑ j ∈ Finset.range (t.val % 8 + 1), tileN (Zof V c) (Spec.row (qiOf t) ρ) j :=
  acc_entry_nat V c t.val t.isLt ρ

/-! ## From the blocks to the array -/

/-- The output column the region leaves: row `r` holds the denominator of row `r`. -/
def G (c : Dev nD) : S8192x1.Idx → EReal := fun i => Spec.denK (Zof V c) ⟨(i 0).val, idx2_lt0 i⟩

/-- What the point closing query tile `qi` writes back is rows `qi · 1024 …` of `G`. -/
theorem flushed_eq (c : Dev nD) (t : Fin cfg1.N) (hf : (cfg1.win 2).flush t = true) :
    (dat1 V c).flushed 2 t = ((cfg1.win 2).blk t).view.read (Elt Ideal) (G V c) := by
  have h7 : t.val % 8 = 7 := (flush1_2 t).mp hf
  obtain ⟨-, -, -, -, e0, e1⟩ := idx_facts1 t
  show (cfg1.win 2).cut (grid1.coords t) ((dat1 V c).after 2 t) = _
  rw [after1_2]
  funext j
  obtain ⟨ρ, u, rfl⟩ : ∃ (ρ : Fin 1024) (u : Fin 1), j = ix2 ρ u := ⟨j 0, j 1, eq_ix2 j⟩
  obtain rfl : u = 0 := Subsingleton.elim _ _
  show accAt (F := Ideal) V c t.val t.isLt (ix2 ρ (0 : Fin 1)) = G V c (((cfg1.win 2).blk t).view.emb (ix2 ρ (0 : Fin 1)))
  rw [acc_entry V c t ρ, h7]
  unfold G
  rw [denK_eq_range]
  refine Finset.sum_congr rfl fun j _ => congrArg (fun r => tileN (Zof V c) r j) (Fin.ext ?_)
  show t.val / 8 * 1024 + ρ.val = win1_2.index t (0 : Fin 2) * 1024 + 1 * ρ.val
  omega

/-- An index of the output array is in point `t`'s block iff each coordinate is in the block's range on its axis. -/
theorem mem_blk2 (t : Fin cfg1.N) (i : S8192x1.Idx) :
    i ∈ ((cfg1.win 2).blk t).view.set ↔ ∀ a : Fin 2, win1_2.index t a * S1024x1.size a ≤ (i a).val ∧ (i a).val < win1_2.index t a * S1024x1.size a + S1024x1.size a := by
  show i ∈ ((View.whole main_v5).slice (win1_2.rect t)).set ↔ _
  rw [View.set_slice_whole, Rect.mem_set_unit]
  exact Iff.rfl

/-- Every row is written back by the point that closes its query tile. -/
theorem cover2 (i : S8192x1.Idx) : ∃ t : Fin cfg1.N, (cfg1.win 2).flush t = true ∧ i ∈ ((cfg1.win 2).blk t).view.set := by
  have hi0 : (i 0).val < 8192 := idx2_lt0 i
  have hi1 : (i 1).val < 1 := idx2_lt1 i
  let t : Fin cfg1.N := ⟨8 * ((i 0).val / 1024) + 7, by rw [N64]; omega⟩
  have htv : t.val = 8 * ((i 0).val / 1024) + 7 := rfl
  obtain ⟨-, -, -, -, e0, e1⟩ := idx_facts1 t
  refine ⟨t, (flush1_2 t).mpr (by omega), ?_⟩
  rw [mem_blk2]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1 ≤ (i 1).val ∧ (i 1).val < win1_2.index t (1 : Fin 2) * 1 + 1; omega

/-- The output array after the region: row `r` holds `Spec.denK` of the stacked rows at `r`. -/
theorem final1_2 (c : Dev nD) (r : Fin 8192) :
    (dat1 (F := Ideal) V c).arrAt 2 cfg1.N (ValueIdx.ix2 r (0 : Fin 1)) = Spec.denK (Spec.mat (V c main_v1)) r :=
  congrFun ((dat1 (F := Ideal) V c).arrAt_eq_of_cover 2 (G V c) (fun t hf => flushed_eq V c t hf) cover2) (ValueIdx.ix2 r (0 : Fin 1))

end Value

end Cert.KernelIdeal.Denom

end
-- ==== Proof.RefNorm.lean ====
/-
  The first half of the reference, read entry by entry.

  The two arguments are laid one above the other into a matrix of 8192 rows; each row's Euclidean norm is the
  square root of the sum of its squares, clamped below at ε and copied along the row; the stacked matrix divided
  by it is the matrix Z of unit rows; the product of Z with its transpose has at (p, q) the inner product of
  rows p and q.
-/
import proofs.«169832_j86492051407493_2_alg».proof.Proof.Gen.ReferenceIdeal.Read
import proofs.«169832_j86492051407493_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The stacked arguments as a function of row and column. -/
abbrev rawRows (a0 a1 : FVec Ideal S4096x256 .f32) : Fin 8192 → Fin 256 → EReal :=
  Spec.stack (Spec.mat a0) (Spec.mat a1)

/-- The unit rows: the stacked arguments, every row divided by its clamped norm. -/
abbrev unitRows (a0 a1 : FVec Ideal S4096x256 .f32) : Fin 8192 → Fin 256 → EReal :=
  Spec.unit (rawRows a0 a1)

/-- The concatenation along the rows is the stack: rows below 4096 come from the first argument, the others
    from the second. -/
theorem stacked_apply (a0 a1 : FVec Ideal S4096x256 .f32) (r : Fin 8192) (d : Fin 256) :
    val_main_v0 (F := Ideal) a0 a1 (ix2 r d) = rawRows a0 a1 r d := by
  unfold val_main_v0
  show _ = Spec.stack (Spec.mat a0) (Spec.mat a1) r d
  unfold Spec.stack
  by_cases h : r.val < 4096
  · rw [dif_pos h]
    exact concatenate_pair_apply_left 0 a0 a1 _ (ix2 r d) rfl (ix2 (⟨r.val, h⟩ : Fin 4096) d)
      (fun b => match b with | ⟨0, _⟩ => rfl | ⟨1, _⟩ => rfl)
  · rw [dif_neg h]
    exact concatenate_pair_apply_right 0 a0 a1 _ (ix2 r d) rfl rfl (ix2 (⟨r.val - 4096, by omega⟩ : Fin 4096) d)
      (fun b hb => match b, hb with | ⟨0, _⟩, hb => absurd rfl hb | ⟨1, _⟩, _ => rfl)
      (by show r.val - 4096 + 4096 = r.val; omega)

/-- The clamped norm column at row r: the square root of the row's sum of squares, or ε if that is larger. -/
theorem norm_apply (a0 a1 : FVec Ideal S4096x256 .f32) (r : Fin 8192) :
    val_main_v3 (F := Ideal) a0 a1 (ix2 r (0 : Fin 1)) = Spec.nrm (rawRows a0 a1) r := by
  have e : ∀ k : Fin 256, idx_main_call0_v1 (idx_main_call0_v2 (ix2 r (0 : Fin 1))) k = ix2 r k := fun k =>
    funext fun a => Fin.ext (by match a with | ⟨0, _⟩ => rfl | ⟨1, _⟩ => rfl)
  rw [val_main_v3_apply, val_main_v1_apply, val_main_call0_v2_apply, val_main_call0_v1_apply, val_main_v2_apply,
    val_main_cst_apply, val_main_call0_cst_apply]
  simp only [val_main_call0_v0_apply, e, stacked_apply, Ideal.maximumf_def, Ideal.hostUnary_sqrt_def, Ideal.ofBits_def,
    Ideal.mulf_def, Ideal.ofBits_zero_f32, zero_add]
  rfl

/-- An entry of the normalised matrix: the stacked entry divided by its row's clamped norm. -/
theorem unit_apply (a0 a1 : FVec Ideal S4096x256 .f32) (r : Fin 8192) (d : Fin 256) :
    val_main_v5 (F := Ideal) a0 a1 (ix2 r d) = unitRows a0 a1 r d := by
  have e : idx_main_v4 (ix2 r d) = ix2 r (0 : Fin 1) :=
    funext fun a => Fin.ext (by match a with | ⟨0, _⟩ => rfl | ⟨1, _⟩ => rfl)
  rw [val_main_v5_apply, val_main_v4_apply, e, norm_apply, stacked_apply, Ideal.hostDivf_def]
  rfl

/-- An entry of the similarity matrix: the inner product of two unit rows. -/
theorem sim_apply (a0 a1 : FVec Ideal S4096x256 .f32) (p q : Fin 8192) :
    val_main_v7 (F := Ideal) a0 a1 (ix2 p q) = Spec.simR (unitRows a0 a1) p q := by
  have el : ∀ k : Fin 256, lidx_main_v7 (ix2 p q) k = ix2 p k := fun k =>
    funext fun a => Fin.ext (by match a with | ⟨0, _⟩ => rfl | ⟨1, _⟩ => rfl)
  have er : ∀ k : Fin 256, idx_main_v6 (ridx_main_v7 (ix2 p q) k) = ix2 q k := fun k =>
    funext fun a => Fin.ext (by match a with | ⟨0, _⟩ => rfl | ⟨1, _⟩ => rfl)
  rw [val_main_v7_apply]
  simp only [val_main_v6_apply, el, er, unit_apply]
  rfl

end Cert.ReferenceIdeal.RefValue

end
-- ==== Proof.LibPairScatter.lean ====
/-
  Two index-dependent host operations read at an index, for any element type.

  A scatter whose body returns the update (an `.at[…].set`) with every update the same value `c`: the result at an index
  `i` is `c` when some update lands at `i` and the operand's element otherwise. The order in which the updates are
  applied cannot matter, since all of them write the same value; so the statement holds of the row-major fold the
  operation is defined by, and the proof is an induction along that fold.

  A gather of single elements of a matrix at a list of (row, column) start indices: result element `k` is the matrix at
  the `k`-th index pair, each component read as a signed integer and clamped into its axis.
-/
import Idealize.ShloMosaic.PureOps.Ideal
import Idealize.ShloMosaic.Lib.ValueIdx

noncomputable section

namespace Cert.ReferenceIdeal.RefValue

open Idealize.ShloMosaic Idealize.ShloMosaic.ValueIdx

section Scatter
variable {α : Type} {s si u : Shape} {w : Nat}

/-- One update of a scatter: the step the operation folds over its update indices. -/
def scatStep (d : ScatterDims s si u) (f : α → α → α) (idx : IVec si w) (upd : u.Idx → α) (r : s.Idx → α)
    (n : Fin u.numel) : s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (scatStep d f idx upd) x := rfl

/-- A step whose update lands at `i` leaves the body's value there. -/
theorem scatStep_hit (d : ScatterDims s si u) (f : α → α → α) (idx : IVec si w) (upd : u.Idx → α) (r : s.Idx → α)
    (n : Fin u.numel) (i : s.Idx) (h : d.resultIdx? (u.rowMajor.symm n) idx = some i) :
    scatStep d f idx upd r n i = f (r i) (upd (u.rowMajor.symm n)) := by
  unfold scatStep
  rw [h]
  exact if_pos rfl

/-- A step whose update lands elsewhere, or nowhere, leaves `i` as it was. -/
theorem scatStep_miss (d : ScatterDims s si u) (f : α → α → α) (idx : IVec si w) (upd : u.Idx → α) (r : s.Idx → α)
    (n : Fin u.numel) (i : s.Idx) (h : d.resultIdx? (u.rowMajor.symm n) idx ≠ some i) :
    scatStep d f idx upd r n i = r i := by
  unfold scatStep
  generalize d.resultIdx? (u.rowMajor.symm n) idx = q at h
  cases q with
  | none => rfl
  | some i0 =>
    have hne : i ≠ i0 := fun e => h (by rw [e])
    exact if_neg hne

/-- Steps none of which lands at `i` leave `i` as it was. -/
theorem foldl_scatStep_miss (d : ScatterDims s si u) (f : α → α → α) (idx : IVec si w) (upd : u.Idx → α) (i : s.Idx)
    (l : List (Fin u.numel)) (r : s.Idx → α) (h : ∀ n ∈ l, d.resultIdx? (u.rowMajor.symm n) idx ≠ some i) :
    l.foldl (scatStep d f idx upd) r i = r i := by
  induction l generalizing r with
  | nil => rfl
  | cons n l ih =>
    rw [List.foldl_cons, ih _ (fun m hm => h m (List.mem_cons_of_mem _ hm))]
    exact scatStep_miss d f idx upd r n i (h n List.mem_cons_self)

/-- Steps that all write the value `c`, one of which lands at `i`, leave `c` there. -/
theorem foldl_scatStep_set_const_hit (d : ScatterDims s si u) (idx : IVec si w) (c : α) (i : s.Idx)
    (l : List (Fin u.numel)) (r : s.Idx → α) (h : ∃ n ∈ l, d.resultIdx? (u.rowMajor.symm n) idx = some i) :
    l.foldl (scatStep d (fun _ b => b) idx (fun _ => c)) r i = c := by
  induction l generalizing r with
  | nil => obtain ⟨n, hn, _⟩ := h; cases hn
  | cons n l ih =>
    rw [List.foldl_cons]
    by_cases hl : ∃ m ∈ l, d.resultIdx? (u.rowMajor.symm m) idx = some i
    · exact ih _ hl
    · have hn : d.resultIdx? (u.rowMajor.symm n) idx = some i := by
        obtain ⟨m, hm, hmi⟩ := h
        rcases List.mem_cons.1 hm with rfl | hm'
        · exact hmi
        · exact absurd ⟨m, hm', hmi⟩ hl
      rw [foldl_scatStep_miss d _ idx _ i l _ (fun m hm e => hl ⟨m, hm, e⟩)]
      exact scatStep_hit d _ idx _ r n i hn

/-- A set-scatter of one value `c` at an index some update lands at: `c`. -/
theorem scatter_set_const_hit (d : ScatterDims s si u) (x : s.Idx → α) (idx : IVec si w) (c : α) (i : s.Idx)
    (h : ∃ j : u.Idx, d.resultIdx? j idx = some i) :
    Host.scatter d (fun _ b => b) x idx (fun _ => c) i = c := by
  rw [scatter_eq_foldl]
  obtain ⟨j, hj⟩ := h
  exact foldl_scatStep_set_const_hit d idx c i _ x
    ⟨u.rowMajor j, List.mem_finRange _, by rw [Equiv.symm_apply_apply]; exact hj⟩

/-- A scatter at an index no update lands at: the operand's element. -/
theorem scatter_miss (d : ScatterDims s si u) (f : α → α → α) (x : s.Idx → α) (idx : IVec si w) (upd : u.Idx → α)
    (i : s.Idx) (h : ∀ j : u.Idx, d.resultIdx? j idx ≠ some i) :
    Host.scatter d f x idx upd i = x i := by
  rw [scatter_eq_foldl]
  exact foldl_scatStep_miss d f idx upd i _ x (fun n _ => h _)

end Scatter

section Pair
variable {α : Type} {N M R w : Nat}

/-- The index-array position of component `c` of the `k`-th index pair of an `[R, 2]` array of (row, column) pairs. -/
abbrev pairIdx (j : (⟨1, ![R]⟩ : Shape).Idx) (c : Fin 2) : (⟨2, ![R, 2]⟩ : Shape).Idx :=
  fun a => match a with | ⟨0, _⟩ => ⟨(j 0).val, (j 0).isLt⟩ | ⟨1, _⟩ => c

/-- The dimension numbers of `x.at[rows, cols].set(v)` on a matrix: both operand axes inserted, the index pair read
    along axis 1 of the `[R, 2]` index array; their conditions `wf` are decided on a program's literal shapes. -/
abbrev pairScatterDims (N M R : Nat) (wf : ScatterDims.WF ⟨2, ![N, M]⟩ ⟨2, ![R, 2]⟩ ⟨1, ![R]⟩ [] [0, 1] [0, 1] 1) :
    ScatterDims ⟨2, ![N, M]⟩ ⟨2, ![R, 2]⟩ ⟨1, ![R]⟩ where
  updateWindowDims := []
  insertedWindowDims := [0, 1]
  scatterDimsToOperandDims := [0, 1]
  indexVectorDim := 1
  wf := wf

/-- Update `j` of such a scatter, whose index pair holds the in-range row `p` and column `q`, lands at `(p, q)`. -/
theorem pairScatter_resultIdx (wf : ScatterDims.WF ⟨2, ![N, M]⟩ ⟨2, ![R, 2]⟩ ⟨1, ![R]⟩ [] [0, 1] [0, 1] 1)
    (idx : IVec ⟨2, ![R, 2]⟩ w) (j : (⟨1, ![R]⟩ : Shape).Idx) (p : Fin N) (q : Fin M)
    (hp : (idx (pairIdx j 0)).toInt = (p.val : Int)) (hq : (idx (pairIdx j 1)).toInt = (q.val : Int)) :
    (pairScatterDims N M R wf).resultIdx? j idx = some (ix2 p q) := by
  have hsi : ∀ (c : Fin 2) (hc : c.val < (pairScatterDims N M R wf).scatterDimsToOperandDims.length),
      (pairScatterDims N M R wf).siIdx j ⟨c.val, hc⟩ = pairIdx j c := by
    intro c hc
    funext b; refine Fin.ext ?_
    match b with
    | ⟨0, _⟩ => rfl
    | ⟨1, _⟩ => rfl
  have hs0 : (pairScatterDims N M R wf).start j idx 0 = (p.val : Int) := by
    unfold ScatterDims.start
    rw [dif_pos (show (0 : Fin 2) ∈ [(0 : Fin 2), 1] from by decide)]
    exact (congrArg (fun t => (idx t).toInt) (hsi 0 (show (0 : ℕ) < 2 by decide))).trans hp
  have hs1 : (pairScatterDims N M R wf).start j idx 1 = (q.val : Int) := by
    unfold ScatterDims.start
    rw [dif_pos (show (1 : Fin 2) ∈ [(0 : Fin 2), 1] from by decide)]
    exact (congrArg (fun t => (idx t).toInt) (hsi 1 (show (1 : ℕ) < 2 by decide))).trans hq
  have hw : ∀ a, (pairScatterDims N M R wf).window j a = 0 := by
    intro a
    unfold ScatterDims.window
    rw [dif_neg]
    have hk : ∀ b : Fin 2, b ∉ (List.finRange 2).filter (· ∉ [(0 : Fin 2), 1]) := by decide
    exact hk a
  have H : ∀ a, 0 ≤ (pairScatterDims N M R wf).start j idx a + (pairScatterDims N M R wf).window j a ∧
      (pairScatterDims N M R wf).start j idx a + (pairScatterDims N M R wf).window j a < (⟨2, ![N, M]⟩ : Shape).size a := by
    intro a
    match a with
    | ⟨0, _⟩ =>
      have h0 := hs0; have hw0 := hw 0
      show 0 ≤ (pairScatterDims N M R wf).start j idx 0 + (pairScatterDims N M R wf).window j 0 ∧
        (pairScatterDims N M R wf).start j idx 0 + (pairScatterDims N M R wf).window j 0 < (N : Int)
      rw [h0, hw0]; have := p.isLt; omega
    | ⟨1, _⟩ =>
      have h1 := hs1; have hw1 := hw 1
      show 0 ≤ (pairScatterDims N M R wf).start j idx 1 + (pairScatterDims N M R wf).window j 1 ∧
        (pairScatterDims N M R wf).start j idx 1 + (pairScatterDims N M R wf).window j 1 < (M : Int)
      rw [h1, hw1]; have := q.isLt; omega
  unfold ScatterDims.resultIdx?
  rw [dif_pos H]
  refine congrArg some (funext fun a => Fin.ext ?_)
  match a with
  | ⟨0, _⟩ =>
    show ((pairScatterDims N M R wf).start j idx 0 + (pairScatterDims N M R wf).window j 0).toNat = p.val
    rw [hs0, hw 0]; simp
  | ⟨1, _⟩ =>
    show ((pairScatterDims N M R wf).start j idx 1 + (pairScatterDims N M R wf).window j 1).toNat = q.val
    rw [hs1, hw 1]; simp

/-- The dimension numbers of `x[rows, cols]` on a matrix: single elements, both operand axes collapsed, the index pair
    read along axis 1 of the `[R, 2]` index array. -/
abbrev pairGatherDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Such a gather at `j`: the matrix at the `j`-th index pair, each component read signed and clamped into its axis. -/
theorem gather_pair_apply (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (j : (⟨1, ![R]⟩ : Shape).Idx) :
    Host.gather (pairGatherDims N M R wf) x idx j
      = x (ix2 (⟨min (idx (pairIdx j 0)).toInt.toNat (N - 1), by omega⟩ : Fin N)
               (⟨min (idx (pairIdx j 1)).toInt.toNat (M - 1), by omega⟩ : Fin M)) := by
  unfold Host.gather
  refine congrArg x (funext fun a => Fin.ext ?_)
  have hsi : ∀ (c : Fin 2) (hc : c.val < (pairGatherDims N M R wf).startIndexMap.length),
      (pairGatherDims N M R wf).siIdx j ⟨c.val, hc⟩ = pairIdx j c := by
    intro c hc
    funext b; refine Fin.ext ?_
    match b with
    | ⟨0, _⟩ => rfl
    | ⟨1, _⟩ => rfl
  have hcol : ∀ b : Fin 2, b ∈ [(0 : Fin 2), 1] := by decide
  match a with
  | ⟨0, _⟩ =>
    show (pairGatherDims N M R wf).start j idx 0 + (pairGatherDims N M R wf).batchCoord j 0
      + (pairGatherDims N M R wf).offCoord j 0 = _
    rw [GatherDims.batchCoord_eq_zero _ _ _ List.not_mem_nil,
      GatherDims.offCoord_eq_zero _ _ _ (fun h => ((GatherDims.mem_sKept _ _).mp h).1 (hcol 0))]
    simp only [Nat.add_zero]
    unfold GatherDims.start
    rw [dif_pos (show (0 : Fin 2) ∈ [(0 : Fin 2), 1] from hcol 0)]
    exact congrArg (fun t => min (idx t).toInt.toNat (N - 1)) (hsi 0 (show (0 : ℕ) < 2 by decide))
  | ⟨1, _⟩ =>
    show (pairGatherDims N M R wf).start j idx 1 + (pairGatherDims N M R wf).batchCoord j 1
      + (pairGatherDims N M R wf).offCoord j 1 = _
    rw [GatherDims.batchCoord_eq_zero _ _ _ List.not_mem_nil,
      GatherDims.offCoord_eq_zero _ _ _ (fun h => ((GatherDims.mem_sKept _ _).mp h).1 (hcol 1))]
    simp only [Nat.add_zero]
    unfold GatherDims.start
    rw [dif_pos (show (1 : Fin 2) ∈ [(0 : Fin 2), 1] from hcol 1)]
    exact congrArg (fun t => min (idx t).toInt.toNat (M - 1)) (hsi 1 (show (1 : ℕ) < 2 by decide))

end Pair

end Cert.ReferenceIdeal.RefValue

end
-- ==== Proof.RefPos.lean ====
/-
  The positives of the reference, read entry by entry.

  The two off-diagonals of the similarity matrix at offsets +4096 and −4096 are gathered at index pairs built from
  counters: (i, i + 4096) for the first, (i + 4096, i) for the second, 0 ≤ i < 4096. Every such coordinate is a
  non-negative number below 8192, so reading it as a signed integer, wrapping negative ones and clamping into the
  axis all leave it unchanged. Laid end to end the two gathers give, at row r, the inner product of unit row r
  with its partner row r ± 4096.
-/
import proofs.«169832_j86492051407493_2_alg».proof.Proof.RefNorm
import proofs.«169832_j86492051407493_2_alg».proof.Proof.LibPairs
import proofs.«169832_j86492051407493_2_alg».proof.Proof.LibPairScatter

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

open Cert.Lib.Pairs

/-- A small counter read as a signed 32-bit integer is itself. -/
theorem toInt_ofNat_small (n : Nat) (hn : n < 2147483648) : (BitVec.ofNat 32 n).toInt = (n : Int) := by
  have e := BitVec.toInt_eq_toNat_cond (BitVec.ofNat 32 n)
  rw [BitVec.toNat_ofNat, Nat.mod_eq_of_lt (by omega : n < 2 ^ 32)] at e
  rw [e]
  split <;> omega

/-- A small counter is not negative: the wrap-around branch of an index normalisation is never taken. -/
theorem select_nonneg {α : Type} (n : Nat) (hn : n < 2147483648) (A B : α) :
    Scalar.select (IntOp.cmpi .slt (BitVec.ofNat 32 n) 0#32) A B = B := by
  have h : (BitVec.ofNat 32 n).slt 0#32 = false := by
    rw [Bool.eq_false_iff]
    intro hc
    have h1 := BitVec.slt_iff_toInt_lt.mp hc
    rw [toInt_ofNat_small n hn] at h1
    have h0 : (0#32 : BitVec 32).toInt = 0 := by decide
    omega
  show (if BitVec.ofBool ((BitVec.ofNat 32 n).slt 0#32) = 1 then A else B) = B
  rw [h]
  exact if_neg (by decide)

/-- The counter i of a length-4096 iota, wrapped if negative: i. -/
theorem wrapped_counter {A : BitVec 32} (i : Fin 4096) :
    Scalar.select (IntOp.cmpi .slt (BitVec.ofNat 32 i.val) 0#32) A (BitVec.ofNat 32 i.val) = BitVec.ofNat 32 i.val :=
  select_nonneg i.val (by have := i.isLt; omega) _ _

/-- The shifted counter 4096 + i, wrapped if negative: i + 4096. -/
theorem wrapped_shifted {A : BitVec 32} (i : Fin 4096) :
    Scalar.select (IntOp.cmpi .slt (IntOp.addi 4096#32 (BitVec.ofNat 32 i.val)) 0#32) A
      (IntOp.addi 4096#32 (BitVec.ofNat 32 i.val)) = BitVec.ofNat 32 (i.val + 4096) := by
  have e : IntOp.addi 4096#32 (BitVec.ofNat 32 i.val) = BitVec.ofNat 32 (i.val + 4096) := by
    show BitVec.ofNat 32 4096 + BitVec.ofNat 32 i.val = _
    rw [← BitVec.ofNat_add, Nat.add_comm]
  rw [e]
  exact select_nonneg (i.val + 4096) (by have := i.isLt; omega) _ _

/-- A gather of single matrix entries whose i-th index pair holds the in-range row p and column q reads the
    entry (p, q). -/
theorem gather_at (x : FVec Ideal S8192x8192 .f32) (idx : IVec S4096x2 32) (i : Fin 4096) (p q : Fin 8192)
    (hp : idx (ix2 i (0 : Fin 2)) = BitVec.ofNat 32 p.val) (hq : idx (ix2 i (1 : Fin 2)) = BitVec.ofNat 32 q.val) :
    Host.gather gather_S8192x8192_S4096x2_S4096_n_01_n_n_01_1_11 x idx (ix1 i) = x (ix2 p q) := by
  have e0 : pairIdx (R := 4096) (ix1 i) 0 = ix2 i (0 : Fin 2) :=
    funext fun a => by match a with | ⟨0, _⟩ => rfl | ⟨1, _⟩ => rfl
  have e1 : pairIdx (R := 4096) (ix1 i) 1 = ix2 i (1 : Fin 2) :=
    funext fun a => by match a with | ⟨0, _⟩ => rfl | ⟨1, _⟩ => rfl
  refine (gather_pair_apply (N := 8192) (M := 8192) (R := 4096) (by decide) (by decide)
    gather_S8192x8192_S4096x2_S4096_n_01_n_n_01_1_11_wf x idx (ix1 i)).trans ?_
  refine congrArg x (funext fun a => Fin.ext ?_)
  match a with
  | ⟨0, _⟩ =>
    show min (idx (pairIdx (R := 4096) (ix1 i) 0)).toInt.toNat (8192 - 1) = p.val
    rw [e0, hp, toInt_ofNat_small _ (by have := p.isLt; omega)]
    have := p.isLt; omega
  | ⟨1, _⟩ =>
    show min (idx (pairIdx (R := 4096) (ix1 i) 1)).toInt.toNat (8192 - 1) = q.val
    rw [e1, hq, toInt_ofNat_small _ (by have := q.isLt; omega)]
    have := q.isLt; omega

/-- The index pairs of the diagonal at offset +4096: pair i is (i, i + 4096). -/
theorem upper_pairs (i : Fin 4096) :
    val_main_call1_v16 (F := Ideal) (ix2 i (0 : Fin 2)) = BitVec.ofNat 32 i.val
    ∧ val_main_call1_v16 (F := Ideal) (ix2 i (1 : Fin 2)) = BitVec.ofNat 32 (i.val + 4096) := by
  have e14 : idx_main_call1_v14 (ix2 i (0 : Fin 1)) = ix1 i := funext fun a => by match a with | ⟨0, _⟩ => rfl
  have e15 : idx_main_call1_v15 (ix2 i (0 : Fin 1)) = ix1 i := funext fun a => by match a with | ⟨0, _⟩ => rfl
  constructor
  · unfold val_main_call1_v16
    refine (cols_left (val_main_call1_v14 (F := Ideal)) (val_main_call1_v15 (F := Ideal))
      concatenates_S4096x1_S4096x1_S4096x2_d1 i).trans ?_
    rw [val_main_call1_v14_apply, e14, val_main_call1_v8_apply, val_main_call1_v5_apply,
      val_main_call1_v0_apply, val_main_call1_v4_apply, val_main_call1_c_0_apply]
    exact wrapped_counter i
  · unfold val_main_call1_v16
    refine (cols_right (val_main_call1_v14 (F := Ideal)) (val_main_call1_v15 (F := Ideal))
      concatenates_S4096x1_S4096x1_S4096x2_d1 i).trans ?_
    rw [val_main_call1_v15_apply, e15, val_main_call1_v13_apply, val_main_call1_v10_apply,
      val_main_call1_v3_apply, val_main_call1_v2_apply, val_main_call1_c_apply,
      val_main_call1_v1_apply, val_main_call1_v9_apply, val_main_call1_c_2_apply]
    exact wrapped_shifted i

/-- The index pairs of the diagonal at offset −4096: pair i is (i + 4096, i). -/
theorem lower_pairs (i : Fin 4096) :
    val_main_call2_v16 (F := Ideal) (ix2 i (0 : Fin 2)) = BitVec.ofNat 32 (i.val + 4096)
    ∧ val_main_call2_v16 (F := Ideal) (ix2 i (1 : Fin 2)) = BitVec.ofNat 32 i.val := by
  have e14 : idx_main_call2_v14 (ix2 i (0 : Fin 1)) = ix1 i := funext fun a => by match a with | ⟨0, _⟩ => rfl
  have e15 : idx_main_call2_v15 (ix2 i (0 : Fin 1)) = ix1 i := funext fun a => by match a with | ⟨0, _⟩ => rfl
  constructor
  · unfold val_main_call2_v16
    refine (cols_left (val_main_call2_v14 (F := Ideal)) (val_main_call2_v15 (F := Ideal))
      concatenates_S4096x1_S4096x1_S4096x2_d1 i).trans ?_
    rw [val_main_call2_v14_apply, e14, val_main_call2_v8_apply, val_main_call2_v5_apply,
      val_main_call2_v3_apply, val_main_call2_v2_apply, val_main_call2_c_apply,
      val_main_call2_v1_apply, val_main_call2_v4_apply, val_main_call2_c_0_apply]
    exact wrapped_shifted i
  · unfold val_main_call2_v16
    refine (cols_right (val_main_call2_v14 (F := Ideal)) (val_main_call2_v15 (F := Ideal))
      concatenates_S4096x1_S4096x1_S4096x2_d1 i).trans ?_
    rw [val_main_call2_v15_apply, e15, val_main_call2_v13_apply, val_main_call2_v10_apply,
      val_main_call2_v0_apply, val_main_call2_v9_apply, val_main_call2_c_2_apply]
    exact wrapped_counter i

/-- The diagonal at offset +4096: entry i is the inner product of unit rows i and i + 4096. -/
theorem upper_diag (a0 a1 : FVec Ideal S4096x256 .f32) (i : Fin 4096) :
    val_main_v8 (F := Ideal) a0 a1 (ix1 i)
      = Spec.simR (unitRows a0 a1) ⟨i.val, by omega⟩ ⟨i.val + 4096, by omega⟩ := by
  unfold val_main_v8
  rw [gather_at _ _ i ⟨i.val, by omega⟩ ⟨i.val + 4096, by omega⟩ (upper_pairs i).1 (upper_pairs i).2]
  exact sim_apply a0 a1 _ _

/-- The diagonal at offset −4096: entry i is the inner product of unit rows i + 4096 and i. -/
theorem lower_diag (a0 a1 : FVec Ideal S4096x256 .f32) (i : Fin 4096) :
    val_main_v9 (F := Ideal) a0 a1 (ix1 i)
      = Spec.simR (unitRows a0 a1) ⟨i.val + 4096, by omega⟩ ⟨i.val, by omega⟩ := by
  unfold val_main_v9
  rw [gather_at _ _ i ⟨i.val + 4096, by omega⟩ ⟨i.val, by omega⟩ (lower_pairs i).1 (lower_pairs i).2]
  exact sim_apply a0 a1 _ _

/-- The first half of the concatenation is the diagonal at offset +4096. -/
theorem pos_left (a0 a1 : FVec Ideal S4096x256 .f32) (i : Fin 4096) (hb : i.val < 8192) :
    val_main_v10 (F := Ideal) a0 a1 (ix1 (⟨i.val, hb⟩ : Fin 8192)) = val_main_v8 (F := Ideal) a0 a1 (ix1 i) := by
  unfold val_main_v10
  exact cat_left _ _ concatenates_S4096_S4096_S8192_d0 i hb

/-- The second half of the concatenation is the diagonal at offset −4096. -/
theorem pos_right (a0 a1 : FVec Ideal S4096x256 .f32) (i : Fin 4096) (hb : 4096 + i.val < 8192) :
    val_main_v10 (F := Ideal) a0 a1 (ix1 (⟨4096 + i.val, hb⟩ : Fin 8192)) = val_main_v9 (F := Ideal) a0 a1 (ix1 i) := by
  unfold val_main_v10
  exact cat_right _ _ concatenates_S4096_S4096_S8192_d0 i hb

/-- The concatenated positives: at row r the inner product of unit row r with its partner row. -/
theorem ref_pos (a0 a1 : FVec Ideal S4096x256 .f32) (r : Fin 8192) :
    val_main_v10 (F := Ideal) a0 a1 (ix1 r) = Spec.posR (unitRows a0 a1) r := by
  unfold Spec.posR
  by_cases h : r.val < 4096
  · rw [dif_pos h]
    exact (pos_left a0 a1 ⟨r.val, h⟩ r.isLt).trans (upper_diag a0 a1 ⟨r.val, h⟩)
  · rw [dif_neg h]
    have hb : 4096 + (r.val - 4096) < 8192 := by have := r.isLt; omega
    have hr : r = ⟨4096 + (r.val - 4096), hb⟩ := Fin.ext (by show r.val = 4096 + (r.val - 4096); omega)
    have h1 : val_main_v10 (F := Ideal) a0 a1 (ix1 r)
        = val_main_v9 (F := Ideal) a0 a1 (ix1 (⟨r.val - 4096, by omega⟩ : Fin 4096)) := by
      refine (congrArg (fun t => val_main_v10 (F := Ideal) a0 a1 (ix1 t)) hr).trans ?_
      exact pos_right a0 a1 ⟨r.val - 4096, by omega⟩ hb
    rw [h1, lower_diag]
    exact congrArg (fun t => Spec.simR (unitRows a0 a1) t ⟨r.val - 4096, by omega⟩)
      (Fin.ext (by show r.val - 4096 + 4096 = r.val; omega))

end Cert.ReferenceIdeal.RefValue

end
-- ==== Proof.RefDen.lean ====
/-
  The denominators of the reference, read entry by entry.

  The entry (r, c) of the similarity matrix is replaced by −∞ where the row counter equals the column counter,
  that is where r = c; every entry is divided by the temperature 1/2 and exponentiated; each row is summed from
  zero. So row r of the result is Σ_c exp ((if r = c then −∞ else ⟨Z r, Z c⟩) / (1/2)).
-/
import proofs.«169832_j86492051407493_2_alg».proof.Proof.RefNorm

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- Two counters below 8192 are equal as 32-bit words exactly when they are equal: the mask selects the main
    diagonal. -/
theorem mask_select {α : Type} (r c : Fin 8192) (A B : α) :
    Scalar.select (IntOp.cmpi .eq (IntOp.addi (BitVec.ofNat 32 r.val) 0#32) (BitVec.ofNat 32 c.val)) A B
      = if r = c then A else B := by
  have e : IntOp.addi (BitVec.ofNat 32 r.val) 0#32 = BitVec.ofNat 32 r.val := BitVec.add_zero _
  rw [e]
  show (if BitVec.ofBool (BitVec.ofNat 32 r.val == BitVec.ofNat 32 c.val) = 1 then A else B) = _
  by_cases h : r = c
  · subst h
    rw [if_pos rfl, beq_self_eq_true]
    exact if_pos rfl
  · rw [if_neg h]
    have hne : (BitVec.ofNat 32 r.val == BitVec.ofNat 32 c.val) = false := by
      rw [beq_eq_false_iff_ne]
      intro hc
      have h1 := congrArg BitVec.toNat hc
      have hr := r.isLt
      have hcl := c.isLt
      rw [BitVec.toNat_ofNat, BitVec.toNat_ofNat, Nat.mod_eq_of_lt (by omega), Nat.mod_eq_of_lt (by omega)] at h1
      exact h (Fin.ext h1)
    rw [hne]
    exact if_neg (by decide)

/-- The masked similarity matrix: −∞ on the main diagonal, the inner product of unit rows r and c elsewhere. -/
theorem masked_apply (a0 a1 : FVec Ideal S4096x256 .f32) (r c : Fin 8192) :
    val_main_v16 (F := Ideal) a0 a1 (ix2 r c)
      = if r = c then Spec.negInf else Spec.simR (unitRows a0 a1) r c := by
  rw [val_main_v16_apply, val_main_v15_apply, val_main_v14_apply, val_main_v11_apply, val_main_v13_apply,
    val_main_c_apply, val_main_v12_apply, val_main_call3_v1_apply, val_main_call3_v0_apply, val_main_cst_0_apply,
    sim_apply]
  exact mask_select r c _ _

/-- The exponentiated entry: exp of the masked similarity divided by the temperature 1/2. -/
theorem expd_apply (a0 a1 : FVec Ideal S4096x256 .f32) (r c : Fin 8192) :
    val_main_v19 (F := Ideal) a0 a1 (ix2 r c)
      = Ideal.exp (Ideal.div (if r = c then Spec.negInf else Spec.simR (unitRows a0 a1) r c) Spec.half) := by
  rw [val_main_v19_apply, val_main_v18_apply, masked_apply, val_main_v17_apply, val_main_cst_1_apply]
  rfl

/-- The row sums: at row r the sum over all columns c of the exponentiated masked similarities. -/
theorem ref_den (a0 a1 : FVec Ideal S4096x256 .f32) (r : Fin 8192) :
    val_main_v20 (F := Ideal) a0 a1 (ix1 r) = Spec.denR (unitRows a0 a1) r := by
  have e : ∀ k : Fin 8192, idx_main_v20 (ix1 r) k = ix2 r k := fun k =>
    funext fun a => Fin.ext (by match a with | ⟨0, _⟩ => rfl | ⟨1, _⟩ => rfl)
  rw [val_main_v20_apply, val_main_cst_2_apply]
  simp only [e, expd_apply, Ideal.ofBits_def, Ideal.ofBits_zero_f32, zero_add]
  rfl

end Cert.ReferenceIdeal.RefValue

end
-- ==== Proof.RefTail.lean ====
/-
  The last five operations of the loss, as one function of the 8192 positives and the 8192 denominators:
  the quotient pos / den entry by entry, its logarithm, the sum of the 8192 logarithms starting from zero, that sum
  divided by 8192, negated:  −(1/8192) · Σ_r log (pos r / den r).  No program is imported: both sides end in it.
-/
import Idealize.ShloMosaic.PureOps
import Idealize.ShloMosaic.PureOps.Ideal

noncomputable section

namespace Cert.ReferenceIdeal.RefValue

open Idealize.ShloMosaic

/-- −(1/8192) · Σ_r log (pos r / den r), in the operations both programs end with. -/
def refTail (pos den : FVec Ideal (⟨1, ![8192]⟩ : Shape) .f32) : FVec Ideal (⟨0, ![]⟩ : Shape) .f32 :=
  Host.negf (F := Ideal) (Host.divf (F := Ideal)
    (Host.reduceAdd (F := Ideal) (axes := [0]) (Host.log (F := Ideal) (Host.divf (F := Ideal) pos den))
      (constant (F := Ideal) (⟨0, ![]⟩ : Shape) .f32 0x00000000#32) (by decide) (by decide))
    (constant (F := Ideal) (⟨0, ![]⟩ : Shape) .f32 0x46000000#32))

end Cert.ReferenceIdeal.RefValue

end
-- ==== Proof.RefResult.lean ====
/-
  The reference's result as a function of the two arguments.

  With Z the matrix of unit rows of the stacked arguments, the concatenated positives are r ↦ posR Z r and the
  row sums are r ↦ denR Z r; the remaining five operations are the shared tail. So the result is
  −(1/8192) · Σ_r log (posR Z r / denR Z r).
-/
import proofs.«169832_j86492051407493_2_alg».proof.Proof.RefPos
import proofs.«169832_j86492051407493_2_alg».proof.Proof.RefDen
import proofs.«169832_j86492051407493_2_alg».proof.Proof.RefTail

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The positives as a vector. -/
theorem pos_vec (a0 a1 : FVec Ideal S4096x256 .f32) :
    val_main_v10 (F := Ideal) a0 a1 = fun i => Spec.posR (unitRows a0 a1) (i 0) :=
  funext fun i => (congrArg (val_main_v10 (F := Ideal) a0 a1) (eq_ix1 i)).trans (ref_pos a0 a1 (i 0))

/-- The denominators as a vector. -/
theorem den_vec (a0 a1 : FVec Ideal S4096x256 .f32) :
    val_main_v20 (F := Ideal) a0 a1 = fun i => Spec.denR (unitRows a0 a1) (i 0) :=
  funext fun i => (congrArg (val_main_v20 (F := Ideal) a0 a1) (eq_ix1 i)).trans (ref_den a0 a1 (i 0))

/-- The reference's last stage is the tail of the positives and the denominators of the unit rows. -/
theorem ref_result (a0 a1 : FVec Ideal S4096x256 .f32) :
    val_main_v25 (F := Ideal) a0 a1
      = refTail (fun i => Spec.posR (unitRows a0 a1) (i 0)) (fun i => Spec.denR (unitRows a0 a1) (i 0)) := by
  show refTail (val_main_v10 (F := Ideal) a0 a1) (val_main_v20 (F := Ideal) a0 a1) = _
  rw [pos_vec, den_vec]

/-- The same for the term the reference's run states for its result, at the arguments' launch contents. -/
theorem ref_result_run (m : (ℓ : Loc nD τ sig) → Buf (Elt Ideal) ℓ) (c : Dev nD) :
    Cert.ReferenceIdeal.Value.res_main_v25 (F := Ideal) m c
      = refTail
          (fun i => Spec.posR (unitRows (m ((c.tc : Thread nD τ).loc main_arg0)) (m ((c.tc : Thread nD τ).loc main_arg1))) (i 0))
          (fun i => Spec.denR (unitRows (m ((c.tc : Thread nD τ).loc main_arg0)) (m ((c.tc : Thread nD τ).loc main_arg1))) (i 0)) :=
  (val_main_v25_eq (F := Ideal) m c).trans (ref_result _ _)

end Cert.ReferenceIdeal.RefValue

end
-- ==== Proof.Finite.lean ====
/-
  The precondition read as a fact about the inputs: the printed predicate is the conjunction of two tests
  "every entry of the array has |x| < +∞". When it is all ones, both conjuncts are one, each `and`-reduction being
  one makes the comparison one at every index, and an extended real with |x| < +∞ is a real number. So every entry
  of both argument arrays is real.
-/
import proofs.«169832_j86492051407493_2_alg».proof.Proof.Gen.Pre_finite_inputs
import proofs.«169832_j86492051407493_2_alg».proof.Proof.LibReal
import proofs.«169832_j86492051407493_2_alg».proof.Proof.Algebra
import Idealize.ShloMosaic.Lib.ReduceAll
import Idealize.ShloMosaic.Lib.Affine

noncomputable section

namespace Cert.Finite

open Idealize.ShloMosaic Cert.LibReal

instance : Subsingleton Cert.Pre_finite_inputs.S_.Idx := ⟨fun a b => funext fun d => d.elim0⟩

/-- Where the finiteness predicate is all ones, every entry of both arrays is a real number. -/
theorem real_of_pre [Cert.Pre_finite_inputs.Facts] (a0 a1 : FVec Ideal Cert.Pre_finite_inputs.S4096x256 .f32)
    (h : Cert.Pre_finite_inputs.fn (F := Ideal) a0 a1 = fun _ => 1#1) : RealVec a0 ∧ RealVec a1 := by
  have h0 := congrFun h ValueIdx.ix0
  dsimp only [Cert.Pre_finite_inputs.fn] at h0
  obtain ⟨h1, h2⟩ := IntOp.andi_eq_one.mp h0
  exact ⟨realVec_of_finite_test a0 fun i => Host.reduce_andi_all _ _ _ _ _ h1 i,
    realVec_of_finite_test a1 fun i => Host.reduce_andi_all _ _ _ _ _ h2 i⟩

/-- The same as matrices of rows and columns. -/
theorem realMat_of_pre [Cert.Pre_finite_inputs.Facts] (a0 a1 : FVec Ideal Cert.Pre_finite_inputs.S4096x256 .f32)
    (h : Cert.Pre_finite_inputs.fn (F := Ideal) a0 a1 = fun _ => 1#1) :
    Cert.Spec.RealMat (Cert.Spec.mat a0) ∧ Cert.Spec.RealMat (Cert.Spec.mat a1) :=
  ⟨fun r d => (real_of_pre a0 a1 h).1 _, fun r d => (real_of_pre a0 a1 h).2 _⟩

end Cert.Finite

end
-- ==== Proof.lean ====
/-
  The certificate of the contrastive loss kernel against its reference.

  Both programs compute −(1/8192) · Σ_r log (pos r / den r) over the 8192 unit rows of the two inputs stacked. The
  kernel's program normalises the two inputs in one region, forms the positives pair by pair, and accumulates the
  denominators tile by tile in a second region with the factor 2 folded into the left operand and the diagonal entries
  zeroed; the reference forms the whole similarity matrix, reads the positives off two of its diagonals, masks the main
  diagonal with −∞, divides by 1/2 and exponentiates. On real inputs — which the precondition guarantees — the two
  arrangements are one function (the positives by commutativity, the denominators because the tiles enumerate the
  columns once each, exp (−∞) = 0, and Σ_d (2a_d)b_d = (Σ_d a_d b_d)/(1/2) over the reals).
  Frames: the kernel's program, at either float instance, is a run of its four items (two regions, two host
  stretches) that writes no argument; the reference's frame is its run with the result dropped. The idealization
  rewrote nothing, so `preserves` is trivial.
-/
import proofs.«169832_j86492051407493_2_alg».proof.Defs
import proofs.«169832_j86492051407493_2_alg».proof.Proof.Gen.Kernel
import proofs.«169832_j86492051407493_2_alg».proof.Proof.Gen.KernelIdeal
import proofs.«169832_j86492051407493_2_alg».proof.Proof.Gen.ReferenceIdeal
import proofs.«169832_j86492051407493_2_alg».proof.Proof.Gen.ReferenceIdeal.Run
import proofs.«169832_j86492051407493_2_alg».proof.Proof.Gen.ReferenceIdeal.Read
import proofs.«169832_j86492051407493_2_alg».proof.Proof.Gen.Pre_finite_inputs
import proofs.«169832_j86492051407493_2_alg».proof.Proof.Assemble
import proofs.«169832_j86492051407493_2_alg».proof.Proof.BitsAssemble
import proofs.«169832_j86492051407493_2_alg».proof.Proof.KernelValue
import proofs.«169832_j86492051407493_2_alg».proof.Proof.PrepValue
import proofs.«169832_j86492051407493_2_alg».proof.Proof.DenomValue
import proofs.«169832_j86492051407493_2_alg».proof.Proof.RefResult
import proofs.«169832_j86492051407493_2_alg».proof.Proof.Algebra
import proofs.«169832_j86492051407493_2_alg».proof.Proof.Finite

noncomputable section

namespace Cert.Proof

open Idealize.ShloMosaic Idealize.SL.Sem
open Cert.Spec Cert.KernelIdeal.Whole

/-! ## The frames and the idealization -/

theorem frame_k : Cert.frame_Kernel := fun m ρ _ => Cert.Kernel.Whole.frame m ρ

theorem frame_ki : Cert.frame_KernelIdeal := fun m ρ _ => Cert.KernelIdeal.Whole.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-! ## The values -/

/-- What the two regions' output arrays hold at the end. -/
theorem vals : Vals (prep (F := Ideal)) (denom (F := Ideal)) where
  unit1 V c r d := Cert.KernelIdeal.Prep.final0_2 V c r d
  unit2 V c r d := Cert.KernelIdeal.Prep.final0_3 V c r d
  pairs V c r := Cert.KernelIdeal.Prep.final0_4 V c r
  dens V c r := Cert.KernelIdeal.Denom.final1_2 V c r

/-- The closing operations are one function on both sides. -/
theorem tail_eq (p d : FVec Ideal (⟨1, ![8192]⟩ : Shape) .f32) :
    Cert.ReferenceIdeal.RefValue.refTail p d = tailK p d := rfl

/-- On real inputs the reference's positives and denominators are the kernel's. -/
theorem bridge {zA zB : Fin 4096 → Fin 256 → EReal} (hA : RealMat zA) (hB : RealMat zB) :
    Cert.ReferenceIdeal.RefValue.refTail (fun i => posR (unit (stack zA zB)) (i 0)) (fun i => denR (unit (stack zA zB)) (i 0))
      = tailK (fun i => posK zA zB (i 0)) (fun i => denK (stack (unit zA) (unit zB)) (i 0)) := by
  rw [tail_eq, unit_stack]
  congr 1
  · funext i; exact (posK_eq_posR zA zB (i 0)).symm
  · funext i; exact (denK_eq_denR (stack_real (unit_real hA) (unit_real hB)) (i 0)).symm

theorem algebraic : Cert.algebraic_KernelIdeal_ReferenceIdeal := by
  intro m ρ m' ρ' hpre hagree
  refine ⟨fun c => tailK (fun i => posK (zA m ρ c) (zB m ρ c) (i 0))
      (fun i => denK (stack (unit (zA m ρ c)) (unit (zB m ρ c))) (i 0)), ?_, ?_⟩
  · exact (θ_run Cert.KernelIdeal.defs _ _).mono
      (fun r h c => ⟨(h c).1.trans (result_eq prep denom vals m ρ c), (h c).2⟩) (run_read prep denom m ρ)
  · refine (θ_run Cert.ReferenceIdeal.defs _ _).mono (fun r h c => ⟨(h c).1.trans ?_, (h c).2⟩)
      (Cert.ReferenceIdeal.Value.run (F := Ideal) m' ρ')
    have hz := Cert.Finite.realMat_of_pre _ _ (hpre c)
    rw [Cert.ReferenceIdeal.RefValue.ref_result_run, (hagree c).1, (hagree c).2]
    exact bridge hz.1 hz.2

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
